-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S_ : Shape := ⟨0, ![]⟩
abbrev S16384 : Shape := ⟨1, ![16384]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_

variable [Facts]

def fn_part2 {F : FTy → Type} [FloatOps F] (main_v28 : IVec S_ 1) (main_v31 : FVec F S16384 .f32) (main_v32 : FVec F S16384 .f32) : IVec S_ 1 :=
  let main_v33 : IVec S16384 1 := cmpf .ogt main_v31 main_v32
  let main_c_13 : IVec S_ 1 := constantI S_ 1 1#1
  let main_v34 : IVec S_ 1 := (fun x v => Host.reduce IntOp.andi x v reducesTo_S16384_S_d0 h_S_) main_v33 main_c_13
  let main_v35 : IVec S_ 1 := andi main_v28 main_v34
  main_v35

def fn_part1 {F : FTy → Type} [FloatOps F] (main_arg0 : FVec F S16384x16384 .f32) (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S16384 .f32 := (fun x v => Host.reduceAdd x v reducesTo_S16384x16384_S16384_d1 h_S_) main_arg0 main_cst_10
  let main_cst_11 : FVec F S_ .f32 := constant S_ .f32 0x3F800000#32
  let main_v30 : FVec F S16384 .f32 := broadcastInDim S16384 ![] bcast_S_S16384 main_cst_11
  let main_v31 : FVec F S16384 .f32 := addf main_v29 main_v30
  let main_cst_12 : FVec F S_ .f32 := constant S_ .f32 0x00000000#32
  let main_v32 : FVec F S16384 .f32 := broadcastInDim S16384 ![] bcast_S_S16384 main_cst_12
  fn_part2 (F := F) main_v28 main_v31 main_v32

def fn {F : FTy → Type} [FloatOps F] (main_arg0 : FVec F S16384x16384 .f32) (main_arg1 : FVec F S16384x64 .f32) (main_arg2 : FVec F S64x64 .f32) (main_arg3 : FVec F S64 .f32) (main_arg4 : FVec F S64 .f32) (main_arg5 : FVec F S64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg4 main_arg5 main_v13 main_v16
-- ==== Kernel.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S1x64 : Shape := ⟨2, ![1, 64]⟩
abbrev S16384x1 : Shape := ⟨2, ![16384, 1]⟩
abbrev S2048x2048 : Shape := ⟨2, ![2048, 2048]⟩
abbrev S2048x1 : Shape := ⟨2, ![2048, 1]⟩
abbrev S2048 : Shape := ⟨1, ![2048]⟩
abbrev S1024x1024 : Shape := ⟨2, ![1024, 1024]⟩
abbrev S1024x64 : Shape := ⟨2, ![1024, 64]⟩
abbrev S1024x1 : Shape := ⟨2, ![1024, 1]⟩

abbrev nBuf : Space → Nat
  | .hbm => 11
  | .vmem => 20
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S16384x64, .f32⟩
  | .hbm, ⟨7, _⟩ => ⟨S16384x1, .f32⟩
  | .hbm, ⟨8, _⟩ => ⟨S16384x64, .f32⟩
  | .hbm, ⟨9, _⟩ => ⟨S16384x64, .f32⟩
  | .hbm, ⟨10, _⟩ => ⟨S16384x64, .f32⟩
  | .local _ .vmem, ⟨0, _⟩ => ⟨S16384x64, .f32⟩
  | .local _ .vmem, ⟨1, _⟩ => ⟨S64x64, .f32⟩
  | .local _ .vmem, ⟨2, _⟩ => ⟨S64, .f32⟩
  | .local _ .vmem, ⟨3, _⟩ => ⟨S64, .f32⟩
  | .local _ .vmem, ⟨4, _⟩ => ⟨S64, .f32⟩
  | .local _ .vmem, ⟨5, _⟩ => ⟨S16384x64, .f32⟩
  | .local _ .vmem, ⟨6, _⟩ => ⟨S2048x2048, .f32⟩
  | .local _ .vmem, ⟨7, _⟩ => ⟨S2048x2048, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S1024x1024, .f32⟩
  | .local _ .vmem, ⟨12, _⟩ => ⟨S1024x1024, .f32⟩
  | .local _ .vmem, ⟨13, _⟩ => ⟨S1024x64, .f32⟩
  | .local _ .vmem, ⟨14, _⟩ => ⟨S1024x64, .f32⟩
  | .local _ .vmem, ⟨15, _⟩ => ⟨S1024x1, .f32⟩
  | .local _ .vmem, ⟨16, _⟩ => ⟨S1024x1, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![16, 16], ![false, false]⟩

def k2_cond3 (i : grid2.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_9 : BitVec 32 := 0#32
  let v19 : BitVec 1 := Scalar.cmpi .ne v18 c0_i32_9
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S16384x64_S16384x64_0_0 : ∀ a, (![0, 0] : Fin 2 → Nat) a + S16384x64.size a ≤ S16384x64.size a
  h_S16384x64 : 0 < S16384x64.numel
  reduces_S16384x64_S64 : S16384x64.Reduces [0] S64
  shapeCasts_S64_S1x64 : S64.ShapeCasts S1x64
  broadcasts_S1x64_S16384x64 : S1x64.Broadcasts S16384x64
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  bcast_S16384x1_S16384x64_0_1 : S16384x1.BroadcastsInDim S16384x64 (![0, 1] : Fin 2 → Fin S16384x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  dot_S16384x64_S64x64_S16384x64_1_0_0_1_n_n_wf : DotDims.WF S16384x64 S64x64 S16384x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S16384x64.size a
  hwx0_0 : ∀ i : grid0.Coords, EltTy.bits .f32 = 32 ∨ (Rect.block (s := S16384x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16384x64.size a ≤ S16384x64.size a
  hwx0_5 : ∀ i : grid0.Coords, EltTy.bits .f32 = 32 ∨ (Rect.block (s := S16384x64) S16384x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .f32 = 32 ∨ (Rect.block (s := S16384x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x16384.size a
  hwx2_0 : ∀ i : grid2.Coords, EltTy.bits .f32 = 32 ∨ (Rect.block (s := S16384x16384) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S16384x64.size a
  hwx2_1 : ∀ i : grid2.Coords, EltTy.bits .f32 = 32 ∨ (Rect.block (s := S16384x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S16384x1.size a
  hwx2_2 : ∀ i : grid2.Coords, EltTy.bits .f32 = 32 ∨ (Rect.block (s := S16384x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S16384x64.size a
  hwx2_3 : ∀ i : grid2.Coords, EltTy.bits .f32 = 32 ∨ (Rect.block (s := S16384x64) S1024x64.size (cc2_transform_3 i) (hinb2_3 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg1) S16384x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16384x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond3 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S_ : Shape := ⟨0, ![]⟩
abbrev S1x64 : Shape := ⟨2, ![1, 64]⟩
abbrev S16384 : Shape := ⟨1, ![16384]⟩
abbrev S16384x1 : Shape := ⟨2, ![16384, 1]⟩
abbrev S16384x2 : Shape := ⟨2, ![16384, 2]⟩
abbrev S1x16384 : Shape := ⟨2, ![1, 16384]⟩

abbrev nBuf : Space → Nat
  | .hbm => 77
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x1, .i32⟩
  | .hbm, ⟨51, _⟩ => ⟨S16384x2, .i32⟩
  | .hbm, ⟨52, _⟩ => ⟨S_, .f32⟩
  | .hbm, ⟨53, _⟩ => ⟨S16384, .f32⟩
  | .hbm, ⟨54, _⟩ => ⟨S16384x16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384x1, .f32⟩
  | .hbm, ⟨59, _⟩ => ⟨S16384x16384, .f32⟩
  | .hbm, ⟨60, _⟩ => ⟨S16384x16384, .f32⟩
  | .hbm, ⟨61, _⟩ => ⟨S1x16384, .f32⟩
  | .hbm, ⟨62, _⟩ => ⟨S16384x16384, .f32⟩
  | .hbm, ⟨63, _⟩ => ⟨S16384x16384, .f32⟩
  | .hbm, ⟨64, _⟩ => ⟨S64x64, .f32⟩
  | .hbm, ⟨65, _⟩ => ⟨S16384x64, .f32⟩
  | .hbm, ⟨66, _⟩ => ⟨S1x64, .f32⟩
  | .hbm, ⟨67, _⟩ => ⟨S16384x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .i1⟩
  | .hbm, ⟨73, _⟩ => ⟨S_, .f32⟩
  | .hbm, ⟨74, _⟩ => ⟨S16384x64, .f32⟩
  | .hbm, ⟨75, _⟩ => ⟨S16384x64, .f32⟩
  | .hbm, ⟨76, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  reducesTo_S16384x64_S64_d0 : S16384x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x16384_S16384_d1 : S16384x16384.ReducesTo [1] S16384
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  transposes_S64x64_S64x64_1_0 : S64x64.Transposes [1, 0] S64x64
  bcast_S_S16384x64 : S_.BroadcastsInDim S16384x64 (![] : Fin 0 → Fin S16384x64.rank)
  scatter_S16384x16384_S16384x2_S16384_n_01_01_1_wf : ScatterDims.WF S16384x16384 S16384x2 S16384 [] [0, 1] [0, 1] 1
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Kernel.Conds.lean ====
/- The branch conditions of the second and third calls in closed form over their grids, the points at which each output block is live or idle, the staging buffers' names, and each call's invariant before its first point split at the accumulator it carries. -/
import proofs.«153148_j8143257993640_2_alg».proof.Proof.Gen.Kernel.Launch
import proofs.«153148_j8143257993640_2_alg».proof.Proof.Gen.Kernel.Skeleton
import proofs.«153148_j8143257993640_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
abbrev VO0 : View sig .tc .vmem S16384x64 .f32 := (Memref.whole cc0_stg5_0 : Memref sig .tc .vmem S16384x64 .f32).view
abbrev ms0_0 (t : Fin cfg0.N) : Memref sig .tc .vmem S16384x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16384x64 .f32 := win0_5.stage (cfg0.slots t 5)
abbrev hs0_5 (t : Fin cfg0.N) : (ms0_5 t).IsWhole := hstage0_5 ((cfg0.slots t 5).cast nbuf0_5)

/-! ## Region 1: the branch conditions over the grid, and where the output block is live -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel
abbrev VO1 : View sig .tc .vmem S2048x1 .f32 := (Memref.whole cc1_stg1_0 : Memref sig .tc .vmem S2048x1 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev scM1 : Memref sig .tc .vmem S2048x1 .f32 := Memref.whole cc1_scratch0
abbrev VS1 : View sig .tc .vmem S2048x1 .f32 := (scM1).view
/-- Every scoped buffer that is neither a staging buffer of this call nor its accumulator, at some contents. -/
abbrev Rest1 (c : Dev nD) : sProp 𝕄 := Pipeline.scopedRestBut (Ix := Unit) (Name := ℕ) (U := UR sig nD τ) (Lvl := ℕ) (Val := Elt F) spec1 c [cc1_scratch0]
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 (F := F) c) :=
  Pipeline.scopedRest_split_of_list spec1 c [cc1_scratch0] (by decide) (by decide)
/-- The region's invariant before its first point: the accumulator at some contents, the other scoped buffers, the generator register. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA; rw [scopedRest1_split]; simp only [scM1, owns_whole]; try rfl

/-! ## Region 2: the branch conditions over the grid, and where the output block is live -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
abbrev cond2_1 (i : grid2.Coords) : Prop := (Scalar.cmpi .ne (Scalar.extui (Scalar.cmpi .eq (BitVec.ofNat 32 (i 0).val) (BitVec.ofNat 32 (i 1).val))) 0#32) = 1#1
theorem hcond2_1 : ∀ t : Fin cfg2.N, cond2_1 (grid2.coords t) ↔ t.val / 16 = t.val % 16 :=
  (by decide +kernel : ∀ t : Fin grid2.N, cond2_1 (grid2.coords t) ↔ t.val / 16 = t.val % 16)
abbrev cond2_2 (i : grid2.Coords) : Prop := k2_cond3 i = 1#1
theorem hcond2_2 : ∀ t : Fin cfg2.N, cond2_2 (grid2.coords t) ↔ t.val % 16 = 15 :=
  (by decide +kernel : ∀ t : Fin grid2.N, cond2_2 (grid2.coords t) ↔ t.val % 16 = 15)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → cond2_1 (grid2.coords t) → ¬cond2_2 (grid2.coords t) → cfg2.idle 3 (grid2.coords t) = true := by decide +kernel
theorem noFlush2_3_A : ∀ t : Fin cfg2.N, cond2_0 (grid2.coords t) → cond2_1 (grid2.coords t) → ¬cond2_2 (grid2.coords t) → (cfg2.win 3).flush t = false := by decide +kernel
theorem idleAt2_3_B : ∀ t : Fin cfg2.N, cond2_0 (grid2.coords t) → ¬cond2_1 (grid2.coords t) → ¬cond2_2 (grid2.coords t) → cfg2.idle 3 (grid2.coords t) = true := by decide +kernel
theorem noFlush2_3_B : ∀ t : Fin cfg2.N, cond2_0 (grid2.coords t) → ¬cond2_1 (grid2.coords t) → ¬cond2_2 (grid2.coords t) → (cfg2.win 3).flush t = false := by decide +kernel
theorem idleAt2_3_C : ∀ t : Fin cfg2.N, ¬cond2_0 (grid2.coords t) → cond2_1 (grid2.coords t) → ¬cond2_2 (grid2.coords t) → cfg2.idle 3 (grid2.coords t) = true := by decide +kernel
theorem noFlush2_3_C : ∀ t : Fin cfg2.N, ¬cond2_0 (grid2.coords t) → cond2_1 (grid2.coords t) → ¬cond2_2 (grid2.coords t) → (cfg2.win 3).flush t = false := by decide +kernel
theorem idleAt2_3_D : ∀ t : Fin cfg2.N, ¬cond2_0 (grid2.coords t) → ¬cond2_1 (grid2.coords t) → ¬cond2_2 (grid2.coords t) → cfg2.idle 3 (grid2.coords t) = true := by decide +kernel
theorem noFlush2_3_D : ∀ t : Fin cfg2.N, ¬cond2_0 (grid2.coords t) → ¬cond2_1 (grid2.coords t) → ¬cond2_2 (grid2.coords t) → (cfg2.win 3).flush t = false := by decide +kernel
theorem liveAt2_3_E : ∀ t : Fin cfg2.N, ¬cond2_0 (grid2.coords t) → cond2_1 (grid2.coords t) → cond2_2 (grid2.coords t) → cfg2.idle 3 (grid2.coords t) = false := by decide +kernel
theorem liveAt2_3_F : ∀ t : Fin cfg2.N, ¬cond2_0 (grid2.coords t) → ¬cond2_1 (grid2.coords t) → cond2_2 (grid2.coords t) → cfg2.idle 3 (grid2.coords t) = false := by decide +kernel
abbrev VO2 : View sig .tc .vmem S1024x64 .f32 := (Memref.whole cc2_stg3_0 : Memref sig .tc .vmem S1024x64 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .f32 := win2_3.stage (cfg2.slots t 3)
abbrev hs2_3 (t : Fin cfg2.N) : (ms2_3 t).IsWhole := hstage2_3 ((cfg2.slots t 3).cast nbuf2_3)
abbrev scM2 : Memref sig .tc .vmem S1024x64 .f32 := Memref.whole cc2_scratch0
abbrev VS2 : View sig .tc .vmem S1024x64 .f32 := (scM2).view
/-- Every scoped buffer that is neither a staging buffer of this call nor its accumulator, at some contents. -/
abbrev Rest2 (c : Dev nD) : sProp 𝕄 := Pipeline.scopedRestBut (Ix := Unit) (Name := ℕ) (U := UR sig nD τ) (Lvl := ℕ) (Val := Elt F) spec2 c [cc2_scratch0]
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ Rest2 (F := F) c) :=
  Pipeline.scopedRest_split_of_list spec2 c [cc2_scratch0] (by decide) (by decide)
/-- The region's invariant before its first point: the accumulator at some contents, the other scoped buffers, the generator register. -/
theorem PhiA2_eq (c : Dev nD) :
    (Pipeline.ΦA spec2 c : sProp 𝕄)
      = iprop(iprop((∃ d, owns (c : Thread nD τ) scM2 fullShare d) ∗ Rest2 (F := F) c) ∗ (∃ r, prngReg c r)) := by
  unfold Pipeline.ΦA; rw [scopedRest2_split]; simp only [scM2, owns_whole]; try rfl

end Cert.Kernel.Hand

end
-- ==== Proof.Kernel.Run0A.lean ====
/- The first call's body run on whole staging buffers in one case of its branches (case A): the stores each buffer ends with are what the run finds. -/
import proofs.«153148_j8143257993640_2_alg».proof.Proof.Kernel.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where there is no branch: on whole buffers holding the input blocks, it runs to the
    continuation with the inputs as they were and every buffer it stored into holding the listed stores (last first), which the run finds. -/
noncomputable def kernelRun0_A (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)
    (x0 : Vec F S16384x64 .f32) (x1 : Vec F S64x64 .f32) (x2 : Vec F S64 .f32) (x3 : Vec F S64 .f32) (x4 : Vec F S64 .f32) :
    { LO : List (View.Piece (Elt F) S16384x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LO)) -∗ K ⟨⟩))
          ⊢ wp frame (wpE (defs₀ (F := F)) Variants.none c none) E (cc0__bn_linear_kernel i arg1 harg1 arg2 harg2 arg3 harg3 arg4 harg4 arg5 harg5 arg6 harg6) K } := by
  refine ⟨?_, fun E K => ?run⟩
  case run =>
    simp only [cc0__bn_linear_kernel_eq_skeleton]; unfold cc0__bn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HO

end Cert.Kernel.Hand

end
-- ==== Proof.Kernel.Reg0.lean ====
/- The first call: what its output block's buffer holds after each grid point, the proof data of its pipeline, and the body obligation at every point. -/
import proofs.«153148_j8143257993640_2_alg».proof.Proof.Kernel.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The case's stores into the output block cover it. -/
theorem cover0_A (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)
    (x0 : Vec F S16384x64 .f32) (x1 : Vec F S64x64 .f32) (x2 : Vec F S64 .f32) (x3 : Vec F S64 .f32) (x4 : Vec F S64 .f32) (y : S16384x64.Idx) :
    ∃ pc ∈ (kernelRun0_A c i arg1 harg1 arg2 harg2 arg3 harg3 arg4 harg4 arg5 harg5 arg6 harg6  x0 x1 x2 x3 x4).1, y ∈ pc.1.set :=
  View.cover_of_tiledL (kernelRun0_A c i arg1 harg1 arg2 harg2 arg3 harg3 arg4 harg4 arg5 harg5 arg6 harg6  x0 x1 x2 x3 x4).1 S16384x64.size (by sl_kernel_rfl) y

/-- What the case leaves in the output block's buffer: its stores read back. -/
def out0_A (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)
    (x0 : Vec F S16384x64 .f32) (x1 : Vec F S64x64 .f32) (x2 : Vec F S64 .f32) (x3 : Vec F S64 .f32) (x4 : Vec F S64 .f32) : Vec F S16384x64 .f32 :=
  VO0.read (Elt F) (VO0.writes (Elt F) VO0.junk (kernelRun0_A c i arg1 harg1 arg2 harg2 arg3 harg3 arg4 harg4 arg5 harg5 arg6 harg6  x0 x1 x2 x3 x4).1)

/-- The proof data of this call: the arrays as the region finds them; after the body each input's buffer at its block and the
    output's at what the body's stores leave; the invariant the scoped buffers and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_A c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_A c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks, so the run applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  unfold out0_A; (try dsimp only)
  iintro ⟨HΦ, Ho, ⟨%d0, H0⟩, ⟨%d1, H1⟩, ⟨%d2, H2⟩, ⟨%d3, H3⟩, ⟨%d4, H4⟩, ⟨%dO, HO⟩⟩
  iapply ((kernelRun0_A c (grid0.coords t) _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [HO]; · iexists _; iexact HO
  iintro ⟨H0, H1, H2, H3, H4, ⟨%eO, HO⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact HO
  ipureintro; exact View.read_writes_of_cover _ _ _ _ _ (cover0_A c _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Kernel.Run1A.lean ====
/- The second call's body run on whole staging buffers in one case of its branches (case A): the stores each buffer ends with are what the run finds. -/
import proofs.«153148_j8143257993640_2_alg».proof.Proof.Kernel.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is taken, branch 1 is skipped: on whole buffers holding the input blocks, it runs to the
    continuation with the inputs as they were and every buffer it stored into holding the listed stores (last first), which the run finds. -/
noncomputable def kernelRun1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) :
    Σ' (LO : List (View.Piece (Elt F) S2048x1 .f32)), { LS0 : List (View.Piece (Elt F) S2048x1 .f32) //
      ∀ (xiO : Vec F S2048x1 .f32) (E : Set ℕ) (K : PUnit → sProp 𝕄),
        iprop(owns (c : Thread nD τ) arg2 fullShare x0 ∗ owns (c : Thread nD τ) arg3 fullShare xiO ∗ (∃ d, owns (c : Thread nD τ) arg4 fullShare d)
            ∗ (iprop(owns (c : Thread nD τ) arg2 fullShare x0 ∗ owns (c : Thread nD τ) arg3 fullShare xiO ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun xiO E K => ?run⟩
  case run =>
    simp only [cc1__rowsum_kernel_eq_skeleton]; unfold cc1__rowsum_kernel_skel
    unfold owns
    iintro ⟨⟨%f0, %hf0, H0⟩, ⟨%fO, %hfO, HO⟩, ⟨%ds0, %fs0, -, HS0⟩, Hk⟩
    obtain rfl := harg2.eq_unread hf0; obtain rfl := harg3.eq_unread hfO
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

end Cert.Kernel.Hand

end
-- ==== Proof.Kernel.Run1B.lean ====
/- The second call's body run on whole staging buffers in one case of its branches (case B): the stores each buffer ends with are what the run finds. -/
import proofs.«153148_j8143257993640_2_alg».proof.Proof.Kernel.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is skipped: on whole buffers holding the input blocks, it runs to the
    continuation with the inputs as they were and every buffer it stored into holding the listed stores (last first), which the run finds. -/
noncomputable def kernelRun1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) :
    Σ' (LO : List (View.Piece (Elt F) S2048x1 .f32)), { LS0 : List (View.Piece (Elt F) S2048x1 .f32) //
      ∀ (xiO : Vec F S2048x1 .f32) (E : Set ℕ) (K : PUnit → sProp 𝕄),
        iprop(owns (c : Thread nD τ) arg2 fullShare x0 ∗ owns (c : Thread nD τ) arg3 fullShare xiO ∗ owns (c : Thread nD τ) arg4 fullShare xs0
            ∗ (iprop(owns (c : Thread nD τ) arg2 fullShare x0 ∗ owns (c : Thread nD τ) arg3 fullShare xiO ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun xiO E K => ?run⟩
  case run =>
    simp only [cc1__rowsum_kernel_eq_skeleton]; unfold cc1__rowsum_kernel_skel
    unfold owns
    iintro ⟨⟨%f0, %hf0, H0⟩, ⟨%fO, %hfO, HO⟩, ⟨%fs0, %hfs0, HS0⟩, Hk⟩
    obtain rfl := harg2.eq_unread hf0; obtain rfl := harg3.eq_unread hfO; obtain rfl := harg4.eq_unread hfs0
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

end Cert.Kernel.Hand

end
-- ==== Proof.Kernel.Run1C.lean ====
/- The second call's body run on whole staging buffers in one case of its branches (case C): the stores each buffer ends with are what the run finds. -/
import proofs.«153148_j8143257993640_2_alg».proof.Proof.Kernel.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is taken: on whole buffers holding the input blocks, it runs to the
    continuation with the inputs as they were and every buffer it stored into holding the listed stores (last first), which the run finds. -/
noncomputable def kernelRun1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) :
    Σ' (LO : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨?_, ?_, fun E K => ?run⟩
  case run =>
    simp only [cc1__rowsum_kernel_eq_skeleton]; unfold cc1__rowsum_kernel_skel
    unfold owns
    iintro ⟨⟨%f0, %hf0, H0⟩, ⟨%dO, %fO, -, HO⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [HO]; · iexists _; iexact HO
    iexists _; iexact HS0

end Cert.Kernel.Hand

end
-- ==== Proof.Kernel.Reg1.lean ====
/- The second call: what its output block's buffer and its accumulator hold after each grid point, the proof data of its pipeline, and the body obligation at every point, case by case. -/
import proofs.«153148_j8143257993640_2_alg».proof.Proof.Kernel.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- What the case leaves in the output block's buffer: its stores read back (nothing is stored: a placeholder nothing consults, the block being idle there). -/
def out1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) : Vec F S2048x1 .f32 :=
  VO1.read (Elt F) (VO1.writes (Elt F) VO1.junk (kernelRun1_A c i arg2 harg2 arg3 harg3 arg4 harg4 hc0 hc1 x0).1)

/-- The case's stores into the accumulator cover it. -/
theorem scover1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) (y : S2048x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S2048x1.size (by sl_kernel_rfl) y

/-- What the case leaves in the accumulator: its stores read back. -/
def sout1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) : Vec F S2048x1 .f32 :=
  VS1.read (Elt F) (VS1.writes (Elt F) VS1.junk (kernelRun1_A c i arg2 harg2 arg3 harg3 arg4 harg4 hc0 hc1 x0).2.1)

/-- What the case leaves in the output block's buffer: its stores read back (nothing is stored: a placeholder nothing consults, the block being idle there). -/
def out1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) : Vec F S2048x1 .f32 :=
  VO1.read (Elt F) (VO1.writes (Elt F) VO1.junk (kernelRun1_B c i arg2 harg2 arg3 harg3 arg4 harg4 hc0 hc1 x0 xs0).1)

/-- The case's stores into the accumulator cover it. -/
theorem scover1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) (y : S2048x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S2048x1.size (by sl_kernel_rfl) y

/-- What the case leaves in the accumulator: its stores read back. -/
def sout1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) : Vec F S2048x1 .f32 :=
  VS1.read (Elt F) (VS1.writes (Elt F) VS1.junk (kernelRun1_B c i arg2 harg2 arg3 harg3 arg4 harg4 hc0 hc1 x0 xs0).2.1)

/-- The case's stores into the output block cover it. -/
theorem cover1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) (y : S2048x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S2048x1.size (by sl_kernel_rfl) y

/-- What the case leaves in the output block's buffer: its stores read back. -/
def out1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) : Vec F S2048x1 .f32 :=
  VO1.read (Elt F) (VO1.writes (Elt F) VO1.junk (kernelRun1_C c i arg2 harg2 arg3 harg3 arg4 harg4 hc0 hc1 x0 xs0).1)

/-- The case's stores into the accumulator cover it. -/
theorem scover1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) (y : S2048x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S2048x1.size (by sl_kernel_rfl) y

/-- What the case leaves in the accumulator: its stores read back. -/
def sout1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) : Vec F S2048x1 .f32 :=
  VS1.read (Elt F) (VS1.writes (Elt F) VS1.junk (kernelRun1_C c i arg2 harg2 arg3 harg3 arg4 harg4 hc0 hc1 x0 xs0).2.1)

/-- THE ACCUMULATION: what the output block's buffer and the accumulator hold after the body at position `n`, by recursion on the
    position: the case the coordinates select there, run on the point's input blocks and on what the point before left in the accumulator. -/
def outsAt1 (c : Dev nD) : (n : ℕ) → n < cfg1.N → Vec F S2048x1 .f32 × Vec F S2048x1 .f32
  | 0, hn => (out1_A c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 8 = 0 then
      if h1 : (n + 1) % 8 = 7 then
        False.elim (by have hN : n + 1 < 64 := lt_of_lt_of_eq hn (show cfg1.N = 64 from N_1); omega)
      else
        (out1_A c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) scM1 (Memref.isWhole_whole _) ((hcond1_0 t).mpr h0) (fun h => h1 ((hcond1_1 t).mp h)) (iblk1 V c 0 t), sout1_A c (grid1.coords t) (ms1_0 t) (hs1_0 t) (ms1_1 t) (hs1_1 t) scM1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans (rfl))

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_neg h1).trans (rfl))

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_pos h1).trans (rfl))

/-- The region's invariant before position `n`: before the first point every scoped buffer at anything; afterwards the accumulator at what
    the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 (F := F) c) ∗ (∃ r, prngReg c r)) := by
  cases n with
  | zero => exact absurd rfl hz
  | succ n => rfl

/-- The proof data of this call: the arrays as the region finds them; after the body each input's buffer at its block, the output's at the
    accumulation's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms say which case the point is in; the invariant hands the body the accumulator at what the point
    before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  ·
    by_cases h1 : t.val % 8 = 7
    ·
      exfalso; omega
    ·
      rw [show (dat1 V c).leavesExact 0 t = owns (c : Thread nD τ) (ms1_0 t) fullShare ((dat1 V c).after 0 t) from by
          unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS0, Hrest⟩, Hg⟩, Ho, ⟨%d0, H0⟩, ⟨%dO, HO⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [HO]; · iexact HO
        isplitl [HS0]; · iexact HS0
        iintro ⟨H0, HO, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _)
            iexact Hrest
          iexact Hg
        isplitl [Ho]; · iexact Ho
        isplitl [H0]; · iexact H0
        iexists _; iexact HO
      ·
        rw [PhiS1_castSucc V c t, PhiS1_pos V c _ _ hz]
        iintro ⟨⟨⟨HS0, Hrest⟩, Hg⟩, Ho, ⟨%d0, H0⟩, ⟨%dO, HO⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [HO]; · iexact HO
        isplitl [HS0]; · iexists _; iexact HS0
        iintro ⟨H0, HO, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _)
            iexact Hrest
          iexact Hg
        isplitl [Ho]; · iexact Ho
        isplitl [H0]; · iexact H0
        iexists _; iexact HO
  ·
    by_cases h1 : t.val % 8 = 7
    ·
      rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1_C t (fun h => h0 ((hcond1_0 t).mp h)) ((hcond1_1 t).mpr h1)], after1_1]
      rw [outsAt1_C V c t h0 h1]
      unfold out1_C sout1_C; (try dsimp only)
      by_cases hz : t.val = 0
      ·
        exfalso; omega
      ·
        rw [PhiS1_castSucc V c t, PhiS1_pos V c _ _ hz]
        iintro ⟨⟨⟨HS0, Hrest⟩, Hg⟩, Ho, ⟨%d0, H0⟩, ⟨%dO, HO⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [HO]; · iexists _; iexact HO
        isplitl [HS0]; · iexact HS0
        iintro ⟨H0, ⟨%eO, HO⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C c _ _ _ _ _ _ _ _ _ _ _)
            iexact Hrest
          iexact Hg
        isplitl [Ho]; · iexact Ho
        isplitl [H0]; · iexact H0
        unfold owns; iexists _; isplitr
        swap; · iexact HO
        ipureintro; exact View.read_writes_of_cover _ _ _ _ _ (cover1_C c _ _ _ _ _ _ _ _ _ _ _)
    ·
      rw [show (dat1 V c).leavesExact 0 t = owns (c : Thread nD τ) (ms1_0 t) fullShare ((dat1 V c).after 0 t) from by
          unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B; (try dsimp only)
      by_cases hz : t.val = 0
      ·
        exfalso; omega
      ·
        rw [PhiS1_castSucc V c t, PhiS1_pos V c _ _ hz]
        iintro ⟨⟨⟨HS0, Hrest⟩, Hg⟩, Ho, ⟨%d0, H0⟩, ⟨%dO, HO⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [HO]; · iexact HO
        isplitl [HS0]; · iexact HS0
        iintro ⟨H0, HO, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B c _ _ _ _ _ _ _ _ _ _ _)
            iexact Hrest
          iexact Hg
        isplitl [Ho]; · iexact Ho
        isplitl [H0]; · iexact H0
        iexists _; iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.Kernel.Run2A.lean ====
/- The third call's body run on whole staging buffers in one case of its branches (case A): the stores each buffer ends with are what the run finds. -/
import proofs.«153148_j8143257993640_2_alg».proof.Proof.Kernel.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is taken, branch 1 is taken, branch 2 is skipped: on whole buffers holding the input blocks, it runs to the
    continuation with the inputs as they were and every buffer it stored into holding the listed stores (last first), which the run finds. -/
noncomputable def kernelRun2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.Run2B.lean ====
/- The third call's body run on whole staging buffers in one case of its branches (case B): the stores each buffer ends with are what the run finds. -/
import proofs.«153148_j8143257993640_2_alg».proof.Proof.Kernel.Run2A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is taken, branch 1 is skipped, branch 2 is skipped: on whole buffers holding the input blocks, it runs to the
    continuation with the inputs as they were and every buffer it stored into holding the listed stores (last first), which the run finds. -/
noncomputable def kernelRun2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.Run2C.lean ====
/- The third call's body run on whole staging buffers in one case of its branches (case C): the stores each buffer ends with are what the run finds. -/
import proofs.«153148_j8143257993640_2_alg».proof.Proof.Kernel.Run2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is taken, branch 2 is skipped: on whole buffers holding the input blocks, it runs to the
    continuation with the inputs as they were and every buffer it stored into holding the listed stores (last first), which the run finds. -/
noncomputable def kernelRun2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.Run2D.lean ====
/- The third call's body run on whole staging buffers in one case of its branches (case D): the stores each buffer ends with are what the run finds. -/
import proofs.«153148_j8143257993640_2_alg».proof.Proof.Kernel.Run2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is skipped, branch 2 is skipped: on whole buffers holding the input blocks, it runs to the
    continuation with the inputs as they were and every buffer it stored into holding the listed stores (last first), which the run finds. -/
noncomputable def kernelRun2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.Run2E.lean ====
/- The third call's body run on whole staging buffers in one case of its branches (case E): the stores each buffer ends with are what the run finds. -/
import proofs.«153148_j8143257993640_2_alg».proof.Proof.Kernel.Run2D

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is taken, branch 2 is taken: on whole buffers holding the input blocks, it runs to the
    continuation with the inputs as they were and every buffer it stored into holding the listed stores (last first), which the run finds. -/
noncomputable def kernelRun2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.Kernel.Hand

end
-- ==== Proof.Kernel.Run2F.lean ====
/- The third call's body run on whole staging buffers in one case of its branches (case F): the stores each buffer ends with are what the run finds. -/
import proofs.«153148_j8143257993640_2_alg».proof.Proof.Kernel.Run2E

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is skipped, branch 2 is taken: on whole buffers holding the input blocks, it runs to the
    continuation with the inputs as they were and every buffer it stored into holding the listed stores (last first), which the run finds. -/
noncomputable def kernelRun2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.Kernel.Hand

end
-- ==== Proof.Kernel.Reg2.lean ====
/- The third call: what its output block's buffer and its accumulator hold after each grid point, the proof data of its pipeline, and the body obligation at every point, case by case. -/
import proofs.«153148_j8143257993640_2_alg».proof.Proof.Kernel.Run2F

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the case leaves in the output block's buffer: its stores read back (nothing is stored: a placeholder nothing consults, the block being idle there). -/
def out2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) : Vec F S1024x64 .f32 :=
  VO2.read (Elt F) (VO2.writes (Elt F) VO2.junk (kernelRun2_A c i arg2 harg2 arg3 harg3 arg4 harg4 arg5 harg5 arg6 harg6 hc0 hc1 hc2 x0 x1 x2).1)

/-- The case's stores into the accumulator cover it. -/
theorem scover2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) (y : S1024x64.Idx) :
    ∃ pc ∈ (kernelRun2_A c i arg2 harg2 arg3 harg3 arg4 harg4 arg5 harg5 arg6 harg6 hc0 hc1 hc2 x0 x1 x2).2.1, y ∈ pc.1.set :=
  View.cover_of_tiledL (kernelRun2_A c i arg2 harg2 arg3 harg3 arg4 harg4 arg5 harg5 arg6 harg6 hc0 hc1 hc2 x0 x1 x2).2.1 S1024x64.size (by sl_kernel_rfl) y

/-- What the case leaves in the accumulator: its stores read back. -/
def sout2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) : Vec F S1024x64 .f32 :=
  VS2.read (Elt F) (VS2.writes (Elt F) VS2.junk (kernelRun2_A c i arg2 harg2 arg3 harg3 arg4 harg4 arg5 harg5 arg6 harg6 hc0 hc1 hc2 x0 x1 x2).2.1)

/-- What the case leaves in the output block's buffer: its stores read back (nothing is stored: a placeholder nothing consults, the block being idle there). -/
def out2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) : Vec F S1024x64 .f32 :=
  VO2.read (Elt F) (VO2.writes (Elt F) VO2.junk (kernelRun2_B c i arg2 harg2 arg3 harg3 arg4 harg4 arg5 harg5 arg6 harg6 hc0 hc1 hc2 x0 x1 x2).1)

/-- The case's stores into the accumulator cover it. -/
theorem scover2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) (y : S1024x64.Idx) :
    ∃ pc ∈ (kernelRun2_B c i arg2 harg2 arg3 harg3 arg4 harg4 arg5 harg5 arg6 harg6 hc0 hc1 hc2 x0 x1 x2).2.1, y ∈ pc.1.set :=
  View.cover_of_tiledL (kernelRun2_B c i arg2 harg2 arg3 harg3 arg4 harg4 arg5 harg5 arg6 harg6 hc0 hc1 hc2 x0 x1 x2).2.1 S1024x64.size (by sl_kernel_rfl) y

/-- What the case leaves in the accumulator: its stores read back. -/
def sout2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) : Vec F S1024x64 .f32 :=
  VS2.read (Elt F) (VS2.writes (Elt F) VS2.junk (kernelRun2_B c i arg2 harg2 arg3 harg3 arg4 harg4 arg5 harg5 arg6 harg6 hc0 hc1 hc2 x0 x1 x2).2.1)

/-- What the case leaves in the output block's buffer: its stores read back (nothing is stored: a placeholder nothing consults, the block being idle there). -/
def out2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_C c i arg2 harg2 arg3 harg3 arg4 harg4 arg5 harg5 arg6 harg6 hc0 hc1 hc2 x0 x1 x2 xs0).1)

/-- The case's stores into the accumulator cover it. -/
theorem scover2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) (y : S1024x64.Idx) :
    ∃ pc ∈ (kernelRun2_C c i arg2 harg2 arg3 harg3 arg4 harg4 arg5 harg5 arg6 harg6 hc0 hc1 hc2 x0 x1 x2 xs0).2.1, y ∈ pc.1.set :=
  View.cover_of_tiledL (kernelRun2_C c i arg2 harg2 arg3 harg3 arg4 harg4 arg5 harg5 arg6 harg6 hc0 hc1 hc2 x0 x1 x2 xs0).2.1 S1024x64.size (by sl_kernel_rfl) y

/-- What the case leaves in the accumulator: its stores read back. -/
def sout2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_C c i arg2 harg2 arg3 harg3 arg4 harg4 arg5 harg5 arg6 harg6 hc0 hc1 hc2 x0 x1 x2 xs0).2.1)

/-- What the case leaves in the output block's buffer: its stores read back (nothing is stored: a placeholder nothing consults, the block being idle there). -/
def out2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_D c i arg2 harg2 arg3 harg3 arg4 harg4 arg5 harg5 arg6 harg6 hc0 hc1 hc2 x0 x1 x2 xs0).1)

/-- The case's stores into the accumulator cover it. -/
theorem scover2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) (y : S1024x64.Idx) :
    ∃ pc ∈ (kernelRun2_D c i arg2 harg2 arg3 harg3 arg4 harg4 arg5 harg5 arg6 harg6 hc0 hc1 hc2 x0 x1 x2 xs0).2.1, y ∈ pc.1.set :=
  View.cover_of_tiledL (kernelRun2_D c i arg2 harg2 arg3 harg3 arg4 harg4 arg5 harg5 arg6 harg6 hc0 hc1 hc2 x0 x1 x2 xs0).2.1 S1024x64.size (by sl_kernel_rfl) y

/-- What the case leaves in the accumulator: its stores read back. -/
def sout2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_D c i arg2 harg2 arg3 harg3 arg4 harg4 arg5 harg5 arg6 harg6 hc0 hc1 hc2 x0 x1 x2 xs0).2.1)

/-- The case's stores into the output block cover it. -/
theorem cover2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_E c i arg2 harg2 arg3 harg3 arg4 harg4 arg5 harg5 arg6 harg6 hc0 hc1 hc2 x0 x1 x2 xs0).1, y ∈ pc.1.set :=
  View.cover_of_tiledL (kernelRun2_E c i arg2 harg2 arg3 harg3 arg4 harg4 arg5 harg5 arg6 harg6 hc0 hc1 hc2 x0 x1 x2 xs0).1 S1024x64.size (by sl_kernel_rfl) y

/-- What the case leaves in the output block's buffer: its stores read back. -/
def out2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_E c i arg2 harg2 arg3 harg3 arg4 harg4 arg5 harg5 arg6 harg6 hc0 hc1 hc2 x0 x1 x2 xs0).1)

/-- The case's stores into the accumulator cover it. -/
theorem scover2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_E c i arg2 harg2 arg3 harg3 arg4 harg4 arg5 harg5 arg6 harg6 hc0 hc1 hc2 x0 x1 x2 xs0).2.1, y ∈ pc.1.set :=
  View.cover_of_tiledL (kernelRun2_E c i arg2 harg2 arg3 harg3 arg4 harg4 arg5 harg5 arg6 harg6 hc0 hc1 hc2 x0 x1 x2 xs0).2.1 S1024x64.size (by sl_kernel_rfl) y

/-- What the case leaves in the accumulator: its stores read back. -/
def sout2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_E c i arg2 harg2 arg3 harg3 arg4 harg4 arg5 harg5 arg6 harg6 hc0 hc1 hc2 x0 x1 x2 xs0).2.1)

/-- The case's stores into the output block cover it. -/
theorem cover2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_F c i arg2 harg2 arg3 harg3 arg4 harg4 arg5 harg5 arg6 harg6 hc0 hc1 hc2 x0 x1 x2 xs0).1, y ∈ pc.1.set :=
  View.cover_of_tiledL (kernelRun2_F c i arg2 harg2 arg3 harg3 arg4 harg4 arg5 harg5 arg6 harg6 hc0 hc1 hc2 x0 x1 x2 xs0).1 S1024x64.size (by sl_kernel_rfl) y

/-- What the case leaves in the output block's buffer: its stores read back. -/
def out2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_F c i arg2 harg2 arg3 harg3 arg4 harg4 arg5 harg5 arg6 harg6 hc0 hc1 hc2 x0 x1 x2 xs0).1)

/-- The case's stores into the accumulator cover it. -/
theorem scover2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_F c i arg2 harg2 arg3 harg3 arg4 harg4 arg5 harg5 arg6 harg6 hc0 hc1 hc2 x0 x1 x2 xs0).2.1, y ∈ pc.1.set :=
  View.cover_of_tiledL (kernelRun2_F c i arg2 harg2 arg3 harg3 arg4 harg4 arg5 harg5 arg6 harg6 hc0 hc1 hc2 x0 x1 x2 xs0).2.1 S1024x64.size (by sl_kernel_rfl) y

/-- What the case leaves in the accumulator: its stores read back. -/
def sout2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_F c i arg2 harg2 arg3 harg3 arg4 harg4 arg5 harg5 arg6 harg6 hc0 hc1 hc2 x0 x1 x2 xs0).2.1)

/-- THE ACCUMULATION: what the output block's buffer and the accumulator hold after the body at position `n`, by recursion on the
    position: the case the coordinates select there, run on the point's input blocks and on what the point before left in the accumulator. -/
def outsAt2 (c : Dev nD) : (n : ℕ) → n < cfg2.N → Vec F S1024x64 .f32 × Vec F S1024x64 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) ((hcond2_1 ⟨0, hn⟩).mpr (rfl : (0:ℕ) / 16 = 0 % 16)) (fun h => (fun h => by (try dsimp only at h); omega) ((hcond2_2 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) ((hcond2_1 ⟨0, hn⟩).mpr (rfl : (0:ℕ) / 16 = 0 % 16)) (fun h => (fun h => by (try dsimp only at h); omega) ((hcond2_2 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) / 16 = (n + 1) % 16 then
        if h2 : (n + 1) % 16 = 15 then
          False.elim (by have hN : n + 1 < 256 := lt_of_lt_of_eq hn (show cfg2.N = 256 from N_2); omega)
        else
          (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩))
      else
        if h2 : (n + 1) % 16 = 15 then
          False.elim (by have hN : n + 1 < 256 := lt_of_lt_of_eq hn (show cfg2.N = 256 from N_2); omega)
        else
          (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩), sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩))
    else
      if h1 : (n + 1) / 16 = (n + 1) % 16 then
        if h2 : (n + 1) % 16 = 15 then
          (out2_E c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2, sout2_E c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2)
        else
          (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)
      else
        if h2 : (n + 1) % 16 = 15 then
          (out2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2, sout2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2)
        else
          (out2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : t.val / 16 = t.val % 16) (h2 : ¬t.val % 16 = 15) :
    outsAt2 V c t.val t.isLt = (out2_A c (grid2.coords t) (ms2_0 t) (hs2_0 t) (ms2_1 t) (hs2_1 t) (ms2_2 t) (hs2_2 t) (ms2_3 t) (hs2_3 t) scM2 (Memref.isWhole_whole _) ((hcond2_0 t).mpr h0) ((hcond2_1 t).mpr h1) (fun h => h2 ((hcond2_2 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) ((hcond2_1 t).mpr h1) (fun h => h2 ((hcond2_2 t).mp h)) (iblk2 V c 0 t) (iblk2 V c 1 t) (iblk2 V c 2 t)) := by
  obtain ⟨n, hn⟩ := t
  cases n with
  | zero => exact rfl
  | succ n => exact (dif_pos h0).trans ((dif_pos h1).trans ((dif_neg h2).trans (rfl)))

theorem outsAt2_B (c : Dev nD) (t : Fin cfg2.N) (h0 : t.val % 16 = 0) (h1 : ¬t.val / 16 = t.val % 16) (h2 : ¬t.val % 16 = 15) :
    outsAt2 V c t.val t.isLt = (out2_B c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (fun h => h2 ((hcond2_2 t).mp h)) (iblk2 V c 0 t) (iblk2 V c 1 t) (iblk2 V c 2 t), sout2_B c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (fun h => h2 ((hcond2_2 t).mp h)) (iblk2 V c 0 t) (iblk2 V c 1 t) (iblk2 V c 2 t)) := by
  obtain ⟨n, hn⟩ := t
  cases n with
  | zero => exact (by exfalso; (try dsimp only at *); omega)
  | succ n => exact (dif_pos h0).trans ((dif_neg h1).trans ((dif_neg h2).trans (rfl)))

theorem outsAt2_C (c : Dev nD) (t : Fin cfg2.N) (h0 : ¬t.val % 16 = 0) (h1 : t.val / 16 = t.val % 16) (h2 : ¬t.val % 16 = 15) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (fun h => h2 ((hcond2_2 t).mp h)) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (fun h => h2 ((hcond2_2 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_pos h1).trans ((dif_neg h2).trans (rfl)))

theorem outsAt2_D (c : Dev nD) (t : Fin cfg2.N) (h0 : ¬t.val % 16 = 0) (h1 : ¬t.val / 16 = t.val % 16) (h2 : ¬t.val % 16 = 15) :
    outsAt2 V c t.val t.isLt = (out2_D c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (outsAt2 V c (t.val - 1) (Nat.lt_of_le_of_lt (Nat.sub_le _ _) t.isLt)).2, sout2_D c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_neg h1).trans ((dif_neg h2).trans (rfl)))

theorem outsAt2_E (c : Dev nD) (t : Fin cfg2.N) (h0 : ¬t.val % 16 = 0) (h1 : t.val / 16 = t.val % 16) (h2 : t.val % 16 = 15) :
    outsAt2 V c t.val t.isLt = (out2_E c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) ((hcond2_2 t).mpr h2) (iblk2 V c 0 t) (iblk2 V c 1 t) (iblk2 V c 2 t) (outsAt2 V c (t.val - 1) (Nat.lt_of_le_of_lt (Nat.sub_le _ _) t.isLt)).2, sout2_E c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) ((hcond2_2 t).mpr h2) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_pos h1).trans ((dif_pos h2).trans (rfl)))

theorem outsAt2_F (c : Dev nD) (t : Fin cfg2.N) (h0 : ¬t.val % 16 = 0) (h1 : ¬t.val / 16 = t.val % 16) (h2 : t.val % 16 = 15) :
    outsAt2 V c t.val t.isLt = (out2_F c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) ((hcond2_2 t).mpr h2) (iblk2 V c 0 t) (iblk2 V c 1 t) (iblk2 V c 2 t) (outsAt2 V c (t.val - 1) (Nat.lt_of_le_of_lt (Nat.sub_le _ _) t.isLt)).2, sout2_F c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) ((hcond2_2 t).mpr h2) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_neg h1).trans ((dif_pos h2).trans (rfl)))

/-- The region's invariant before position `n`: before the first point every scoped buffer at anything; afterwards the accumulator at what
    the point before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 (F := F) c) ∗ (∃ r, prngReg c r)) := by
  cases n with
  | zero => exact absurd rfl hz
  | succ n => rfl

/-- The proof data of this call: the arrays as the region finds them; after the body each input's buffer at its block, the output's at the
    accumulation's first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the closed forms say which case the point is in; the invariant hands the body the accumulator at what the point
    before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  by_cases h0 : t.val % 16 = 0
  ·
    by_cases h1 : t.val / 16 = t.val % 16
    ·
      by_cases h2 : t.val % 16 = 15
      ·
        exfalso; omega
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_A t ((hcond2_0 t).mpr h0) ((hcond2_1 t).mpr h1) (fun h => h2 ((hcond2_2 t).mp h))) (noFlush2_3_A t ((hcond2_0 t).mpr h0) ((hcond2_1 t).mpr h1) (fun h => h2 ((hcond2_2 t).mp h)))]
        rw [outsAt2_A V c t h0 h1 h2]
        unfold sout2_A; (try dsimp only)
        by_cases hz : t.val = 0
        ·
          rw [PhiS2_castSucc V c t, PhiS2_zero V c _ _ hz, PhiA2_eq]
          iintro ⟨⟨⟨HS0, Hrest⟩, Hg⟩, Ho, ⟨%d0, H0⟩, ⟨%d1, H1⟩, ⟨%d2, H2⟩, ⟨%dO, HO⟩⟩
          iapply ((kernelRun2_A c (grid2.coords t) _ _ _ _ _ _ _ _ _ _ ((hcond2_0 t).mpr h0) ((hcond2_1 t).mpr h1) (fun h => h2 ((hcond2_2 t).mp h)) (iblk2 V c 0 t) (iblk2 V c 1 t) (iblk2 V c 2 t)).2.2 _ Set.univ _)
          isplitl [H0]; · iexact H0
          isplitl [H1]; · iexact H1
          isplitl [H2]; · iexact H2
          isplitl [HO]; · iexact HO
          isplitl [HS0]; · iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_A c _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_A c (grid2.coords t) _ _ _ _ _ _ _ _ _ _ ((hcond2_0 t).mpr h0) ((hcond2_1 t).mpr h1) (fun h => h2 ((hcond2_2 t).mp h)) (iblk2 V c 0 t) (iblk2 V c 1 t) (iblk2 V c 2 t)).2.2 _ Set.univ _)
          isplitl [H0]; · iexact H0
          isplitl [H1]; · iexact H1
          isplitl [H2]; · iexact H2
          isplitl [HO]; · iexact HO
          isplitl [HS0]; · iexists _; iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_A c _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
    ·
      by_cases h2 : t.val % 16 = 15
      ·
        exfalso; omega
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_B t ((hcond2_0 t).mpr h0) (fun h => h1 ((hcond2_1 t).mp h)) (fun h => h2 ((hcond2_2 t).mp h))) (noFlush2_3_B t ((hcond2_0 t).mpr h0) (fun h => h1 ((hcond2_1 t).mp h)) (fun h => h2 ((hcond2_2 t).mp h)))]
        rw [outsAt2_B V c t h0 h1 h2]
        unfold sout2_B; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_B c (grid2.coords t) _ _ _ _ _ _ _ _ _ _ ((hcond2_0 t).mpr h0) (fun h => h1 ((hcond2_1 t).mp h)) (fun h => h2 ((hcond2_2 t).mp h)) (iblk2 V c 0 t) (iblk2 V c 1 t) (iblk2 V c 2 t)).2.2 _ Set.univ _)
          isplitl [H0]; · iexact H0
          isplitl [H1]; · iexact H1
          isplitl [H2]; · iexact H2
          isplitl [HO]; · iexact HO
          isplitl [HS0]; · iexists _; iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_B c _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
  ·
    by_cases h1 : t.val / 16 = t.val % 16
    ·
      by_cases h2 : t.val % 16 = 15
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [show (dat2 V c).leavesExact 3 t = owns (c : Thread nD τ) (ms2_3 t) fullShare ((dat2 V c).after 3 t) from by
            unfold Dat.leavesExact; rw [liveAt2_3_E t (fun h => h0 ((hcond2_0 t).mp h)) ((hcond2_1 t).mpr h1) ((hcond2_2 t).mpr h2)], after2_3]
        rw [outsAt2_E V c t h0 h1 h2]
        unfold out2_E sout2_E; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_E c (grid2.coords t) _ _ _ _ _ _ _ _ _ _ (fun h => h0 ((hcond2_0 t).mp h)) ((hcond2_1 t).mpr h1) ((hcond2_2 t).mpr h2) (iblk2 V c 0 t) (iblk2 V c 1 t) (iblk2 V c 2 t) _).2.2 Set.univ _)
          isplitl [H0]; · iexact H0
          isplitl [H1]; · iexact H1
          isplitl [H2]; · iexact H2
          isplitl [HO]; · iexists _; iexact HO
          isplitl [HS0]; · iexact HS0
          iintro ⟨H0, H1, H2, ⟨%eO, HO⟩, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_E c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          unfold owns; iexists _; isplitr
          swap; · iexact HO
          ipureintro; exact View.read_writes_of_cover _ _ _ _ _ (cover2_E c _ _ _ _ _ _ _ _ _ _ _ _ _ _ _ _ _ _)
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_C t (fun h => h0 ((hcond2_0 t).mp h)) ((hcond2_1 t).mpr h1) (fun h => h2 ((hcond2_2 t).mp h))) (noFlush2_3_C t (fun h => h0 ((hcond2_0 t).mp h)) ((hcond2_1 t).mpr h1) (fun h => h2 ((hcond2_2 t).mp h)))]
        rw [outsAt2_C V c t h0 h1 h2]
        unfold sout2_C; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_C c (grid2.coords t) _ _ _ _ _ _ _ _ _ _ (fun h => h0 ((hcond2_0 t).mp h)) ((hcond2_1 t).mpr h1) (fun h => h2 ((hcond2_2 t).mp h)) (iblk2 V c 0 t) (iblk2 V c 1 t) (iblk2 V c 2 t) _).2.2 _ Set.univ _)
          isplitl [H0]; · iexact H0
          isplitl [H1]; · iexact H1
          isplitl [H2]; · iexact H2
          isplitl [HO]; · iexact HO
          isplitl [HS0]; · iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_C c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
    ·
      by_cases h2 : t.val % 16 = 15
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [show (dat2 V c).leavesExact 3 t = owns (c : Thread nD τ) (ms2_3 t) fullShare ((dat2 V c).after 3 t) from by
            unfold Dat.leavesExact; rw [liveAt2_3_F t (fun h => h0 ((hcond2_0 t).mp h)) (fun h => h1 ((hcond2_1 t).mp h)) ((hcond2_2 t).mpr h2)], after2_3]
        rw [outsAt2_F V c t h0 h1 h2]
        unfold out2_F sout2_F; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_F c (grid2.coords t) _ _ _ _ _ _ _ _ _ _ (fun h => h0 ((hcond2_0 t).mp h)) (fun h => h1 ((hcond2_1 t).mp h)) ((hcond2_2 t).mpr h2) (iblk2 V c 0 t) (iblk2 V c 1 t) (iblk2 V c 2 t) _).2.2 Set.univ _)
          isplitl [H0]; · iexact H0
          isplitl [H1]; · iexact H1
          isplitl [H2]; · iexact H2
          isplitl [HO]; · iexists _; iexact HO
          isplitl [HS0]; · iexact HS0
          iintro ⟨H0, H1, H2, ⟨%eO, HO⟩, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_F c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          unfold owns; iexists _; isplitr
          swap; · iexact HO
          ipureintro; exact View.read_writes_of_cover _ _ _ _ _ (cover2_F c _ _ _ _ _ _ _ _ _ _ _ _ _ _ _ _ _ _)
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_D t (fun h => h0 ((hcond2_0 t).mp h)) (fun h => h1 ((hcond2_1 t).mp h)) (fun h => h2 ((hcond2_2 t).mp h))) (noFlush2_3_D t (fun h => h0 ((hcond2_0 t).mp h)) (fun h => h1 ((hcond2_1 t).mp h)) (fun h => h2 ((hcond2_2 t).mp h)))]
        rw [outsAt2_D V c t h0 h1 h2]
        unfold sout2_D; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_D c (grid2.coords t) _ _ _ _ _ _ _ _ _ _ (fun h => h0 ((hcond2_0 t).mp h)) (fun h => h1 ((hcond2_1 t).mp h)) (fun h => h2 ((hcond2_2 t).mp h)) (iblk2 V c 0 t) (iblk2 V c 1 t) (iblk2 V c 2 t) _).2.2 _ Set.univ _)
          isplitl [H0]; · iexact H0
          isplitl [H1]; · iexact H1
          isplitl [H2]; · iexact H2
          isplitl [HO]; · iexact HO
          isplitl [HS0]; · iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_D c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 256 := N_2; omega)

end

end Cert.Kernel.Hand

end
-- ==== Proof.Kernel.Frame.lean ====
/- The whole run: the three calls and the stretch of host operations before the third as segments from the launch to the return, the buffers' contents at every boundary, every argument walked back to its launch contents, and the run's post — the frame, and the result array named. -/
import proofs.«153148_j8143257993640_2_alg».proof.Proof.Kernel.Reg0
import proofs.«153148_j8143257993640_2_alg».proof.Proof.Kernel.Reg1
import proofs.«153148_j8143257993640_2_alg».proof.Proof.Kernel.Reg2
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: three calls, one stretch of host operations before the third -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline's write-backs leave, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch between the second and the third call. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- At region 2's exit: its arrays at what the pipeline's write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### No call and no host operation writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat2 (V3 m ρ) c).arrAt_in 0 rfl _).trans (A_eq2 (V3 m ρ) c 0))
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- Region 0 over the thread state "every unscoped buffer at the boundary's contents, the generator register at some state, nothing
    owed": its arrays split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state, nothing
    owed": its arrays split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    have h := hout1 (V1 m ρ) c
    unfold Pipeline.ΦA at h
    have h2 : iprop(Pipeline.scopedRest (Ix := Unit) (Name := ℕ) (U := UR sig nD τ) (Lvl := ℕ) (Val := Elt F) spec1 c ∗ ∃ r, prngReg c r)
        ⊢ (iprop((∃ r, prngReg c r) ∗ emp ∗ Pipeline.scopedRest (Ix := Unit) (Name := ℕ) (U := UR sig nD τ) (Lvl := ℕ) (Val := Elt F) spec1 c) : sProp 𝕄) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some state, nothing
    owed": its arrays split out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    have h := hout2 (V3 m ρ) c
    unfold Pipeline.ΦA at h
    have h2 : iprop(Pipeline.scopedRest (Ix := Unit) (Name := ℕ) (U := UR sig nD τ) (Lvl := ℕ) (Val := Elt F) spec2 c ∗ ∃ r, prngReg c r)
        ⊢ (iprop((∃ r, prngReg c r) ∗ emp ∗ Pipeline.scopedRest (Ix := Unit) (Name := ℕ) (U := UR sig nD τ) (Lvl := ℕ) (Val := Elt F) spec2 c) : sProp 𝕄) := by
      iintro ⟨Hr, Hp⟩
      isplitl [Hp]; · iexact Hp
      isplitr; · iempintro
      iexact Hr
    exact h.trans h2
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_noalloc (W2 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every final state
    holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_all m ρ)

/-- THE VALUE RUN: the same run with the result array named — what the third call's write-backs leave of its output window. -/
theorem run_value : θ_run defs (onTc (τ := τ) (main (F := F))) ⟨m, fun _ => 0, ρ⟩ (fun r => ∀ c : Dev nD,
      r.2.mem ((c.tc : Thread nD τ).loc main_v4) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v4 (by decide))).trans (W4_arr m ρ c 3),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_all m ρ)

end Cert.Kernel.Hand

end
-- ==== Proof.KernelIdeal.Conds.lean ====
/- The branch conditions of the second and third calls in closed form over their grids, the points at which each output block is live or idle, the staging buffers' names, and each call's invariant before its first point split at the accumulator it carries. -/
import proofs.«153148_j8143257993640_2_alg».proof.Proof.Gen.KernelIdeal.Launch
import proofs.«153148_j8143257993640_2_alg».proof.Proof.Gen.KernelIdeal.Skeleton
import proofs.«153148_j8143257993640_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
abbrev VO0 : View sig .tc .vmem S16384x64 .f32 := (Memref.whole cc0_stg5_0 : Memref sig .tc .vmem S16384x64 .f32).view
abbrev ms0_0 (t : Fin cfg0.N) : Memref sig .tc .vmem S16384x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16384x64 .f32 := win0_5.stage (cfg0.slots t 5)
abbrev hs0_5 (t : Fin cfg0.N) : (ms0_5 t).IsWhole := hstage0_5 ((cfg0.slots t 5).cast nbuf0_5)

/-! ## Region 1: the branch conditions over the grid, and where the output block is live -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel
abbrev VO1 : View sig .tc .vmem S2048x1 .f32 := (Memref.whole cc1_stg1_0 : Memref sig .tc .vmem S2048x1 .f32).view
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev scM1 : Memref sig .tc .vmem S2048x1 .f32 := Memref.whole cc1_scratch0
abbrev VS1 : View sig .tc .vmem S2048x1 .f32 := (scM1).view
/-- Every scoped buffer that is neither a staging buffer of this call nor its accumulator, at some contents. -/
abbrev Rest1 (c : Dev nD) : sProp 𝕄 := Pipeline.scopedRestBut (Ix := Unit) (Name := ℕ) (U := UR sig nD τ) (Lvl := ℕ) (Val := Elt F) spec1 c [cc1_scratch0]
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 (F := F) c) :=
  Pipeline.scopedRest_split_of_list spec1 c [cc1_scratch0] (by decide) (by decide)
/-- The region's invariant before its first point: the accumulator at some contents, the other scoped buffers, the generator register. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA; rw [scopedRest1_split]; simp only [scM1, owns_whole]; try rfl

/-! ## Region 2: the branch conditions over the grid, and where the output block is live -/

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
abbrev cond2_1 (i : grid2.Coords) : Prop := (Scalar.cmpi .ne (Scalar.extui (Scalar.cmpi .eq (BitVec.ofNat 32 (i 0).val) (BitVec.ofNat 32 (i 1).val))) 0#32) = 1#1
theorem hcond2_1 : ∀ t : Fin cfg2.N, cond2_1 (grid2.coords t) ↔ t.val / 16 = t.val % 16 :=
  (by decide +kernel : ∀ t : Fin grid2.N, cond2_1 (grid2.coords t) ↔ t.val / 16 = t.val % 16)
abbrev cond2_2 (i : grid2.Coords) : Prop := k2_cond3 i = 1#1
theorem hcond2_2 : ∀ t : Fin cfg2.N, cond2_2 (grid2.coords t) ↔ t.val % 16 = 15 :=
  (by decide +kernel : ∀ t : Fin grid2.N, cond2_2 (grid2.coords t) ↔ t.val % 16 = 15)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → cond2_1 (grid2.coords t) → ¬cond2_2 (grid2.coords t) → cfg2.idle 3 (grid2.coords t) = true := by decide +kernel
theorem noFlush2_3_A : ∀ t : Fin cfg2.N, cond2_0 (grid2.coords t) → cond2_1 (grid2.coords t) → ¬cond2_2 (grid2.coords t) → (cfg2.win 3).flush t = false := by decide +kernel
theorem idleAt2_3_B : ∀ t : Fin cfg2.N, cond2_0 (grid2.coords t) → ¬cond2_1 (grid2.coords t) → ¬cond2_2 (grid2.coords t) → cfg2.idle 3 (grid2.coords t) = true := by decide +kernel
theorem noFlush2_3_B : ∀ t : Fin cfg2.N, cond2_0 (grid2.coords t) → ¬cond2_1 (grid2.coords t) → ¬cond2_2 (grid2.coords t) → (cfg2.win 3).flush t = false := by decide +kernel
theorem idleAt2_3_C : ∀ t : Fin cfg2.N, ¬cond2_0 (grid2.coords t) → cond2_1 (grid2.coords t) → ¬cond2_2 (grid2.coords t) → cfg2.idle 3 (grid2.coords t) = true := by decide +kernel
theorem noFlush2_3_C : ∀ t : Fin cfg2.N, ¬cond2_0 (grid2.coords t) → cond2_1 (grid2.coords t) → ¬cond2_2 (grid2.coords t) → (cfg2.win 3).flush t = false := by decide +kernel
theorem idleAt2_3_D : ∀ t : Fin cfg2.N, ¬cond2_0 (grid2.coords t) → ¬cond2_1 (grid2.coords t) → ¬cond2_2 (grid2.coords t) → cfg2.idle 3 (grid2.coords t) = true := by decide +kernel
theorem noFlush2_3_D : ∀ t : Fin cfg2.N, ¬cond2_0 (grid2.coords t) → ¬cond2_1 (grid2.coords t) → ¬cond2_2 (grid2.coords t) → (cfg2.win 3).flush t = false := by decide +kernel
theorem liveAt2_3_E : ∀ t : Fin cfg2.N, ¬cond2_0 (grid2.coords t) → cond2_1 (grid2.coords t) → cond2_2 (grid2.coords t) → cfg2.idle 3 (grid2.coords t) = false := by decide +kernel
theorem liveAt2_3_F : ∀ t : Fin cfg2.N, ¬cond2_0 (grid2.coords t) → ¬cond2_1 (grid2.coords t) → cond2_2 (grid2.coords t) → cfg2.idle 3 (grid2.coords t) = false := by decide +kernel
abbrev VO2 : View sig .tc .vmem S1024x64 .f32 := (Memref.whole cc2_stg3_0 : Memref sig .tc .vmem S1024x64 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .f32 := win2_3.stage (cfg2.slots t 3)
abbrev hs2_3 (t : Fin cfg2.N) : (ms2_3 t).IsWhole := hstage2_3 ((cfg2.slots t 3).cast nbuf2_3)
abbrev scM2 : Memref sig .tc .vmem S1024x64 .f32 := Memref.whole cc2_scratch0
abbrev VS2 : View sig .tc .vmem S1024x64 .f32 := (scM2).view
/-- Every scoped buffer that is neither a staging buffer of this call nor its accumulator, at some contents. -/
abbrev Rest2 (c : Dev nD) : sProp 𝕄 := Pipeline.scopedRestBut (Ix := Unit) (Name := ℕ) (U := UR sig nD τ) (Lvl := ℕ) (Val := Elt F) spec2 c [cc2_scratch0]
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ Rest2 (F := F) c) :=
  Pipeline.scopedRest_split_of_list spec2 c [cc2_scratch0] (by decide) (by decide)
/-- The region's invariant before its first point: the accumulator at some contents, the other scoped buffers, the generator register. -/
theorem PhiA2_eq (c : Dev nD) :
    (Pipeline.ΦA spec2 c : sProp 𝕄)
      = iprop(iprop((∃ d, owns (c : Thread nD τ) scM2 fullShare d) ∗ Rest2 (F := F) c) ∗ (∃ r, prngReg c r)) := by
  unfold Pipeline.ΦA; rw [scopedRest2_split]; simp only [scM2, owns_whole]; try rfl

end Cert.KernelIdeal.Hand

end
-- ==== Proof.KernelIdeal.Run0A.lean ====
/- The first call's body run on whole staging buffers in one case of its branches (case A): the stores each buffer ends with are what the run finds. -/
import proofs.«153148_j8143257993640_2_alg».proof.Proof.KernelIdeal.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where there is no branch: on whole buffers holding the input blocks, it runs to the
    continuation with the inputs as they were and every buffer it stored into holding the listed stores (last first), which the run finds. -/
noncomputable def kernelRun0_A (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)
    (x0 : Vec F S16384x64 .f32) (x1 : Vec F S64x64 .f32) (x2 : Vec F S64 .f32) (x3 : Vec F S64 .f32) (x4 : Vec F S64 .f32) :
    { LO : List (View.Piece (Elt F) S16384x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LO)) -∗ K ⟨⟩))
          ⊢ wp frame (wpE (defs₀ (F := F)) Variants.none c none) E (cc0__bn_linear_kernel i arg1 harg1 arg2 harg2 arg3 harg3 arg4 harg4 arg5 harg5 arg6 harg6) K } := by
  refine ⟨?_, fun E K => ?run⟩
  case run =>
    simp only [cc0__bn_linear_kernel_eq_skeleton]; unfold cc0__bn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HO

end Cert.KernelIdeal.Hand

end
-- ==== Proof.KernelIdeal.Reg0.lean ====
/- The first call: what its output block's buffer holds after each grid point, the proof data of its pipeline, and the body obligation at every point. -/
import proofs.«153148_j8143257993640_2_alg».proof.Proof.KernelIdeal.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The case's stores into the output block cover it. -/
theorem cover0_A (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)
    (x0 : Vec F S16384x64 .f32) (x1 : Vec F S64x64 .f32) (x2 : Vec F S64 .f32) (x3 : Vec F S64 .f32) (x4 : Vec F S64 .f32) (y : S16384x64.Idx) :
    ∃ pc ∈ (kernelRun0_A c i arg1 harg1 arg2 harg2 arg3 harg3 arg4 harg4 arg5 harg5 arg6 harg6  x0 x1 x2 x3 x4).1, y ∈ pc.1.set :=
  View.cover_of_tiledL (kernelRun0_A c i arg1 harg1 arg2 harg2 arg3 harg3 arg4 harg4 arg5 harg5 arg6 harg6  x0 x1 x2 x3 x4).1 S16384x64.size (by sl_kernel_rfl) y

/-- What the case leaves in the output block's buffer: its stores read back. -/
def out0_A (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)
    (x0 : Vec F S16384x64 .f32) (x1 : Vec F S64x64 .f32) (x2 : Vec F S64 .f32) (x3 : Vec F S64 .f32) (x4 : Vec F S64 .f32) : Vec F S16384x64 .f32 :=
  VO0.read (Elt F) (VO0.writes (Elt F) VO0.junk (kernelRun0_A c i arg1 harg1 arg2 harg2 arg3 harg3 arg4 harg4 arg5 harg5 arg6 harg6  x0 x1 x2 x3 x4).1)

/-- The proof data of this call: the arrays as the region finds them; after the body each input's buffer at its block and the
    output's at what the body's stores leave; the invariant the scoped buffers and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_A c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_A c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks, so the run applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  unfold out0_A; (try dsimp only)
  iintro ⟨HΦ, Ho, ⟨%d0, H0⟩, ⟨%d1, H1⟩, ⟨%d2, H2⟩, ⟨%d3, H3⟩, ⟨%d4, H4⟩, ⟨%dO, HO⟩⟩
  iapply ((kernelRun0_A c (grid0.coords t) _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [HO]; · iexists _; iexact HO
  iintro ⟨H0, H1, H2, H3, H4, ⟨%eO, HO⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact HO
  ipureintro; exact View.read_writes_of_cover _ _ _ _ _ (cover0_A c _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KernelIdeal.Run1A.lean ====
/- The second call's body run on whole staging buffers in one case of its branches (case A): the stores each buffer ends with are what the run finds. -/
import proofs.«153148_j8143257993640_2_alg».proof.Proof.KernelIdeal.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is taken, branch 1 is skipped: on whole buffers holding the input blocks, it runs to the
    continuation with the inputs as they were and every buffer it stored into holding the listed stores (last first), which the run finds. -/
noncomputable def kernelRun1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) :
    Σ' (LO : List (View.Piece (Elt F) S2048x1 .f32)), { LS0 : List (View.Piece (Elt F) S2048x1 .f32) //
      ∀ (xiO : Vec F S2048x1 .f32) (E : Set ℕ) (K : PUnit → sProp 𝕄),
        iprop(owns (c : Thread nD τ) arg2 fullShare x0 ∗ owns (c : Thread nD τ) arg3 fullShare xiO ∗ (∃ d, owns (c : Thread nD τ) arg4 fullShare d)
            ∗ (iprop(owns (c : Thread nD τ) arg2 fullShare x0 ∗ owns (c : Thread nD τ) arg3 fullShare xiO ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun xiO E K => ?run⟩
  case run =>
    simp only [cc1__rowsum_kernel_eq_skeleton]; unfold cc1__rowsum_kernel_skel
    unfold owns
    iintro ⟨⟨%f0, %hf0, H0⟩, ⟨%fO, %hfO, HO⟩, ⟨%ds0, %fs0, -, HS0⟩, Hk⟩
    obtain rfl := harg2.eq_unread hf0; obtain rfl := harg3.eq_unread hfO
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

end Cert.KernelIdeal.Hand

end
-- ==== Proof.KernelIdeal.Run1B.lean ====
/- The second call's body run on whole staging buffers in one case of its branches (case B): the stores each buffer ends with are what the run finds. -/
import proofs.«153148_j8143257993640_2_alg».proof.Proof.KernelIdeal.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is skipped: on whole buffers holding the input blocks, it runs to the
    continuation with the inputs as they were and every buffer it stored into holding the listed stores (last first), which the run finds. -/
noncomputable def kernelRun1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) :
    Σ' (LO : List (View.Piece (Elt F) S2048x1 .f32)), { LS0 : List (View.Piece (Elt F) S2048x1 .f32) //
      ∀ (xiO : Vec F S2048x1 .f32) (E : Set ℕ) (K : PUnit → sProp 𝕄),
        iprop(owns (c : Thread nD τ) arg2 fullShare x0 ∗ owns (c : Thread nD τ) arg3 fullShare xiO ∗ owns (c : Thread nD τ) arg4 fullShare xs0
            ∗ (iprop(owns (c : Thread nD τ) arg2 fullShare x0 ∗ owns (c : Thread nD τ) arg3 fullShare xiO ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun xiO E K => ?run⟩
  case run =>
    simp only [cc1__rowsum_kernel_eq_skeleton]; unfold cc1__rowsum_kernel_skel
    unfold owns
    iintro ⟨⟨%f0, %hf0, H0⟩, ⟨%fO, %hfO, HO⟩, ⟨%fs0, %hfs0, HS0⟩, Hk⟩
    obtain rfl := harg2.eq_unread hf0; obtain rfl := harg3.eq_unread hfO; obtain rfl := harg4.eq_unread hfs0
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

end Cert.KernelIdeal.Hand

end
-- ==== Proof.KernelIdeal.Run1C.lean ====
/- The second call's body run on whole staging buffers in one case of its branches (case C): the stores each buffer ends with are what the run finds. -/
import proofs.«153148_j8143257993640_2_alg».proof.Proof.KernelIdeal.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is taken: on whole buffers holding the input blocks, it runs to the
    continuation with the inputs as they were and every buffer it stored into holding the listed stores (last first), which the run finds. -/
noncomputable def kernelRun1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) :
    Σ' (LO : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨?_, ?_, fun E K => ?run⟩
  case run =>
    simp only [cc1__rowsum_kernel_eq_skeleton]; unfold cc1__rowsum_kernel_skel
    unfold owns
    iintro ⟨⟨%f0, %hf0, H0⟩, ⟨%dO, %fO, -, HO⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [HO]; · iexists _; iexact HO
    iexists _; iexact HS0

end Cert.KernelIdeal.Hand

end
-- ==== Proof.KernelIdeal.Reg1.lean ====
/- The second call: what its output block's buffer and its accumulator hold after each grid point, the proof data of its pipeline, and the body obligation at every point, case by case. -/
import proofs.«153148_j8143257993640_2_alg».proof.Proof.KernelIdeal.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- What the case leaves in the output block's buffer: its stores read back (nothing is stored: a placeholder nothing consults, the block being idle there). -/
def out1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) : Vec F S2048x1 .f32 :=
  VO1.read (Elt F) (VO1.writes (Elt F) VO1.junk (kernelRun1_A c i arg2 harg2 arg3 harg3 arg4 harg4 hc0 hc1 x0).1)

/-- The case's stores into the accumulator cover it. -/
theorem scover1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) (y : S2048x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S2048x1.size (by sl_kernel_rfl) y

/-- What the case leaves in the accumulator: its stores read back. -/
def sout1_A (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x2048 .f32) : Vec F S2048x1 .f32 :=
  VS1.read (Elt F) (VS1.writes (Elt F) VS1.junk (kernelRun1_A c i arg2 harg2 arg3 harg3 arg4 harg4 hc0 hc1 x0).2.1)

/-- What the case leaves in the output block's buffer: its stores read back (nothing is stored: a placeholder nothing consults, the block being idle there). -/
def out1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) : Vec F S2048x1 .f32 :=
  VO1.read (Elt F) (VO1.writes (Elt F) VO1.junk (kernelRun1_B c i arg2 harg2 arg3 harg3 arg4 harg4 hc0 hc1 x0 xs0).1)

/-- The case's stores into the accumulator cover it. -/
theorem scover1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) (y : S2048x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S2048x1.size (by sl_kernel_rfl) y

/-- What the case leaves in the accumulator: its stores read back. -/
def sout1_B (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x2048 .f32) (xs0 : Vec F S2048x1 .f32) : Vec F S2048x1 .f32 :=
  VS1.read (Elt F) (VS1.writes (Elt F) VS1.junk (kernelRun1_B c i arg2 harg2 arg3 harg3 arg4 harg4 hc0 hc1 x0 xs0).2.1)

/-- The case's stores into the output block cover it. -/
theorem cover1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) (y : S2048x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S2048x1.size (by sl_kernel_rfl) y

/-- What the case leaves in the output block's buffer: its stores read back. -/
def out1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) : Vec F S2048x1 .f32 :=
  VO1.read (Elt F) (VO1.writes (Elt F) VO1.junk (kernelRun1_C c i arg2 harg2 arg3 harg3 arg4 harg4 hc0 hc1 x0 xs0).1)

/-- The case's stores into the accumulator cover it. -/
theorem scover1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) (y : S2048x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S2048x1.size (by sl_kernel_rfl) y

/-- What the case leaves in the accumulator: its stores read back. -/
def sout1_C (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x2048 .f32) (xs0 : Vec F S2048x1 .f32) : Vec F S2048x1 .f32 :=
  VS1.read (Elt F) (VS1.writes (Elt F) VS1.junk (kernelRun1_C c i arg2 harg2 arg3 harg3 arg4 harg4 hc0 hc1 x0 xs0).2.1)

/-- THE ACCUMULATION: what the output block's buffer and the accumulator hold after the body at position `n`, by recursion on the
    position: the case the coordinates select there, run on the point's input blocks and on what the point before left in the accumulator. -/
def outsAt1 (c : Dev nD) : (n : ℕ) → n < cfg1.N → Vec F S2048x1 .f32 × Vec F S2048x1 .f32
  | 0, hn => (out1_A c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 8 = 0 then
      if h1 : (n + 1) % 8 = 7 then
        False.elim (by have hN : n + 1 < 64 := lt_of_lt_of_eq hn (show cfg1.N = 64 from N_1); omega)
      else
        (out1_A c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) scM1 (Memref.isWhole_whole _) ((hcond1_0 t).mpr h0) (fun h => h1 ((hcond1_1 t).mp h)) (iblk1 V c 0 t), sout1_A c (grid1.coords t) (ms1_0 t) (hs1_0 t) (ms1_1 t) (hs1_1 t) scM1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans (rfl))

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_neg h1).trans (rfl))

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_pos h1).trans (rfl))

/-- The region's invariant before position `n`: before the first point every scoped buffer at anything; afterwards the accumulator at what
    the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 (F := F) c) ∗ (∃ r, prngReg c r)) := by
  cases n with
  | zero => exact absurd rfl hz
  | succ n => rfl

/-- The proof data of this call: the arrays as the region finds them; after the body each input's buffer at its block, the output's at the
    accumulation's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms say which case the point is in; the invariant hands the body the accumulator at what the point
    before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  ·
    by_cases h1 : t.val % 8 = 7
    ·
      exfalso; omega
    ·
      rw [show (dat1 V c).leavesExact 0 t = owns (c : Thread nD τ) (ms1_0 t) fullShare ((dat1 V c).after 0 t) from by
          unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A; (try dsimp only)
      by_cases hz : t.val = 0
      ·
        rw [PhiS1_castSucc V c t, PhiS1_zero V c _ _ hz, PhiA1_eq]
        iintro ⟨⟨⟨HS0, Hrest⟩, Hg⟩, Ho, ⟨%d0, H0⟩, ⟨%dO, HO⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [HO]; · iexact HO
        isplitl [HS0]; · iexact HS0
        iintro ⟨H0, HO, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _)
            iexact Hrest
          iexact Hg
        isplitl [Ho]; · iexact Ho
        isplitl [H0]; · iexact H0
        iexists _; iexact HO
      ·
        rw [PhiS1_castSucc V c t, PhiS1_pos V c _ _ hz]
        iintro ⟨⟨⟨HS0, Hrest⟩, Hg⟩, Ho, ⟨%d0, H0⟩, ⟨%dO, HO⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [HO]; · iexact HO
        isplitl [HS0]; · iexists _; iexact HS0
        iintro ⟨H0, HO, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _)
            iexact Hrest
          iexact Hg
        isplitl [Ho]; · iexact Ho
        isplitl [H0]; · iexact H0
        iexists _; iexact HO
  ·
    by_cases h1 : t.val % 8 = 7
    ·
      rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1_C t (fun h => h0 ((hcond1_0 t).mp h)) ((hcond1_1 t).mpr h1)], after1_1]
      rw [outsAt1_C V c t h0 h1]
      unfold out1_C sout1_C; (try dsimp only)
      by_cases hz : t.val = 0
      ·
        exfalso; omega
      ·
        rw [PhiS1_castSucc V c t, PhiS1_pos V c _ _ hz]
        iintro ⟨⟨⟨HS0, Hrest⟩, Hg⟩, Ho, ⟨%d0, H0⟩, ⟨%dO, HO⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [HO]; · iexists _; iexact HO
        isplitl [HS0]; · iexact HS0
        iintro ⟨H0, ⟨%eO, HO⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C c _ _ _ _ _ _ _ _ _ _ _)
            iexact Hrest
          iexact Hg
        isplitl [Ho]; · iexact Ho
        isplitl [H0]; · iexact H0
        unfold owns; iexists _; isplitr
        swap; · iexact HO
        ipureintro; exact View.read_writes_of_cover _ _ _ _ _ (cover1_C c _ _ _ _ _ _ _ _ _ _ _)
    ·
      rw [show (dat1 V c).leavesExact 0 t = owns (c : Thread nD τ) (ms1_0 t) fullShare ((dat1 V c).after 0 t) from by
          unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B; (try dsimp only)
      by_cases hz : t.val = 0
      ·
        exfalso; omega
      ·
        rw [PhiS1_castSucc V c t, PhiS1_pos V c _ _ hz]
        iintro ⟨⟨⟨HS0, Hrest⟩, Hg⟩, Ho, ⟨%d0, H0⟩, ⟨%dO, HO⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [HO]; · iexact HO
        isplitl [HS0]; · iexact HS0
        iintro ⟨H0, HO, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B c _ _ _ _ _ _ _ _ _ _ _)
            iexact Hrest
          iexact Hg
        isplitl [Ho]; · iexact Ho
        isplitl [H0]; · iexact H0
        iexists _; iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KernelIdeal.Run2A.lean ====
/- The third call's body run on whole staging buffers in one case of its branches (case A): the stores each buffer ends with are what the run finds. -/
import proofs.«153148_j8143257993640_2_alg».proof.Proof.KernelIdeal.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is taken, branch 1 is taken, branch 2 is skipped: on whole buffers holding the input blocks, it runs to the
    continuation with the inputs as they were and every buffer it stored into holding the listed stores (last first), which the run finds. -/
noncomputable def kernelRun2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.Run2B.lean ====
/- The third call's body run on whole staging buffers in one case of its branches (case B): the stores each buffer ends with are what the run finds. -/
import proofs.«153148_j8143257993640_2_alg».proof.Proof.KernelIdeal.Run2A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is taken, branch 1 is skipped, branch 2 is skipped: on whole buffers holding the input blocks, it runs to the
    continuation with the inputs as they were and every buffer it stored into holding the listed stores (last first), which the run finds. -/
noncomputable def kernelRun2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.Run2C.lean ====
/- The third call's body run on whole staging buffers in one case of its branches (case C): the stores each buffer ends with are what the run finds. -/
import proofs.«153148_j8143257993640_2_alg».proof.Proof.KernelIdeal.Run2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is taken, branch 2 is skipped: on whole buffers holding the input blocks, it runs to the
    continuation with the inputs as they were and every buffer it stored into holding the listed stores (last first), which the run finds. -/
noncomputable def kernelRun2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.Run2D.lean ====
/- The third call's body run on whole staging buffers in one case of its branches (case D): the stores each buffer ends with are what the run finds. -/
import proofs.«153148_j8143257993640_2_alg».proof.Proof.KernelIdeal.Run2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is skipped, branch 2 is skipped: on whole buffers holding the input blocks, it runs to the
    continuation with the inputs as they were and every buffer it stored into holding the listed stores (last first), which the run finds. -/
noncomputable def kernelRun2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (xiO : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xiO ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xiO ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨[], ?_, fun xiO E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.Run2E.lean ====
/- The third call's body run on whole staging buffers in one case of its branches (case E): the stores each buffer ends with are what the run finds. -/
import proofs.«153148_j8143257993640_2_alg».proof.Proof.KernelIdeal.Run2D

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is taken, branch 2 is taken: on whole buffers holding the input blocks, it runs to the
    continuation with the inputs as they were and every buffer it stored into holding the listed stores (last first), which the run finds. -/
noncomputable def kernelRun2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.KernelIdeal.Hand

end
-- ==== Proof.KernelIdeal.Run2F.lean ====
/- The third call's body run on whole staging buffers in one case of its branches (case F): the stores each buffer ends with are what the run finds. -/
import proofs.«153148_j8143257993640_2_alg».proof.Proof.KernelIdeal.Run2E

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in the case where branch 0 is skipped, branch 1 is skipped, branch 2 is taken: on whole buffers holding the input blocks, it runs to the
    continuation with the inputs as they were and every buffer it stored into holding the listed stores (last first), which the run finds. -/
noncomputable def kernelRun2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) :
    Σ' (LO : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc2__main_kernel i arg2 harg2 arg3 harg3 arg4 harg4 arg5 harg5 arg6 harg6) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.KernelIdeal.Hand

end
-- ==== Proof.KernelIdeal.Reg2.lean ====
/- The third call: what its output block's buffer and its accumulator hold after each grid point, the proof data of its pipeline, and the body obligation at every point, case by case. -/
import proofs.«153148_j8143257993640_2_alg».proof.Proof.KernelIdeal.Run2F

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the case leaves in the output block's buffer: its stores read back (nothing is stored: a placeholder nothing consults, the block being idle there). -/
def out2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) : Vec F S1024x64 .f32 :=
  VO2.read (Elt F) (VO2.writes (Elt F) VO2.junk (kernelRun2_A c i arg2 harg2 arg3 harg3 arg4 harg4 arg5 harg5 arg6 harg6 hc0 hc1 hc2 x0 x1 x2).1)

/-- The case's stores into the accumulator cover it. -/
theorem scover2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) (y : S1024x64.Idx) :
    ∃ pc ∈ (kernelRun2_A c i arg2 harg2 arg3 harg3 arg4 harg4 arg5 harg5 arg6 harg6 hc0 hc1 hc2 x0 x1 x2).2.1, y ∈ pc.1.set :=
  View.cover_of_tiledL (kernelRun2_A c i arg2 harg2 arg3 harg3 arg4 harg4 arg5 harg5 arg6 harg6 hc0 hc1 hc2 x0 x1 x2).2.1 S1024x64.size (by sl_kernel_rfl) y

/-- What the case leaves in the accumulator: its stores read back. -/
def sout2_A (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i)
    (x0 : Vec F S1024x1024 .f32) (x1 : Vec F S1024x64 .f32) (x2 : Vec F S1024x1 .f32) : Vec F S1024x64 .f32 :=
  VS2.read (Elt F) (VS2.writes (Elt F) VS2.junk (kernelRun2_A c i arg2 harg2 arg3 harg3 arg4 harg4 arg5 harg5 arg6 harg6 hc0 hc1 hc2 x0 x1 x2).2.1)

/-- What the case leaves in the output block's buffer: its stores read back (nothing is stored: a placeholder nothing consults, the block being idle there). -/
def out2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) : Vec F S1024x64 .f32 :=
  VO2.read (Elt F) (VO2.writes (Elt F) VO2.junk (kernelRun2_B c i arg2 harg2 arg3 harg3 arg4 harg4 arg5 harg5 arg6 harg6 hc0 hc1 hc2 x0 x1 x2).1)

/-- The case's stores into the accumulator cover it. -/
theorem scover2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) (y : S1024x64.Idx) :
    ∃ pc ∈ (kernelRun2_B c i arg2 harg2 arg3 harg3 arg4 harg4 arg5 harg5 arg6 harg6 hc0 hc1 hc2 x0 x1 x2).2.1, y ∈ pc.1.set :=
  View.cover_of_tiledL (kernelRun2_B c i arg2 harg2 arg3 harg3 arg4 harg4 arg5 harg5 arg6 harg6 hc0 hc1 hc2 x0 x1 x2).2.1 S1024x64.size (by sl_kernel_rfl) y

/-- What the case leaves in the accumulator: its stores read back. -/
def sout2_B (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i)
    (x0 : Vec F S1024x1024 .f32) (x1 : Vec F S1024x64 .f32) (x2 : Vec F S1024x1 .f32) : Vec F S1024x64 .f32 :=
  VS2.read (Elt F) (VS2.writes (Elt F) VS2.junk (kernelRun2_B c i arg2 harg2 arg3 harg3 arg4 harg4 arg5 harg5 arg6 harg6 hc0 hc1 hc2 x0 x1 x2).2.1)

/-- What the case leaves in the output block's buffer: its stores read back (nothing is stored: a placeholder nothing consults, the block being idle there). -/
def out2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_C c i arg2 harg2 arg3 harg3 arg4 harg4 arg5 harg5 arg6 harg6 hc0 hc1 hc2 x0 x1 x2 xs0).1)

/-- The case's stores into the accumulator cover it. -/
theorem scover2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) (y : S1024x64.Idx) :
    ∃ pc ∈ (kernelRun2_C c i arg2 harg2 arg3 harg3 arg4 harg4 arg5 harg5 arg6 harg6 hc0 hc1 hc2 x0 x1 x2 xs0).2.1, y ∈ pc.1.set :=
  View.cover_of_tiledL (kernelRun2_C c i arg2 harg2 arg3 harg3 arg4 harg4 arg5 harg5 arg6 harg6 hc0 hc1 hc2 x0 x1 x2 xs0).2.1 S1024x64.size (by sl_kernel_rfl) y

/-- What the case leaves in the accumulator: its stores read back. -/
def sout2_C (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_C c i arg2 harg2 arg3 harg3 arg4 harg4 arg5 harg5 arg6 harg6 hc0 hc1 hc2 x0 x1 x2 xs0).2.1)

/-- What the case leaves in the output block's buffer: its stores read back (nothing is stored: a placeholder nothing consults, the block being idle there). -/
def out2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_D c i arg2 harg2 arg3 harg3 arg4 harg4 arg5 harg5 arg6 harg6 hc0 hc1 hc2 x0 x1 x2 xs0).1)

/-- The case's stores into the accumulator cover it. -/
theorem scover2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) (y : S1024x64.Idx) :
    ∃ pc ∈ (kernelRun2_D c i arg2 harg2 arg3 harg3 arg4 harg4 arg5 harg5 arg6 harg6 hc0 hc1 hc2 x0 x1 x2 xs0).2.1, y ∈ pc.1.set :=
  View.cover_of_tiledL (kernelRun2_D c i arg2 harg2 arg3 harg3 arg4 harg4 arg5 harg5 arg6 harg6 hc0 hc1 hc2 x0 x1 x2 xs0).2.1 S1024x64.size (by sl_kernel_rfl) y

/-- What the case leaves in the accumulator: its stores read back. -/
def sout2_D (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_D c i arg2 harg2 arg3 harg3 arg4 harg4 arg5 harg5 arg6 harg6 hc0 hc1 hc2 x0 x1 x2 xs0).2.1)

/-- The case's stores into the output block cover it. -/
theorem cover2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_E c i arg2 harg2 arg3 harg3 arg4 harg4 arg5 harg5 arg6 harg6 hc0 hc1 hc2 x0 x1 x2 xs0).1, y ∈ pc.1.set :=
  View.cover_of_tiledL (kernelRun2_E c i arg2 harg2 arg3 harg3 arg4 harg4 arg5 harg5 arg6 harg6 hc0 hc1 hc2 x0 x1 x2 xs0).1 S1024x64.size (by sl_kernel_rfl) y

/-- What the case leaves in the output block's buffer: its stores read back. -/
def out2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_E c i arg2 harg2 arg3 harg3 arg4 harg4 arg5 harg5 arg6 harg6 hc0 hc1 hc2 x0 x1 x2 xs0).1)

/-- The case's stores into the accumulator cover it. -/
theorem scover2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_E c i arg2 harg2 arg3 harg3 arg4 harg4 arg5 harg5 arg6 harg6 hc0 hc1 hc2 x0 x1 x2 xs0).2.1, y ∈ pc.1.set :=
  View.cover_of_tiledL (kernelRun2_E c i arg2 harg2 arg3 harg3 arg4 harg4 arg5 harg5 arg6 harg6 hc0 hc1 hc2 x0 x1 x2 xs0).2.1 S1024x64.size (by sl_kernel_rfl) y

/-- What the case leaves in the accumulator: its stores read back. -/
def sout2_E (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_E c i arg2 harg2 arg3 harg3 arg4 harg4 arg5 harg5 arg6 harg6 hc0 hc1 hc2 x0 x1 x2 xs0).2.1)

/-- The case's stores into the output block cover it. -/
theorem cover2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_F c i arg2 harg2 arg3 harg3 arg4 harg4 arg5 harg5 arg6 harg6 hc0 hc1 hc2 x0 x1 x2 xs0).1, y ∈ pc.1.set :=
  View.cover_of_tiledL (kernelRun2_F c i arg2 harg2 arg3 harg3 arg4 harg4 arg5 harg5 arg6 harg6 hc0 hc1 hc2 x0 x1 x2 xs0).1 S1024x64.size (by sl_kernel_rfl) y

/-- What the case leaves in the output block's buffer: its stores read back. -/
def out2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) : Vec F S1024x64 .f32 :=
  VO2.read (Elt F) (VO2.writes (Elt F) VO2.junk (kernelRun2_F c i arg2 harg2 arg3 harg3 arg4 harg4 arg5 harg5 arg6 harg6 hc0 hc1 hc2 x0 x1 x2 xs0).1)

/-- The case's stores into the accumulator cover it. -/
theorem scover2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) (y : S1024x64.Idx) :
    ∃ pc ∈ (kernelRun2_F c i arg2 harg2 arg3 harg3 arg4 harg4 arg5 harg5 arg6 harg6 hc0 hc1 hc2 x0 x1 x2 xs0).2.1, y ∈ pc.1.set :=
  View.cover_of_tiledL (kernelRun2_F c i arg2 harg2 arg3 harg3 arg4 harg4 arg5 harg5 arg6 harg6 hc0 hc1 hc2 x0 x1 x2 xs0).2.1 S1024x64.size (by sl_kernel_rfl) y

/-- What the case leaves in the accumulator: its stores read back. -/
def sout2_F (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i)
    (x0 : Vec F S1024x1024 .f32) (x1 : Vec F S1024x64 .f32) (x2 : Vec F S1024x1 .f32) (xs0 : Vec F S1024x64 .f32) : Vec F S1024x64 .f32 :=
  VS2.read (Elt F) (VS2.writes (Elt F) VS2.junk (kernelRun2_F c i arg2 harg2 arg3 harg3 arg4 harg4 arg5 harg5 arg6 harg6 hc0 hc1 hc2 x0 x1 x2 xs0).2.1)

/-- THE ACCUMULATION: what the output block's buffer and the accumulator hold after the body at position `n`, by recursion on the
    position: the case the coordinates select there, run on the point's input blocks and on what the point before left in the accumulator. -/
def outsAt2 (c : Dev nD) : (n : ℕ) → n < cfg2.N → Vec F S1024x64 .f32 × Vec F S1024x64 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) ((hcond2_1 ⟨0, hn⟩).mpr (rfl : (0:ℕ) / 16 = 0 % 16)) (fun h => (fun h => by (try dsimp only at h); omega) ((hcond2_2 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) ((hcond2_1 ⟨0, hn⟩).mpr (rfl : (0:ℕ) / 16 = 0 % 16)) (fun h => (fun h => by (try dsimp only at h); omega) ((hcond2_2 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) / 16 = (n + 1) % 16 then
        if h2 : (n + 1) % 16 = 15 then
          False.elim (by have hN : n + 1 < 256 := lt_of_lt_of_eq hn (show cfg2.N = 256 from N_2); omega)
        else
          (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩))
      else
        if h2 : (n + 1) % 16 = 15 then
          False.elim (by have hN : n + 1 < 256 := lt_of_lt_of_eq hn (show cfg2.N = 256 from N_2); omega)
        else
          (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩), sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩))
    else
      if h1 : (n + 1) / 16 = (n + 1) % 16 then
        if h2 : (n + 1) % 16 = 15 then
          (out2_E c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2, sout2_E c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2)
        else
          (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)
      else
        if h2 : (n + 1) % 16 = 15 then
          (out2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2, sout2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) ((hcond2_2 ⟨n + 1, hn⟩).mpr h2) (iblk2 V c 0 ⟨n + 1, hn⟩) (iblk2 V c 1 ⟨n + 1, hn⟩) (iblk2 V c 2 ⟨n + 1, hn⟩) (outsAt2 c n (Nat.lt_of_succ_lt hn)).2)
        else
          (out2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_D c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : t.val / 16 = t.val % 16) (h2 : ¬t.val % 16 = 15) :
    outsAt2 V c t.val t.isLt = (out2_A c (grid2.coords t) (ms2_0 t) (hs2_0 t) (ms2_1 t) (hs2_1 t) (ms2_2 t) (hs2_2 t) (ms2_3 t) (hs2_3 t) scM2 (Memref.isWhole_whole _) ((hcond2_0 t).mpr h0) ((hcond2_1 t).mpr h1) (fun h => h2 ((hcond2_2 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) scM2 (Memref.isWhole_whole _) ((hcond2_0 t).mpr h0) ((hcond2_1 t).mpr h1) (fun h => h2 ((hcond2_2 t).mp h)) (iblk2 V c 0 t) (iblk2 V c 1 t) (iblk2 V c 2 t)) := by
  obtain ⟨n, hn⟩ := t
  cases n with
  | zero => exact rfl
  | succ n => exact (dif_pos h0).trans ((dif_pos h1).trans ((dif_neg h2).trans (rfl)))

theorem outsAt2_B (c : Dev nD) (t : Fin cfg2.N) (h0 : t.val % 16 = 0) (h1 : ¬t.val / 16 = t.val % 16) (h2 : ¬t.val % 16 = 15) :
    outsAt2 V c t.val t.isLt = (out2_B c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (fun h => h2 ((hcond2_2 t).mp h)) (iblk2 V c 0 t) (iblk2 V c 1 t) (iblk2 V c 2 t), sout2_B c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (fun h => h2 ((hcond2_2 t).mp h)) (iblk2 V c 0 t) (iblk2 V c 1 t) (iblk2 V c 2 t)) := by
  obtain ⟨n, hn⟩ := t
  cases n with
  | zero => exact (by exfalso; (try dsimp only at *); omega)
  | succ n => exact (dif_pos h0).trans ((dif_neg h1).trans ((dif_neg h2).trans (rfl)))

theorem outsAt2_C (c : Dev nD) (t : Fin cfg2.N) (h0 : ¬t.val % 16 = 0) (h1 : t.val / 16 = t.val % 16) (h2 : ¬t.val % 16 = 15) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (fun h => h2 ((hcond2_2 t).mp h)) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (fun h => h2 ((hcond2_2 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_pos h1).trans ((dif_neg h2).trans (rfl)))

theorem outsAt2_D (c : Dev nD) (t : Fin cfg2.N) (h0 : ¬t.val % 16 = 0) (h1 : ¬t.val / 16 = t.val % 16) (h2 : ¬t.val % 16 = 15) :
    outsAt2 V c t.val t.isLt = (out2_D c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (outsAt2 V c (t.val - 1) (Nat.lt_of_le_of_lt (Nat.sub_le _ _) t.isLt)).2, sout2_D c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_neg h1).trans ((dif_neg h2).trans (rfl)))

theorem outsAt2_E (c : Dev nD) (t : Fin cfg2.N) (h0 : ¬t.val % 16 = 0) (h1 : t.val / 16 = t.val % 16) (h2 : t.val % 16 = 15) :
    outsAt2 V c t.val t.isLt = (out2_E c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) ((hcond2_2 t).mpr h2) (iblk2 V c 0 t) (iblk2 V c 1 t) (iblk2 V c 2 t) (outsAt2 V c (t.val - 1) (Nat.lt_of_le_of_lt (Nat.sub_le _ _) t.isLt)).2, sout2_E c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) ((hcond2_2 t).mpr h2) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_pos h1).trans ((dif_pos h2).trans (rfl)))

theorem outsAt2_F (c : Dev nD) (t : Fin cfg2.N) (h0 : ¬t.val % 16 = 0) (h1 : ¬t.val / 16 = t.val % 16) (h2 : t.val % 16 = 15) :
    outsAt2 V c t.val t.isLt = (out2_F c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) ((hcond2_2 t).mpr h2) (iblk2 V c 0 t) (iblk2 V c 1 t) (iblk2 V c 2 t) (outsAt2 V c (t.val - 1) (Nat.lt_of_le_of_lt (Nat.sub_le _ _) t.isLt)).2, sout2_F c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) ((hcond2_2 t).mpr h2) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at *); omega)
  | succ n => exact (dif_neg h0).trans ((dif_neg h1).trans ((dif_pos h2).trans (rfl)))

/-- The region's invariant before position `n`: before the first point every scoped buffer at anything; afterwards the accumulator at what
    the point before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 (F := F) c) ∗ (∃ r, prngReg c r)) := by
  cases n with
  | zero => exact absurd rfl hz
  | succ n => rfl

/-- The proof data of this call: the arrays as the region finds them; after the body each input's buffer at its block, the output's at the
    accumulation's first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the closed forms say which case the point is in; the invariant hands the body the accumulator at what the point
    before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  by_cases h0 : t.val % 16 = 0
  ·
    by_cases h1 : t.val / 16 = t.val % 16
    ·
      by_cases h2 : t.val % 16 = 15
      ·
        exfalso; omega
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_A t ((hcond2_0 t).mpr h0) ((hcond2_1 t).mpr h1) (fun h => h2 ((hcond2_2 t).mp h))) (noFlush2_3_A t ((hcond2_0 t).mpr h0) ((hcond2_1 t).mpr h1) (fun h => h2 ((hcond2_2 t).mp h)))]
        rw [outsAt2_A V c t h0 h1 h2]
        unfold sout2_A; (try dsimp only)
        by_cases hz : t.val = 0
        ·
          rw [PhiS2_castSucc V c t, PhiS2_zero V c _ _ hz, PhiA2_eq]
          iintro ⟨⟨⟨HS0, Hrest⟩, Hg⟩, Ho, ⟨%d0, H0⟩, ⟨%d1, H1⟩, ⟨%d2, H2⟩, ⟨%dO, HO⟩⟩
          iapply ((kernelRun2_A c (grid2.coords t) _ _ _ _ _ _ _ _ _ _ ((hcond2_0 t).mpr h0) ((hcond2_1 t).mpr h1) (fun h => h2 ((hcond2_2 t).mp h)) (iblk2 V c 0 t) (iblk2 V c 1 t) (iblk2 V c 2 t)).2.2 _ Set.univ _)
          isplitl [H0]; · iexact H0
          isplitl [H1]; · iexact H1
          isplitl [H2]; · iexact H2
          isplitl [HO]; · iexact HO
          isplitl [HS0]; · iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_A c _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_A c (grid2.coords t) _ _ _ _ _ _ _ _ _ _ ((hcond2_0 t).mpr h0) ((hcond2_1 t).mpr h1) (fun h => h2 ((hcond2_2 t).mp h)) (iblk2 V c 0 t) (iblk2 V c 1 t) (iblk2 V c 2 t)).2.2 _ Set.univ _)
          isplitl [H0]; · iexact H0
          isplitl [H1]; · iexact H1
          isplitl [H2]; · iexact H2
          isplitl [HO]; · iexact HO
          isplitl [HS0]; · iexists _; iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_A c _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
    ·
      by_cases h2 : t.val % 16 = 15
      ·
        exfalso; omega
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_B t ((hcond2_0 t).mpr h0) (fun h => h1 ((hcond2_1 t).mp h)) (fun h => h2 ((hcond2_2 t).mp h))) (noFlush2_3_B t ((hcond2_0 t).mpr h0) (fun h => h1 ((hcond2_1 t).mp h)) (fun h => h2 ((hcond2_2 t).mp h)))]
        rw [outsAt2_B V c t h0 h1 h2]
        unfold sout2_B; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_B c (grid2.coords t) _ _ _ _ _ _ _ _ _ _ ((hcond2_0 t).mpr h0) (fun h => h1 ((hcond2_1 t).mp h)) (fun h => h2 ((hcond2_2 t).mp h)) (iblk2 V c 0 t) (iblk2 V c 1 t) (iblk2 V c 2 t)).2.2 _ Set.univ _)
          isplitl [H0]; · iexact H0
          isplitl [H1]; · iexact H1
          isplitl [H2]; · iexact H2
          isplitl [HO]; · iexact HO
          isplitl [HS0]; · iexists _; iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_B c _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
  ·
    by_cases h1 : t.val / 16 = t.val % 16
    ·
      by_cases h2 : t.val % 16 = 15
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [show (dat2 V c).leavesExact 3 t = owns (c : Thread nD τ) (ms2_3 t) fullShare ((dat2 V c).after 3 t) from by
            unfold Dat.leavesExact; rw [liveAt2_3_E t (fun h => h0 ((hcond2_0 t).mp h)) ((hcond2_1 t).mpr h1) ((hcond2_2 t).mpr h2)], after2_3]
        rw [outsAt2_E V c t h0 h1 h2]
        unfold out2_E sout2_E; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_E c (grid2.coords t) _ _ _ _ _ _ _ _ _ _ (fun h => h0 ((hcond2_0 t).mp h)) ((hcond2_1 t).mpr h1) ((hcond2_2 t).mpr h2) (iblk2 V c 0 t) (iblk2 V c 1 t) (iblk2 V c 2 t) _).2.2 Set.univ _)
          isplitl [H0]; · iexact H0
          isplitl [H1]; · iexact H1
          isplitl [H2]; · iexact H2
          isplitl [HO]; · iexists _; iexact HO
          isplitl [HS0]; · iexact HS0
          iintro ⟨H0, H1, H2, ⟨%eO, HO⟩, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_E c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          unfold owns; iexists _; isplitr
          swap; · iexact HO
          ipureintro; exact View.read_writes_of_cover _ _ _ _ _ (cover2_E c _ _ _ _ _ _ _ _ _ _ _ _ _ _ _ _ _ _)
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_C t (fun h => h0 ((hcond2_0 t).mp h)) ((hcond2_1 t).mpr h1) (fun h => h2 ((hcond2_2 t).mp h))) (noFlush2_3_C t (fun h => h0 ((hcond2_0 t).mp h)) ((hcond2_1 t).mpr h1) (fun h => h2 ((hcond2_2 t).mp h)))]
        rw [outsAt2_C V c t h0 h1 h2]
        unfold sout2_C; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_C c (grid2.coords t) _ _ _ _ _ _ _ _ _ _ (fun h => h0 ((hcond2_0 t).mp h)) ((hcond2_1 t).mpr h1) (fun h => h2 ((hcond2_2 t).mp h)) (iblk2 V c 0 t) (iblk2 V c 1 t) (iblk2 V c 2 t) _).2.2 _ Set.univ _)
          isplitl [H0]; · iexact H0
          isplitl [H1]; · iexact H1
          isplitl [H2]; · iexact H2
          isplitl [HO]; · iexact HO
          isplitl [HS0]; · iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_C c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO
    ·
      by_cases h2 : t.val % 16 = 15
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [show (dat2 V c).leavesExact 3 t = owns (c : Thread nD τ) (ms2_3 t) fullShare ((dat2 V c).after 3 t) from by
            unfold Dat.leavesExact; rw [liveAt2_3_F t (fun h => h0 ((hcond2_0 t).mp h)) (fun h => h1 ((hcond2_1 t).mp h)) ((hcond2_2 t).mpr h2)], after2_3]
        rw [outsAt2_F V c t h0 h1 h2]
        unfold out2_F sout2_F; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_F c (grid2.coords t) _ _ _ _ _ _ _ _ _ _ (fun h => h0 ((hcond2_0 t).mp h)) (fun h => h1 ((hcond2_1 t).mp h)) ((hcond2_2 t).mpr h2) (iblk2 V c 0 t) (iblk2 V c 1 t) (iblk2 V c 2 t) _).2.2 Set.univ _)
          isplitl [H0]; · iexact H0
          isplitl [H1]; · iexact H1
          isplitl [H2]; · iexact H2
          isplitl [HO]; · iexists _; iexact HO
          isplitl [HS0]; · iexact HS0
          iintro ⟨H0, H1, H2, ⟨%eO, HO⟩, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_F c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          unfold owns; iexists _; isplitr
          swap; · iexact HO
          ipureintro; exact View.read_writes_of_cover _ _ _ _ _ (cover2_F c _ _ _ _ _ _ _ _ _ _ _ _ _ _ _ _ _ _)
      ·
        rw [show (dat2 V c).leavesExact 0 t = owns (c : Thread nD τ) (ms2_0 t) fullShare ((dat2 V c).after 0 t) from by
            unfold Dat.leavesExact; rw [liveAt2_0 t], after2_0]
        rw [show (dat2 V c).leavesExact 1 t = owns (c : Thread nD τ) (ms2_1 t) fullShare ((dat2 V c).after 1 t) from by
            unfold Dat.leavesExact; rw [liveAt2_1 t], after2_1]
        rw [show (dat2 V c).leavesExact 2 t = owns (c : Thread nD τ) (ms2_2 t) fullShare ((dat2 V c).after 2 t) from by
            unfold Dat.leavesExact; rw [liveAt2_2 t], after2_2]
        rw [Dat.leavesExact_idle (dat2 V c) 3 t (idleAt2_3_D t (fun h => h0 ((hcond2_0 t).mp h)) (fun h => h1 ((hcond2_1 t).mp h)) (fun h => h2 ((hcond2_2 t).mp h))) (noFlush2_3_D t (fun h => h0 ((hcond2_0 t).mp h)) (fun h => h1 ((hcond2_1 t).mp h)) (fun h => h2 ((hcond2_2 t).mp h)))]
        rw [outsAt2_D V c t h0 h1 h2]
        unfold sout2_D; (try dsimp only)
        by_cases hz : t.val = 0
        ·
          exfalso; omega
        ·
          rw [PhiS2_castSucc V c t, PhiS2_pos V c _ _ hz]
          iintro ⟨⟨⟨HS0, Hrest⟩, Hg⟩, Ho, ⟨%d0, H0⟩, ⟨%d1, H1⟩, ⟨%d2, H2⟩, ⟨%dO, HO⟩⟩
          iapply ((kernelRun2_D c (grid2.coords t) _ _ _ _ _ _ _ _ _ _ (fun h => h0 ((hcond2_0 t).mp h)) (fun h => h1 ((hcond2_1 t).mp h)) (fun h => h2 ((hcond2_2 t).mp h)) (iblk2 V c 0 t) (iblk2 V c 1 t) (iblk2 V c 2 t) _).2.2 _ Set.univ _)
          isplitl [H0]; · iexact H0
          isplitl [H1]; · iexact H1
          isplitl [H2]; · iexact H2
          isplitl [HO]; · iexact HO
          isplitl [HS0]; · iexact HS0
          iintro ⟨H0, H1, H2, HO, ⟨%es0, HS0⟩⟩
          isplitl [HS0 Hrest Hg]
          · isplitl [HS0 Hrest]
            · isplitl [HS0]
              · unfold owns; iexists _; isplitr
                swap; · iexact HS0
                ipureintro; exact View.read_writes_of_cover _ _ _ _ _ (scover2_D c _ _ _ _ _ _ _ _ _ _ _ _ _ _ _ _ _ _)
              iexact Hrest
            iexact Hg
          isplitl [Ho]; · iexact Ho
          isplitl [H0]; · iexact H0
          isplitl [H1]; · iexact H1
          isplitl [H2]; · iexact H2
          iexists _; iexact HO

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 256 := N_2; omega)

end

end Cert.KernelIdeal.Hand

end
-- ==== Proof.KernelIdeal.Frame.lean ====
/- The whole run: the three calls and the stretch of host operations before the third as segments from the launch to the return, the buffers' contents at every boundary, every argument walked back to its launch contents, and the run's post — the frame, and the result array named. -/
import proofs.«153148_j8143257993640_2_alg».proof.Proof.KernelIdeal.Reg0
import proofs.«153148_j8143257993640_2_alg».proof.Proof.KernelIdeal.Reg1
import proofs.«153148_j8143257993640_2_alg».proof.Proof.KernelIdeal.Reg2
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: three calls, one stretch of host operations before the third -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline's write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline's write-backs leave, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host stretch between the second and the third call. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- At region 2's exit: its arrays at what the pipeline's write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### No call and no host operation writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat2 (V3 m ρ) c).arrAt_in 0 rfl _).trans (A_eq2 (V3 m ρ) c 0))
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := (W1_arr m ρ c 4).trans (((dat0 (V0 m ρ) c).arrAt_in 4 rfl _).trans (A_eq0 (V0 m ρ) c 4))
    _ = m ((c : Thread nD τ).loc main_arg5) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- Region 0 over the thread state "every unscoped buffer at the boundary's contents, the generator register at some state, nothing
    owed": its arrays split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state, nothing
    owed": its arrays split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V1 m ρ) c).Φ (Fin.last cfg1.N) from rfl]
    have h := hout1 (V1 m ρ) c
    unfold Pipeline.ΦA at h
    have h2 : iprop(Pipeline.scopedRest (Ix := Unit) (Name := ℕ) (U := UR sig nD τ) (Lvl := ℕ) (Val := Elt F) spec1 c ∗ ∃ r, prngReg c r)
        ⊢ (iprop((∃ r, prngReg c r) ∗ emp ∗ Pipeline.scopedRest (Ix := Unit) (Name := ℕ) (U := UR sig nD τ) (Lvl := ℕ) (Val := Elt F) spec1 c) : sProp 𝕄) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some state, nothing
    owed": its arrays split out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    have h := hout2 (V3 m ρ) c
    unfold Pipeline.ΦA at h
    have h2 : iprop(Pipeline.scopedRest (Ix := Unit) (Name := ℕ) (U := UR sig nD τ) (Lvl := ℕ) (Val := Elt F) spec2 c ∗ ∃ r, prngReg c r)
        ⊢ (iprop((∃ r, prngReg c r) ∗ emp ∗ Pipeline.scopedRest (Ix := Unit) (Name := ℕ) (U := UR sig nD τ) (Lvl := ℕ) (Val := Elt F) spec2 c) : sProp 𝕄) := by
      iintro ⟨Hr, Hp⟩
      isplitl [Hp]; · iexact Hp
      isplitr; · iempintro
      iexact Hr
    exact h.trans h2
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_noalloc (W2 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every final state
    holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_all m ρ)

/-- THE VALUE RUN: the same run with the result array named — what the third call's write-backs leave of its output window. -/
theorem run_value : θ_run defs (onTc (τ := τ) (main (F := F))) ⟨m, fun _ => 0, ρ⟩ (fun r => ∀ c : Dev nD,
      r.2.mem ((c.tc : Thread nD τ).loc main_v4) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v4 (by decide))).trans (W4_arr m ρ c 3),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_all m ρ)

end Cert.KernelIdeal.Hand

end
-- ==== Proof.KernelIdeal.Pieces.lean ====
/- What each case of each body leaves in the buffers it stores into, as the body's arithmetic of the blocks it loaded: whole-buffer stores and loads, so the last store's value. -/
import proofs.«153148_j8143257993640_2_alg».proof.Proof.KernelIdeal.Reg0
import proofs.«153148_j8143257993640_2_alg».proof.Proof.KernelIdeal.Reg1
import proofs.«153148_j8143257993640_2_alg».proof.Proof.KernelIdeal.Reg2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each case of each body leaves in the buffers it stores into, as the body's arithmetic of the blocks it loaded. -/

theorem hz2 : (![0, 0] : Fin 2 → Nat) = fun _ => 0 := funext fun a => by fin_cases a <;> rfl
theorem hz1 : (![0] : Fin 1 → Nat) = fun _ => 0 := funext fun a => by fin_cases a; rfl

/-- A load of the whole buffer after a store of the whole buffer reads that store's value, whatever was stored before. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out0_A_eq (c : Dev nD) (i : grid0.Coords) (arg1 : Memref sig .tc .vmem S16384x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64 .f32) (harg4 : arg4.IsWhole) (arg5 : Memref sig .tc .vmem S64 .f32) (harg5 : arg5.IsWhole) (arg6 : Memref sig .tc .vmem S16384x64 .f32) (harg6 : arg6.IsWhole)  (x0 : Vec F S16384x64 .f32) (x1 : Vec F S64x64 .f32) (x2 : Vec F S64 .f32) (x3 : Vec F S64 .f32) (x4 : Vec F S64 .f32) :
    out0_A c i arg1 harg1 arg2 harg2 arg3 harg3 arg4 harg4 arg5 harg5 arg6 harg6  x0 x1 x2 x3 x4 = k0_pay1 x0 x3 x4 x1 x2 := by
  unfold out0_A
  rw [View.read_writes_eq_canon _ _ _ (cover0_A c i arg1 harg1 arg2 harg2 arg3 harg3 arg4 harg4 arg5 harg5 arg6 harg6  x0 x1 x2 x3 x4)]
  unfold kernelRun0_A
  dsimp only
  try sl_unfold_words
  simp only [View.canon_cons_unit_zero (S := S16384x64) hz2, readCov_cons_unit_zero (S := S16384x64) _ hz2, View.ld_unit_zero (S := S16384x64) hz2, View.canon_cons_unit_zero (S := S64x64) hz2, readCov_cons_unit_zero (S := S64x64) _ hz2, View.ld_unit_zero (S := S64x64) hz2, View.canon_cons_unit_zero (S := S64) hz1, readCov_cons_unit_zero (S := S64) _ hz1, View.ld_unit_zero (S := S64) hz1, View.readAt_eq_ld, harg1.read_unread, harg2.read_unread, harg3.read_unread, harg4.read_unread, harg5.read_unread, harg6.read_unread]

theorem sout1_A_eq (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i) (x0 : Vec F S2048x2048 .f32) :
    sout1_A c i arg2 harg2 arg3 harg3 arg4 harg4 hc0 hc1 x0 = k1_pay2 (k1_pay1 (F := F)) x0 := by
  unfold sout1_A
  rw [View.read_writes_eq_canon _ _ _ (scover1_A c i arg2 harg2 arg3 harg3 arg4 harg4 hc0 hc1 x0)]
  unfold kernelRun1_A
  dsimp only
  try sl_unfold_words
  simp only [View.canon_cons_unit_zero (S := S2048x1) hz2, readCov_cons_unit_zero (S := S2048x1) _ hz2, View.ld_unit_zero (S := S2048x1) hz2, View.canon_cons_unit_zero (S := S2048x2048) hz2, readCov_cons_unit_zero (S := S2048x2048) _ hz2, View.ld_unit_zero (S := S2048x2048) hz2, View.readAt_eq_ld, harg2.read_unread, harg3.read_unread, harg4.read_unread]

theorem sout1_B_eq (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i) (x0 : Vec F S2048x2048 .f32) (xs0 : Vec F S2048x1 .f32) :
    sout1_B c i arg2 harg2 arg3 harg3 arg4 harg4 hc0 hc1 x0 xs0 = k1_pay2 xs0 x0 := by
  unfold sout1_B
  rw [View.read_writes_eq_canon _ _ _ (scover1_B c i arg2 harg2 arg3 harg3 arg4 harg4 hc0 hc1 x0 xs0)]
  unfold kernelRun1_B
  dsimp only
  try sl_unfold_words
  simp only [View.canon_cons_unit_zero (S := S2048x1) hz2, readCov_cons_unit_zero (S := S2048x1) _ hz2, View.ld_unit_zero (S := S2048x1) hz2, View.canon_cons_unit_zero (S := S2048x2048) hz2, readCov_cons_unit_zero (S := S2048x2048) _ hz2, View.ld_unit_zero (S := S2048x2048) hz2, View.readAt_eq_ld, harg2.read_unread, harg3.read_unread, harg4.read_unread]

theorem sout1_C_eq (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i) (x0 : Vec F S2048x2048 .f32) (xs0 : Vec F S2048x1 .f32) :
    sout1_C c i arg2 harg2 arg3 harg3 arg4 harg4 hc0 hc1 x0 xs0 = k1_pay2 xs0 x0 := by
  unfold sout1_C
  rw [View.read_writes_eq_canon _ _ _ (scover1_C c i arg2 harg2 arg3 harg3 arg4 harg4 hc0 hc1 x0 xs0)]
  unfold kernelRun1_C
  dsimp only
  try sl_unfold_words
  simp only [View.canon_cons_unit_zero (S := S2048x1) hz2, readCov_cons_unit_zero (S := S2048x1) _ hz2, View.ld_unit_zero (S := S2048x1) hz2, View.canon_cons_unit_zero (S := S2048x2048) hz2, readCov_cons_unit_zero (S := S2048x2048) _ hz2, View.ld_unit_zero (S := S2048x2048) hz2, View.readAt_eq_ld, harg2.read_unread, harg3.read_unread, harg4.read_unread]

theorem out1_C_eq (c : Dev nD) (i : grid1.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i) (x0 : Vec F S2048x2048 .f32) (xs0 : Vec F S2048x1 .f32) :
    out1_C c i arg2 harg2 arg3 harg3 arg4 harg4 hc0 hc1 x0 xs0 = k1_pay3 (k1_pay2 xs0 x0) := by
  unfold out1_C
  rw [View.read_writes_eq_canon _ _ _ (cover1_C c i arg2 harg2 arg3 harg3 arg4 harg4 hc0 hc1 x0 xs0)]
  unfold kernelRun1_C
  dsimp only
  try sl_unfold_words
  simp only [View.canon_cons_unit_zero (S := S2048x1) hz2, readCov_cons_unit_zero (S := S2048x1) _ hz2, View.ld_unit_zero (S := S2048x1) hz2, View.canon_cons_unit_zero (S := S2048x2048) hz2, readCov_cons_unit_zero (S := S2048x2048) _ hz2, View.ld_unit_zero (S := S2048x2048) hz2, View.readAt_eq_ld, harg2.read_unread, harg3.read_unread, harg4.read_unread]

theorem sout2_A_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : cond2_1 i) (hc2 : ¬cond2_2 i) (x0 : Vec F S1024x1024 .f32) (x1 : Vec F S1024x64 .f32) (x2 : Vec F S1024x1 .f32) :
    sout2_A c i arg2 harg2 arg3 harg3 arg4 harg4 arg5 harg5 arg6 harg6 hc0 hc1 hc2 x0 x1 x2 = k2_pay3 (k2_pay2 x0 x1 (k2_pay1 (F := F))) x1 := by
  unfold sout2_A
  rw [View.read_writes_eq_canon _ _ _ (scover2_A c i arg2 harg2 arg3 harg3 arg4 harg4 arg5 harg5 arg6 harg6 hc0 hc1 hc2 x0 x1 x2)]
  unfold kernelRun2_A
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem sout2_B_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond2_0 i) (hc1 : ¬cond2_1 i) (hc2 : ¬cond2_2 i) (x0 : Vec F S1024x1024 .f32) (x1 : Vec F S1024x64 .f32) (x2 : Vec F S1024x1 .f32) :
    sout2_B c i arg2 harg2 arg3 harg3 arg4 harg4 arg5 harg5 arg6 harg6 hc0 hc1 hc2 x0 x1 x2 = k2_pay2 x0 x1 (k2_pay1 (F := F)) := by
  unfold sout2_B
  rw [View.read_writes_eq_canon _ _ _ (scover2_B c i arg2 harg2 arg3 harg3 arg4 harg4 arg5 harg5 arg6 harg6 hc0 hc1 hc2 x0 x1 x2)]
  unfold kernelRun2_B
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem sout2_C_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : ¬cond2_2 i) (x0 : Vec F S1024x1024 .f32) (x1 : Vec F S1024x64 .f32) (x2 : Vec F S1024x1 .f32) (xs0 : Vec F S1024x64 .f32) :
    sout2_C c i arg2 harg2 arg3 harg3 arg4 harg4 arg5 harg5 arg6 harg6 hc0 hc1 hc2 x0 x1 x2 xs0 = k2_pay3 (k2_pay2 x0 x1 xs0) x1 := by
  unfold sout2_C
  rw [View.read_writes_eq_canon _ _ _ (scover2_C c i arg2 harg2 arg3 harg3 arg4 harg4 arg5 harg5 arg6 harg6 hc0 hc1 hc2 x0 x1 x2 xs0)]
  unfold kernelRun2_C
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem sout2_D_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : ¬cond2_2 i) (x0 : Vec F S1024x1024 .f32) (x1 : Vec F S1024x64 .f32) (x2 : Vec F S1024x1 .f32) (xs0 : Vec F S1024x64 .f32) :
    sout2_D c i arg2 harg2 arg3 harg3 arg4 harg4 arg5 harg5 arg6 harg6 hc0 hc1 hc2 x0 x1 x2 xs0 = k2_pay2 x0 x1 xs0 := by
  unfold sout2_D
  rw [View.read_writes_eq_canon _ _ _ (scover2_D c i arg2 harg2 arg3 harg3 arg4 harg4 arg5 harg5 arg6 harg6 hc0 hc1 hc2 x0 x1 x2 xs0)]
  unfold kernelRun2_D
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem sout2_E_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i) (x0 : Vec F S1024x1024 .f32) (x1 : Vec F S1024x64 .f32) (x2 : Vec F S1024x1 .f32) (xs0 : Vec F S1024x64 .f32) :
    sout2_E c i arg2 harg2 arg3 harg3 arg4 harg4 arg5 harg5 arg6 harg6 hc0 hc1 hc2 x0 x1 x2 xs0 = k2_pay3 (k2_pay2 x0 x1 xs0) x1 := by
  unfold sout2_E
  rw [View.read_writes_eq_canon _ _ _ (scover2_E c i arg2 harg2 arg3 harg3 arg4 harg4 arg5 harg5 arg6 harg6 hc0 hc1 hc2 x0 x1 x2 xs0)]
  unfold kernelRun2_E
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem out2_E_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : cond2_1 i) (hc2 : cond2_2 i) (x0 : Vec F S1024x1024 .f32) (x1 : Vec F S1024x64 .f32) (x2 : Vec F S1024x1 .f32) (xs0 : Vec F S1024x64 .f32) :
    out2_E c i arg2 harg2 arg3 harg3 arg4 harg4 arg5 harg5 arg6 harg6 hc0 hc1 hc2 x0 x1 x2 xs0 = k2_pay4 x2 (k2_pay3 (k2_pay2 x0 x1 xs0) x1) := by
  unfold out2_E
  rw [View.read_writes_eq_canon _ _ _ (cover2_E c i arg2 harg2 arg3 harg3 arg4 harg4 arg5 harg5 arg6 harg6 hc0 hc1 hc2 x0 x1 x2 xs0)]
  unfold kernelRun2_E
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem sout2_F_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i) (x0 : Vec F S1024x1024 .f32) (x1 : Vec F S1024x64 .f32) (x2 : Vec F S1024x1 .f32) (xs0 : Vec F S1024x64 .f32) :
    sout2_F c i arg2 harg2 arg3 harg3 arg4 harg4 arg5 harg5 arg6 harg6 hc0 hc1 hc2 x0 x1 x2 xs0 = k2_pay2 x0 x1 xs0 := by
  unfold sout2_F
  rw [View.read_writes_eq_canon _ _ _ (scover2_F c i arg2 harg2 arg3 harg3 arg4 harg4 arg5 harg5 arg6 harg6 hc0 hc1 hc2 x0 x1 x2 xs0)]
  unfold kernelRun2_F
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

theorem out2_F_eq (c : Dev nD) (i : grid2.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond2_0 i) (hc1 : ¬cond2_1 i) (hc2 : cond2_2 i) (x0 : Vec F S1024x1024 .f32) (x1 : Vec F S1024x64 .f32) (x2 : Vec F S1024x1 .f32) (xs0 : Vec F S1024x64 .f32) :
    out2_F c i arg2 harg2 arg3 harg3 arg4 harg4 arg5 harg5 arg6 harg6 hc0 hc1 hc2 x0 x1 x2 xs0 = k2_pay4 x2 (k2_pay2 x0 x1 xs0) := by
  unfold out2_F
  rw [View.read_writes_eq_canon _ _ _ (cover2_F c i arg2 harg2 arg3 harg3 arg4 harg4 arg5 harg5 arg6 harg6 hc0 hc1 hc2 x0 x1 x2 xs0)]
  unfold kernelRun2_F
  dsimp only
  try sl_unfold_words
  simp only [View.canon_cons_unit_zero (S := S1024x64) hz2, readCov_cons_unit_zero (S := S1024x64) _ hz2, View.ld_unit_zero (S := S1024x64) hz2, View.canon_cons_unit_zero (S := S1024x1024) hz2, readCov_cons_unit_zero (S := S1024x1024) _ hz2, View.ld_unit_zero (S := S1024x1024) hz2, View.canon_cons_unit_zero (S := S1024x1) hz2, readCov_cons_unit_zero (S := S1024x1) _ hz2, View.ld_unit_zero (S := S1024x1) hz2, View.readAt_eq_ld, harg2.read_unread, harg3.read_unread, harg4.read_unread, harg5.read_unread, harg6.read_unread]

end Cert.KernelIdeal.Hand

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.KernelIdeal.Rows.lean ====
/- The second call read as values: the accumulator after each column block is the sum of the row over the blocks so far; the result is, row by row, the inverse square root of the whole row sum plus one. -/
import proofs.«153148_j8143257993640_2_alg».proof.Proof.KernelIdeal.Pieces
import Idealize.ShloMosaic.Lib.Pipeline.Value
import Idealize.ShloMosaic.Lib.ValueIdx
import Idealize.ShloMosaic.Lib.ValueLayout
import Idealize.ShloMosaic.PureOps.Ideal.Laws
import proofs.«153148_j8143257993640_2_alg».proof.Proof.LibERealAlgebra

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! The row-sum body's arithmetic read at one element, over the extended reals. -/

/-- The accumulator's initial value is zero everywhere. -/
theorem pay1_1_apply (y : S2048x1.Idx) : k1_pay1 (F := Ideal) y = 0 := by
  unfold k1_pay1
  rw [shapeCast_self]
  exact Ideal.ofBits_zero_f32

/-- One step of the accumulation at row `p`: what was there plus the sum of the row of the block. -/
theorem pay1_2_apply (v3 : Vec Ideal S2048x1 .f32) (v4 : Vec Ideal S2048x2048 .f32) (p : Fin 2048) (u : Fin 1) :
    k1_pay2 v3 v4 (ix2 p u) = v3 (ix2 p u) + ∑ j : Fin 2048, v4 (ix2 p j) := by
  unfold k1_pay2
  rw [shapeCast_self]
  refine congrArg (v3 (ix2 p u) + ·) ?_
  refine (shapeCast_apply _ shapeCasts_S2048_S2048x1 (ix2 p u) (ix1 p) (by
    have hu : u.val = 0 := by omega
    rw [Shape.rowMajor_val_two, Shape.rowMajor_val_one]
    show p.val = p.val * 1 + u.val
    omega)).trans ?_
  refine (Ideal.multiReduction_add_single v4 0x00000000#32 reduces_S2048x2048_S2048 (.inl rfl) rfl (ix1 p)).trans ?_
  exact Finset.sum_congr rfl fun k _ => congrArg v4 (funext fun a => Fin.ext (by match a with | ⟨0, _⟩ => rfl | ⟨1, _⟩ => rfl))

/-- The last step: the inverse square root of the accumulated sum plus one. -/
theorem pay1_3_apply (v14 : Vec Ideal S2048x1 .f32) (y : S2048x1.Idx) : k1_pay3 v14 y = Ideal.rsqrt (v14 y + 1) := by
  unfold k1_pay3
  show Ideal.rsqrt (v14 y + Ideal.ofBits .f32 0x3F800000#32) = _
  rw [Cert.LibEReal.ofBits_one]

section
variable (V : (c : Dev nD) → (b : Ref sig .tc) → Buf (Elt Ideal) ((c : Thread nD τ).loc b))

/-! ## The adjacency matrix by natural-number coordinates, and its blocks -/

/-- An entry of a square array by natural-number coordinates (zero outside the array: never consulted there). -/
def atN (G : S16384x16384.Idx → EReal) (a b : ℕ) : EReal :=
  if h : a < 16384 ∧ b < 16384 then G (ix2 ⟨a, h.1⟩ ⟨b, h.2⟩) else 0

/-- Eight column blocks of 2048 entries make up a row of 16384. -/
theorem tile_sum8 (G : S16384x16384.Idx → EReal) (a : Fin 16384) :
    (∑ kk ∈ Finset.range 8, ∑ j : Fin 2048, atN G a.val (2048 * kk + j.val)) = ∑ q : Fin 16384, G (ix2 a q) := by
  rw [Finset.sum_range (fun kk => ∑ j : Fin 2048, atN G a.val (2048 * kk + j.val))]
  rw [← Fintype.sum_prod_type' (f := fun (kk : Fin 8) (j : Fin 2048) => atN G a.val (2048 * kk.val + j.val))]
  refine Fintype.sum_equiv (finProdFinEquiv (m := 8) (n := 2048)) _ _ (fun x => ?_)
  have h1 := x.1.isLt
  have h2 := x.2.isLt
  unfold atN
  rw [dif_pos ⟨a.isLt, by omega⟩]
  refine congrArg G (funext fun d => Fin.ext ?_)
  match d with
  | ⟨0, _⟩ => rfl
  | ⟨1, _⟩ => show 2048 * x.1.val + x.2.val = x.2.val + 2048 * x.1.val; omega

/-- The grid runs over the row blocks, and inside a row block over the column blocks; the output's block follows the row block. -/
theorem idx_facts1 : ∀ t : Fin cfg1.N, win1_0.index t (0 : Fin 2) = t.val / 8 ∧ win1_0.index t (1 : Fin 2) = t.val % 8
    ∧ win1_1.index t (0 : Fin 2) = t.val / 8 ∧ win1_1.index t (1 : Fin 2) = 0 :=
  (by decide +kernel : ∀ t : Fin grid1.N, _)

/-- The input block at point `t` is rows `2048 (t / 8) …` and columns `2048 (t % 8) …` of the matrix. -/
theorem iblk1_apply (c : Dev nD) (t : Fin cfg1.N) (p j : Fin 2048) :
    (iblk1 V c 0 t : Vec Ideal S2048x2048 .f32) (ix2 p j)
      = atN (V c main_arg0) (2048 * (t.val / 8) + p.val) (2048 * (t.val % 8) + j.val) := by
  have hN : t.val < 64 := lt_of_lt_of_eq t.isLt N_1
  obtain ⟨e0, e1, -, -⟩ := idx_facts1 t
  unfold atN
  rw [dif_pos ⟨by omega, by omega⟩]
  unfold iblk1
  rw [View.read_apply]
  show V c main_arg0 _ = V c main_arg0 _
  refine congrArg (V c main_arg0) (funext fun a => Fin.ext ?_)
  match a with
  | ⟨0, _⟩ => show win1_0.index t (0 : Fin 2) * 2048 + 1 * p.val = 2048 * (t.val / 8) + p.val; rw [e0]; omega
  | ⟨1, _⟩ => show win1_0.index t (1 : Fin 2) * 2048 + 1 * j.val = 2048 * (t.val % 8) + j.val; rw [e1]; omega

/-! ## The accumulation -/

/-- After column block `n % 8` of row block `n / 8` the accumulator holds, row by row, the sum of the row's entries in the
    column blocks so far. -/
theorem acc1_apply (c : Dev nD) : ∀ (n : ℕ) (hn : n < cfg1.N) (p : Fin 2048) (u : Fin 1),
    (outsAt1 V c n hn).2 (ix2 p u)
      = ∑ kk ∈ Finset.range (n % 8 + 1), ∑ j : Fin 2048, atN (V c main_arg0) (2048 * (n / 8) + p.val) (2048 * kk + j.val) := by
  intro n
  induction n using Nat.strong_induction_on with
  | _ n ih =>
    intro hn p u
    have hN : n < 64 := lt_of_lt_of_eq hn N_1
    by_cases h0 : n % 8 = 0
    · have h1 : ¬ n % 8 = 7 := by omega
      rw [show outsAt1 V c n hn = _ from outsAt1_A V c ⟨n, hn⟩ h0 h1]
      dsimp only
      rw [sout1_A_eq, pay1_2_apply, pay1_1_apply, zero_add, h0, Finset.sum_range_one]
      refine Finset.sum_congr rfl fun j _ => ?_
      rw [iblk1_apply]
      show atN _ (2048 * (n / 8) + p.val) (2048 * (n % 8) + j.val) = _
      rw [h0]
    · have step : ∀ xs : Vec Ideal S2048x1 .f32, xs = (outsAt1 V c (n - 1) (by omega)).2 →
          k1_pay2 xs (iblk1 V c 0 ⟨n, hn⟩ : Vec Ideal S2048x2048 .f32) (ix2 p u)
            = ∑ kk ∈ Finset.range (n % 8 + 1), ∑ j : Fin 2048, atN (V c main_arg0) (2048 * (n / 8) + p.val) (2048 * kk + j.val) := by
        intro xs hxs
        have e1 : (n - 1) % 8 + 1 = n % 8 := by omega
        have e2 : (n - 1) / 8 = n / 8 := by omega
        rw [pay1_2_apply, hxs, ih (n - 1) (by omega) (by omega) p u, e1, e2, Finset.sum_range_succ]
        refine congrArg (_ + ·) (Finset.sum_congr rfl fun j _ => ?_)
        rw [iblk1_apply]
      by_cases h1 : n % 8 = 7
      · rw [show outsAt1 V c n hn = _ from outsAt1_C V c ⟨n, hn⟩ h0 h1]
        dsimp only
        rw [sout1_C_eq]
        exact step _ rfl
      · rw [show outsAt1 V c n hn = _ from outsAt1_B V c ⟨n, hn⟩ h0 h1]
        dsimp only
        rw [sout1_B_eq]
        exact step _ rfl

/-- At the last column block the output block is, row by row, the inverse square root of the whole row's sum plus one. -/
theorem out1_apply (c : Dev nD) (t : Fin cfg1.N) (h7 : t.val % 8 = 7) (p : Fin 2048) (u : Fin 1) :
    (outsAt1 V c t.val t.isLt).1 (ix2 p u)
      = Ideal.rsqrt ((∑ kk ∈ Finset.range 8, ∑ j : Fin 2048, atN (V c main_arg0) (2048 * (t.val / 8) + p.val) (2048 * kk + j.val)) + 1) := by
  have h0 : ¬ t.val % 8 = 0 := by omega
  have a := acc1_apply V c t.val t.isLt p u
  rw [outsAt1_C V c t h0 h7] at a ⊢
  dsimp only at a ⊢
  rw [sout1_C_eq] at a
  rw [out1_C_eq, pay1_3_apply, a, h7]

/-! ## From the blocks to the array -/

/-- The second call's result: for every row the inverse square root of the row's sum plus one. -/
def dK (G : S16384x16384.Idx → EReal) : S16384x1.Idx → EReal :=
  fun i => Ideal.rsqrt ((∑ q : Fin 16384, G (ix2 (i 0) q)) + 1)

theorem mem_blk1 (t : Fin cfg1.N) (i : S16384x1.Idx) :
    i ∈ ((cfg1.win 1).blk t).view.set ↔ ∀ a : Fin 2, win1_1.index t a * S2048x1.size a ≤ (i a).val ∧ (i a).val < win1_1.index t a * S2048x1.size a + S2048x1.size a := by
  show i ∈ ((View.whole main_v1).slice (win1_1.rect t)).set ↔ _
  rw [View.set_slice_whole, Rect.mem_set_unit]
  exact Iff.rfl

/-- What a point that writes back writes is its block of `dK`. -/
theorem flushed1_eq (c : Dev nD) (t : Fin cfg1.N) (hf : (cfg1.win 1).flush t = true) :
    (dat1 V c).flushed 1 t = ((cfg1.win 1).blk t).view.read (Elt Ideal) (dK (V c main_arg0)) := by
  have h7 : t.val % 8 = 7 := (flush1_1 t).mp hf
  have hN : t.val < 64 := lt_of_lt_of_eq t.isLt N_1
  obtain ⟨-, -, e2, e3⟩ := idx_facts1 t
  show (cfg1.win 1).cut (grid1.coords t) ((dat1 V c).after 1 t) = _
  rw [after1_1]
  funext y
  have hy0 : (y 0).val < 2048 := (y 0).isLt
  have hy1 : (y 1).val < 1 := (y 1).isLt
  rw [View.read_apply]
  refine Eq.trans (congrArg (outsAt1 V c t.val t.isLt).1 (?_ : _ = ix2 (⟨(y 0).val, hy0⟩ : Fin 2048) (⟨(y 1).val, hy1⟩ : Fin 1))) ?_
  · funext a; match a with | ⟨0, _⟩ => rfl | ⟨1, _⟩ => rfl
  rw [out1_apply V c t h7]
  unfold dK
  have hr : ((((cfg1.win 1).blk t).view.emb y) 0).val = 2048 * (t.val / 8) + (y 0).val := by
    show win1_1.index t (0 : Fin 2) * 2048 + 1 * (y 0).val = _
    rw [e2]; omega
  simp only [cast_eq]
  refine congrArg (fun z => Ideal.rsqrt (z + 1)) ?_
  refine (tile_sum8 (V c main_arg0) ⟨2048 * (t.val / 8) + (y 0).val, by omega⟩).trans ?_
  exact Finset.sum_congr rfl fun q _ => congrArg (V c main_arg0) (funext fun a => Fin.ext (by
    match a with
    | ⟨0, _⟩ => exact hr.symm
    | ⟨1, _⟩ => rfl))

/-- Every row is in the block of the last point of its row block. -/
theorem cover1 (i : S16384x1.Idx) : ∃ t : Fin cfg1.N, (cfg1.win 1).flush t = true ∧ i ∈ ((cfg1.win 1).blk t).view.set := by
  have hi0 : (i 0).val < 16384 := (i 0).isLt
  have hi1 : (i 1).val < 1 := (i 1).isLt
  have hlt : 8 * ((i 0).val / 2048) + 7 < cfg1.N := by rw [show cfg1.N = 64 from N_1]; omega
  refine ⟨⟨8 * ((i 0).val / 2048) + 7, hlt⟩, (flush1_1 _).mpr (by show (8 * ((i 0).val / 2048) + 7) % 8 = 7; omega), ?_⟩
  obtain ⟨-, -, e2, e3⟩ := idx_facts1 ⟨8 * ((i 0).val / 2048) + 7, hlt⟩
  rw [mem_blk1]
  intro a
  match a with
  | ⟨0, _⟩ =>
    show win1_1.index _ (0 : Fin 2) * 2048 ≤ (i 0).val ∧ (i 0).val < win1_1.index _ (0 : Fin 2) * 2048 + 2048
    rw [e2]; show (8 * ((i 0).val / 2048) + 7) / 8 * 2048 ≤ (i 0).val ∧ (i 0).val < (8 * ((i 0).val / 2048) + 7) / 8 * 2048 + 2048; omega
  | ⟨1, _⟩ =>
    show win1_1.index _ (1 : Fin 2) * 1 ≤ (i 1).val ∧ (i 1).val < win1_1.index _ (1 : Fin 2) * 1 + 1
    rw [e3]; omega

/-- THE SECOND CALL'S ARRAY after the run. -/
theorem final1 (c : Dev nD) : (dat1 V c).arrAt 1 cfg1.N = dK (V c main_arg0) :=
  (dat1 V c).arrAt_eq_of_cover 1 (dK (V c main_arg0)) (flushed1_eq V c) cover1

end

end Cert.KernelIdeal.Hand

end
-- ==== Proof.KernelIdeal.Prod.lean ====
/- The third call read as values: the accumulator after each column block is the sum of the products over the blocks so far plus, once the diagonal block is passed, the row's own scaled features; the result is the row's scale times the whole, through the rectifier. -/
import proofs.«153148_j8143257993640_2_alg».proof.Proof.KernelIdeal.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! The product body's arithmetic read at one element, over the extended reals. -/

theorem lhs_mm2_0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_mm2_1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_mm2_0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_mm2_1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A matrix product into a zero accumulator, at one element: the sum over the contracted coordinate. -/
theorem mm2_apply (lhs : FVec Ideal S1024x1024 .bf16) (rhs : FVec Ideal S1024x64 .bf16) (p : Fin 1024) (c : Fin 64) :
    matmul dot_S1024x1024_S1024x64_S1024x64_1_0_0_1_n_n none lhs rhs (constant S1024x64 .f32 0x00000000#32) (ix2 p c)
      = ∑ k : Fin 1024, lhs (ix2 p k) * rhs (ix2 k c) := by
  refine (Ideal.matmul_constant_zero_apply dot_S1024x1024_S1024x64_S1024x64_1_0_0_1_n_n none lhs rhs (ix2 p c)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p c) ((contrEquiv1 dot_S1024x1024_S1024x64_S1024x64_1_0_0_1_n_n 1024 rfl rfl).symm k) = ix2 p k := funext fun a => Fin.ext (by
    match a with
    | ⟨0, _⟩ => exact lhs_mm2_0 _ _
    | ⟨1, _⟩ => exact (lhs_mm2_1 _ _).trans hk)
  have er : dot_S1024x1024_S1024x64_S1024x64_1_0_0_1_n_n.rhsIdx (ix2 p c) ((contrEquiv1 dot_S1024x1024_S1024x64_S1024x64_1_0_0_1_n_n 1024 rfl rfl).symm k) = ix2 k c := funext fun a => Fin.ext (by
    match a with
    | ⟨0, _⟩ => exact (rhs_mm2_0 _ _).trans hk
    | ⟨1, _⟩ => exact rhs_mm2_1 _ _)
  rw [el, er]

/-- The accumulator's initial value is zero everywhere. -/
theorem pay2_1_apply (y : S1024x64.Idx) : k2_pay1 (F := Ideal) y = 0 := by
  unfold k2_pay1
  rw [shapeCast_self]
  exact Ideal.ofBits_zero_f32

/-- One step: what was there plus the product of the row of the block with the column of the scaled features. -/
theorem pay2_2_apply (v3 : Vec Ideal S1024x1024 .f32) (v5 v8 : Vec Ideal S1024x64 .f32) (p : Fin 1024) (c : Fin 64) :
    k2_pay2 v3 v5 v8 (ix2 p c) = v8 (ix2 p c) + ∑ k : Fin 1024, v3 (ix2 p k) * v5 (ix2 k c) := by
  unfold k2_pay2
  simp only [shapeCast_self]
  refine congrArg (v8 (ix2 p c) + ·) ?_
  exact mm2_apply _ _ p c

/-- The self-loop's step: the scaled features' block added. -/
theorem pay2_3_apply (v20 v21 : Vec Ideal S1024x64 .f32) (y : S1024x64.Idx) : k2_pay3 v20 v21 y = v20 y + v21 y := by
  unfold k2_pay3
  simp only [shapeCast_self]
  rfl

/-- The leaky rectifier on one extended real. -/
def leakyK (v : EReal) : EReal :=
  Scalar.select (FloatOps.cmpf (F := Ideal) .oge v (Ideal.ofBits .f32 0x00000000#32)) v (Ideal.ofBits .f32 0x3C23D70A#32 * v)

/-- A column broadcast over the lanes reads the column's entry of the row. -/
theorem bcol_apply (v : FVec Ideal S1024x1 .f32) (p : Fin 1024) (c : Fin 64) :
    broadcastTo S1024x64 v broadcasts_S1024x1_S1024x64 (ix2 p c) = v (ix2 p (0 : Fin 1)) := by
  refine broadcastTo_apply v broadcasts_S1024x1_S1024x64 (ix2 p c) (ix2 p (0 : Fin 1)) fun ax => ?_
  match ax with
  | ⟨0, _⟩ => rfl
  | ⟨1, _⟩ => rfl

/-- The last step: the row's scale times the accumulated value, through the rectifier. -/
theorem pay2_4_apply (v20 : Vec Ideal S1024x1 .f32) (v22 : Vec Ideal S1024x64 .f32) (p : Fin 1024) (c : Fin 64) :
    k2_pay4 v20 v22 (ix2 p c) = leakyK (v20 (ix2 p (0 : Fin 1)) * v22 (ix2 p c)) := by
  unfold k2_pay4
  simp only [shapeCast_self]
  show Scalar.select (FloatOps.cmpf (F := Ideal) .oge (broadcastTo S1024x64 v20 broadcasts_S1024x1_S1024x64 (ix2 p c) * v22 (ix2 p c)) (Ideal.ofBits .f32 0x00000000#32))
      (broadcastTo S1024x64 v20 broadcasts_S1024x1_S1024x64 (ix2 p c) * v22 (ix2 p c))
      (Ideal.ofBits .f32 0x3C23D70A#32 * (broadcastTo S1024x64 v20 broadcasts_S1024x1_S1024x64 (ix2 p c) * v22 (ix2 p c))) = _
  rw [bcol_apply]
  rfl

section
variable (V : (c : Dev nD) → (b : Ref sig .tc) → Buf (Elt Ideal) ((c : Thread nD τ).loc b))

/-! ## The feature and scale arrays by a natural-number row, and the blocks -/

/-- An entry of a 16384-row, 64-column array by a natural-number row (zero outside: never consulted there). -/
def atNc (H : S16384x64.Idx → EReal) (a : ℕ) (c : Fin 64) : EReal :=
  if h : a < 16384 then H (ix2 ⟨a, h⟩ c) else 0

/-- An entry of a 16384-row column by a natural-number row. -/
def atN1 (D : S16384x1.Idx → EReal) (a : ℕ) : EReal :=
  if h : a < 16384 then D (ix2 ⟨a, h⟩ (0 : Fin 1)) else 0

/-- Sixteen blocks of 1024 make up the contraction over 16384. -/
theorem tile_sum16 (G : S16384x16384.Idx → EReal) (H : S16384x64.Idx → EReal) (a : Fin 16384) (c : Fin 64) :
    (∑ kk ∈ Finset.range 16, ∑ j : Fin 1024, atN G a.val (1024 * kk + j.val) * atNc H (1024 * kk + j.val) c)
      = ∑ q : Fin 16384, G (ix2 a q) * H (ix2 q c) := by
  rw [Finset.sum_range (fun kk => ∑ j : Fin 1024, atN G a.val (1024 * kk + j.val) * atNc H (1024 * kk + j.val) c)]
  rw [← Fintype.sum_prod_type' (f := fun (kk : Fin 16) (j : Fin 1024) => atN G a.val (1024 * kk.val + j.val) * atNc H (1024 * kk.val + j.val) c)]
  refine Fintype.sum_equiv (finProdFinEquiv (m := 16) (n := 1024)) _ _ (fun x => ?_)
  have h1 := x.1.isLt
  have h2 := x.2.isLt
  unfold atN atNc
  rw [dif_pos ⟨a.isLt, by omega⟩, dif_pos (by omega)]
  have eq : (⟨1024 * x.1.val + x.2.val, by omega⟩ : Fin 16384) = finProdFinEquiv (m := 16) (n := 1024) x :=
    Fin.ext (by show 1024 * x.1.val + x.2.val = x.2.val + 1024 * x.1.val; omega)
  rw [eq]

theorem idx_facts2 : ∀ t : Fin cfg2.N, win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0
    ∧ win2_3.index t (0 : Fin 2) = t.val / 16 ∧ win2_3.index t (1 : Fin 2) = 0 :=
  (by decide +kernel : ∀ t : Fin grid2.N, _)

/-- The matrix block at point `t`: rows `1024 (t / 16) …`, columns `1024 (t % 16) …`. -/
theorem iblk2_0_apply (c : Dev nD) (t : Fin cfg2.N) (p k : Fin 1024) :
    (iblk2 V c 0 t : Vec Ideal S1024x1024 .f32) (ix2 p k)
      = atN (V c main_arg0) (1024 * (t.val / 16) + p.val) (1024 * (t.val % 16) + k.val) := by
  have hN : t.val < 256 := lt_of_lt_of_eq t.isLt N_2
  obtain ⟨e0, e1, -⟩ := idx_facts2 t
  unfold atN
  rw [dif_pos ⟨by omega, by omega⟩]
  unfold iblk2
  rw [View.read_apply]
  show V c main_arg0 _ = V c main_arg0 _
  refine congrArg (V c main_arg0) (funext fun a => Fin.ext ?_)
  match a with
  | ⟨0, _⟩ => show win2_0.index t (0 : Fin 2) * 1024 + 1 * p.val = 1024 * (t.val / 16) + p.val; rw [e0]; omega
  | ⟨1, _⟩ => show win2_0.index t (1 : Fin 2) * 1024 + 1 * k.val = 1024 * (t.val % 16) + k.val; rw [e1]; omega

/-- The scaled features' block at point `t`: rows `1024 (t % 16) …`. -/
theorem iblk2_1_apply (c : Dev nD) (t : Fin cfg2.N) (k : Fin 1024) (cc : Fin 64) :
    (iblk2 V c 1 t : Vec Ideal S1024x64 .f32) (ix2 k cc) = atNc (V c main_v3) (1024 * (t.val % 16) + k.val) cc := by
  have hN : t.val < 256 := lt_of_lt_of_eq t.isLt N_2
  obtain ⟨-, -, e2, e3, -⟩ := idx_facts2 t
  unfold atNc
  rw [dif_pos (by omega)]
  unfold iblk2
  rw [View.read_apply]
  show V c main_v3 _ = V c main_v3 _
  refine congrArg (V c main_v3) (funext fun a => Fin.ext ?_)
  match a with
  | ⟨0, _⟩ => show win2_1.index t (0 : Fin 2) * 1024 + 1 * k.val = 1024 * (t.val % 16) + k.val; rw [e2]; omega
  | ⟨1, _⟩ => show win2_1.index t (1 : Fin 2) * 64 + 1 * cc.val = cc.val; rw [e3]; omega

/-- The scales' block at point `t`: rows `1024 (t / 16) …`. -/
theorem iblk2_2_apply (c : Dev nD) (t : Fin cfg2.N) (p : Fin 1024) (u : Fin 1) :
    (iblk2 V c 2 t : Vec Ideal S1024x1 .f32) (ix2 p u) = atN1 (V c main_v1) (1024 * (t.val / 16) + p.val) := by
  have hN : t.val < 256 := lt_of_lt_of_eq t.isLt N_2
  have hu : u.val = 0 := by omega
  obtain ⟨-, -, -, -, e4, e5, -⟩ := idx_facts2 t
  unfold atN1
  rw [dif_pos (by omega)]
  unfold iblk2
  rw [View.read_apply]
  show V c main_v1 _ = V c main_v1 _
  refine congrArg (V c main_v1) (funext fun a => Fin.ext ?_)
  match a with
  | ⟨0, _⟩ => show win2_2.index t (0 : Fin 2) * 1024 + 1 * p.val = 1024 * (t.val / 16) + p.val; rw [e4]; omega
  | ⟨1, _⟩ => show win2_2.index t (1 : Fin 2) * 1 + 1 * u.val = 0; rw [e5]; omega

/-! ## The accumulation -/

/-- The accumulator of row block `i` after column block `k`, at row `p` and column `c`: the products over the column blocks so far,
    and the self-loop's term once the diagonal block is passed. -/
def acc2F (G : S16384x16384.Idx → EReal) (H : S16384x64.Idx → EReal) (i k : ℕ) (p : Fin 1024) (c : Fin 64) : EReal :=
  (∑ kk ∈ Finset.range (k + 1), ∑ j : Fin 1024, atN G (1024 * i + p.val) (1024 * kk + j.val) * atNc H (1024 * kk + j.val) c)
    + (if i ≤ k then atNc H (1024 * i + p.val) c else 0)

/-- One block's product at point `n`. -/
theorem tile2 (c : Dev nD) (n : ℕ) (hn : n < cfg2.N) (p : Fin 1024) (cc : Fin 64) :
    ∀ (x0 : Vec Ideal S1024x1024 .f32) (x1 : Vec Ideal S1024x64 .f32), x0 = iblk2 V c 0 ⟨n, hn⟩ → x1 = iblk2 V c 1 ⟨n, hn⟩ →
    (∑ k : Fin 1024, x0 (ix2 p k) * x1 (ix2 k cc))
      = ∑ j : Fin 1024, atN (V c main_arg0) (1024 * (n / 16) + p.val) (1024 * (n % 16) + j.val) * atNc (V c main_v3) (1024 * (n % 16) + j.val) cc := by
  intro x0 x1 h0 h1
  subst h0; subst h1
  exact Finset.sum_congr rfl fun j _ => by rw [iblk2_0_apply, iblk2_1_apply]

theorem acc2_apply (c : Dev nD) : ∀ (n : ℕ) (hn : n < cfg2.N) (p : Fin 1024) (cc : Fin 64),
    (outsAt2 V c n hn).2 (ix2 p cc) = acc2F (V c main_arg0) (V c main_v3) (n / 16) (n % 16) p cc := by
  intro n
  induction n using Nat.strong_induction_on with
  | _ n ih =>
    intro hn p cc
    have hN : n < 256 := lt_of_lt_of_eq hn N_2
    have hb : (iblk2 V c 1 ⟨n, hn⟩ : Vec Ideal S1024x64 .f32) (ix2 p cc) = atNc (V c main_v3) (1024 * (n % 16) + p.val) cc := iblk2_1_apply V c ⟨n, hn⟩ p cc
    unfold acc2F
    by_cases h0 : n % 16 = 0
    · by_cases h1 : n / 16 = n % 16
      · have h2 : ¬ n % 16 = 15 := by omega
        rw [show outsAt2 V c n hn = _ from outsAt2_A V c ⟨n, hn⟩ h0 h1 h2]
        dsimp only
        rw [sout2_A_eq, pay2_3_apply, pay2_2_apply, pay2_1_apply, zero_add, tile2 V c n hn p cc _ _ rfl rfl, hb, h1, h0, Finset.sum_range_one, if_pos (le_refl _)]
      · have h2 : ¬ n % 16 = 15 := by omega
        rw [show outsAt2 V c n hn = _ from outsAt2_B V c ⟨n, hn⟩ h0 h1 h2]
        dsimp only
        rw [sout2_B_eq, pay2_2_apply, pay2_1_apply, zero_add, tile2 V c n hn p cc _ _ rfl rfl, h0, Finset.sum_range_one, if_neg (by omega), add_zero]
    · have e1 : (n - 1) % 16 + 1 = n % 16 := by omega
      have e2 : (n - 1) / 16 = n / 16 := by omega
      have prev := ih (n - 1) (by omega) (by omega) p cc
      unfold acc2F at prev
      rw [e2] at prev
      have hsucc : (∑ kk ∈ Finset.range (n % 16 + 1), ∑ j : Fin 1024, atN (V c main_arg0) (1024 * (n / 16) + p.val) (1024 * kk + j.val) * atNc (V c main_v3) (1024 * kk + j.val) cc)
          = (∑ kk ∈ Finset.range ((n - 1) % 16 + 1), ∑ j : Fin 1024, atN (V c main_arg0) (1024 * (n / 16) + p.val) (1024 * kk + j.val) * atNc (V c main_v3) (1024 * kk + j.val) cc)
            + ∑ j : Fin 1024, atN (V c main_arg0) (1024 * (n / 16) + p.val) (1024 * (n % 16) + j.val) * atNc (V c main_v3) (1024 * (n % 16) + j.val) cc := by
        rw [e1, Finset.sum_range_succ]
      by_cases h1 : n / 16 = n % 16
      · -- the diagonal block: the product, then the self-loop's term
        have hd : ∀ xs : Vec Ideal S1024x64 .f32, xs = (outsAt2 V c (n - 1) (by omega)).2 →
            k2_pay3 (k2_pay2 (iblk2 V c 0 ⟨n, hn⟩ : Vec Ideal S1024x1024 .f32) (iblk2 V c 1 ⟨n, hn⟩ : Vec Ideal S1024x64 .f32) xs) (iblk2 V c 1 ⟨n, hn⟩ : Vec Ideal S1024x64 .f32) (ix2 p cc)
              = (∑ kk ∈ Finset.range (n % 16 + 1), ∑ j : Fin 1024, atN (V c main_arg0) (1024 * (n / 16) + p.val) (1024 * kk + j.val) * atNc (V c main_v3) (1024 * kk + j.val) cc)
                + (if n / 16 ≤ n % 16 then atNc (V c main_v3) (1024 * (n / 16) + p.val) cc else 0) := by
          intro xs hxs
          rw [pay2_3_apply, pay2_2_apply, tile2 V c n hn p cc _ _ rfl rfl, hb, hxs, prev, hsucc, if_neg (by omega), add_zero, if_pos (le_of_eq h1), h1]
        by_cases h2 : n % 16 = 15
        · rw [show outsAt2 V c n hn = _ from outsAt2_E V c ⟨n, hn⟩ h0 h1 h2]
          dsimp only
          rw [sout2_E_eq]
          exact hd _ rfl
        · rw [show outsAt2 V c n hn = _ from outsAt2_C V c ⟨n, hn⟩ h0 h1 h2]
          dsimp only
          rw [sout2_C_eq]
          exact hd _ rfl
      · -- an off-diagonal block: the product only
        have ho : ∀ xs : Vec Ideal S1024x64 .f32, xs = (outsAt2 V c (n - 1) (by omega)).2 →
            k2_pay2 (iblk2 V c 0 ⟨n, hn⟩ : Vec Ideal S1024x1024 .f32) (iblk2 V c 1 ⟨n, hn⟩ : Vec Ideal S1024x64 .f32) xs (ix2 p cc)
              = (∑ kk ∈ Finset.range (n % 16 + 1), ∑ j : Fin 1024, atN (V c main_arg0) (1024 * (n / 16) + p.val) (1024 * kk + j.val) * atNc (V c main_v3) (1024 * kk + j.val) cc)
                + (if n / 16 ≤ n % 16 then atNc (V c main_v3) (1024 * (n / 16) + p.val) cc else 0) := by
          intro xs hxs
          rw [pay2_2_apply, tile2 V c n hn p cc _ _ rfl rfl, hxs, prev, hsucc]
          by_cases hle : n / 16 ≤ (n - 1) % 16
          · rw [if_pos hle, if_pos (by omega), add_right_comm]
          · rw [if_neg hle, if_neg (by omega), add_zero, add_zero]
        by_cases h2 : n % 16 = 15
        · rw [show outsAt2 V c n hn = _ from outsAt2_F V c ⟨n, hn⟩ h0 h1 h2]
          dsimp only
          rw [sout2_F_eq]
          exact ho _ rfl
        · rw [show outsAt2 V c n hn = _ from outsAt2_D V c ⟨n, hn⟩ h0 h1 h2]
          dsimp only
          rw [sout2_D_eq]
          exact ho _ rfl

/-- At the last column block the output block is the row's scale times the whole accumulated value, through the rectifier. -/
theorem out2_apply (c : Dev nD) (t : Fin cfg2.N) (h15 : t.val % 16 = 15) (p : Fin 1024) (cc : Fin 64) :
    (outsAt2 V c t.val t.isLt).1 (ix2 p cc)
      = leakyK (atN1 (V c main_v1) (1024 * (t.val / 16) + p.val) * acc2F (V c main_arg0) (V c main_v3) (t.val / 16) 15 p cc) := by
  have h0 : ¬ t.val % 16 = 0 := by omega
  have a := acc2_apply V c t.val t.isLt p cc
  rw [h15] at a
  by_cases h1 : t.val / 16 = t.val % 16
  · rw [outsAt2_E V c t h0 h1 h15] at a ⊢
    dsimp only at a ⊢
    rw [sout2_E_eq] at a
    rw [out2_E_eq, pay2_4_apply, a, iblk2_2_apply]
  · rw [outsAt2_F V c t h0 h1 h15] at a ⊢
    dsimp only at a ⊢
    rw [sout2_F_eq] at a
    rw [out2_F_eq, pay2_4_apply, a, iblk2_2_apply]

/-! ## From the blocks to the array -/

/-- The third call's result: the row's scale times (the row of the matrix against the scaled features, plus the row's own scaled
    features), through the rectifier. -/
def outK (G : S16384x16384.Idx → EReal) (H : S16384x64.Idx → EReal) (D : S16384x1.Idx → EReal) : S16384x64.Idx → EReal :=
  fun i => leakyK (D (ix2 (i 0) (0 : Fin 1)) * ((∑ q : Fin 16384, G (ix2 (i 0) q) * H (ix2 q (i 1))) + H (ix2 (i 0) (i 1))))

theorem mem_blk2 (t : Fin cfg2.N) (i : S16384x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_v4).slice (win2_3.rect t)).set ↔ _
  rw [View.set_slice_whole, Rect.mem_set_unit]
  exact Iff.rfl

theorem flushed2_eq (c : Dev nD) (t : Fin cfg2.N) (hf : (cfg2.win 3).flush t = true) :
    (dat2 V c).flushed 3 t = ((cfg2.win 3).blk t).view.read (Elt Ideal) (outK (V c main_arg0) (V c main_v3) (V c main_v1)) := by
  have h15 : t.val % 16 = 15 := (flush2_3 t).mp hf
  have hN : t.val < 256 := lt_of_lt_of_eq t.isLt N_2
  obtain ⟨-, -, -, -, -, -, e6, e7⟩ := idx_facts2 t
  show (cfg2.win 3).cut (grid2.coords t) ((dat2 V c).after 3 t) = _
  rw [after2_3]
  funext y
  have hy0 : (y 0).val < 1024 := (y 0).isLt
  have hy1 : (y 1).val < 64 := (y 1).isLt
  rw [View.read_apply]
  refine Eq.trans (congrArg (outsAt2 V c t.val t.isLt).1 (?_ : _ = ix2 (⟨(y 0).val, hy0⟩ : Fin 1024) (⟨(y 1).val, hy1⟩ : Fin 64))) ?_
  · funext a; match a with | ⟨0, _⟩ => rfl | ⟨1, _⟩ => rfl
  rw [out2_apply V c t h15]
  unfold outK acc2F
  have hr : ((((cfg2.win 3).blk t).view.emb y) 0).val = 1024 * (t.val / 16) + (y 0).val := by
    show win2_3.index t (0 : Fin 2) * 1024 + 1 * (y 0).val = _
    rw [e6]; omega
  have hc : ((((cfg2.win 3).blk t).view.emb y) 1).val = (y 1).val := by
    show win2_3.index t (1 : Fin 2) * 64 + 1 * (y 1).val = _
    rw [e7]; omega
  simp only [cast_eq]
  have hlt : 1024 * (t.val / 16) + (y 0).val < 16384 := by omega
  have er : (((cfg2.win 3).blk t).view.emb y) = (ix2 (⟨1024 * (t.val / 16) + (y 0).val, hlt⟩ : Fin 16384) (⟨(y 1).val, hy1⟩ : Fin 64) : S16384x64.Idx) :=
    funext fun a => Fin.ext (by
      match a with
      | ⟨0, _⟩ => exact hr
      | ⟨1, _⟩ => exact hc)
  rw [er]
  rw [if_pos (by omega), tile_sum16 (V c main_arg0) (V c main_v3) ⟨1024 * (t.val / 16) + (y 0).val, hlt⟩ ⟨(y 1).val, hy1⟩]
  unfold atN1 atNc
  rw [dif_pos hlt, dif_pos hlt]

theorem cover2 (i : S16384x64.Idx) : ∃ t : Fin cfg2.N, (cfg2.win 3).flush t = true ∧ i ∈ ((cfg2.win 3).blk t).view.set := by
  have hi0 : (i 0).val < 16384 := (i 0).isLt
  have hi1 : (i 1).val < 64 := (i 1).isLt
  have hlt : 16 * ((i 0).val / 1024) + 15 < cfg2.N := by rw [show cfg2.N = 256 from N_2]; omega
  refine ⟨⟨16 * ((i 0).val / 1024) + 15, hlt⟩, (flush2_3 _).mpr (by show (16 * ((i 0).val / 1024) + 15) % 16 = 15; omega), ?_⟩
  obtain ⟨-, -, -, -, -, -, e6, e7⟩ := idx_facts2 ⟨16 * ((i 0).val / 1024) + 15, hlt⟩
  rw [mem_blk2]
  intro a
  match a with
  | ⟨0, _⟩ =>
    show win2_3.index _ (0 : Fin 2) * 1024 ≤ (i 0).val ∧ (i 0).val < win2_3.index _ (0 : Fin 2) * 1024 + 1024
    rw [e6]; show (16 * ((i 0).val / 1024) + 15) / 16 * 1024 ≤ (i 0).val ∧ (i 0).val < (16 * ((i 0).val / 1024) + 15) / 16 * 1024 + 1024; omega
  | ⟨1, _⟩ =>
    show win2_3.index _ (1 : Fin 2) * 64 ≤ (i 1).val ∧ (i 1).val < win2_3.index _ (1 : Fin 2) * 64 + 64
    rw [e7]; omega

/-- THE THIRD CALL'S ARRAY after the run. -/
theorem final2 (c : Dev nD) : (dat2 V c).arrAt 3 cfg2.N = outK (V c main_arg0) (V c main_v3) (V c main_v1) :=
  (dat2 V c).arrAt_eq_of_cover 3 (outK (V c main_arg0) (V c main_v3) (V c main_v1)) (flushed2_eq V c) cover2

end

end Cert.KernelIdeal.Hand

end
-- ==== Proof.RefForm.lean ====
import proofs.«153148_j8143257993640_2_alg».proof.Proof.Gen.ReferenceIdeal.Read
import Idealize.ShloMosaic.Lib.ValueIdx
import Idealize.ShloMosaic.Lib.Pipeline.Value
import Idealize.ShloMosaic.PureOps.Ideal.Laws

/-!
# The reference's result at an index, as an explicit formula

The reference computes a batch-normalised linear layer `hp`, the adjacency with self-loops `ga` (a scatter-add of
ones at the diagonal index pairs), its symmetric normalisation by the inverse square roots of the row sums, the product
with `hp`, and a leaky rectifier. This module reads that result at one index `(r, c)` at the ideal instance.
-/

noncomputable section

open scoped BigOperators

namespace Cert.RefForm

open Cert.ReferenceIdeal Cert.ReferenceIdeal.Gen Idealize.ShloMosaic Idealize.ShloMosaic.ValueIdx

/-! ## The scatter-add of ones at the index pairs (j, j) adds the identity matrix -/

/-- The scatter's dimension numbers: both operand axes are inserted window axes, the two components of an index
    vector name operand axes 0 and 1, and the index vector lies along axis 1 of the index array. -/
abbrev scD : ScatterDims S16384x16384 S16384x2 S16384 := scatter_S16384x16384_S16384x2_S16384_n_01_01_1

/-- Update `r` reads component `c` of its start index at entry `(r, c)` of the index array. -/
theorem siIdx_eq (r : Fin 16384) (c : Fin 2) (hc : c.val < scD.scatterDimsToOperandDims.length) :
    scD.siIdx (ix1 r) ⟨c.val, hc⟩ = ix2 r c := by
  funext b
  apply Fin.ext
  match b with
  | ⟨0, _⟩ => rfl
  | ⟨1, _⟩ => rfl

/-- The window of update `r` starts, on operand axis `a`, at entry `(r, a)` of the index array read signed. -/
theorem start_eq (r : Fin 16384) (idx : IVec S16384x2 32) (a : Fin 2) :
    scD.start (ix1 r) idx a = (idx (ix2 r a)).toInt := by
  have e0 : scD.start (ix1 r) idx (0 : Fin 2) = (idx (ix2 r 0)).toInt := by
    unfold ScatterDims.start
    rw [dif_pos (by decide)]
    exact congrArg (fun i => (idx i).toInt) (siIdx_eq r 0 (by decide))
  have e1 : scD.start (ix1 r) idx (1 : Fin 2) = (idx (ix2 r 1)).toInt := by
    unfold ScatterDims.start
    rw [dif_pos (by decide)]
    exact congrArg (fun i => (idx i).toInt) (siIdx_eq r 1 (by decide))
  match a with
  | ⟨0, _⟩ => exact e0
  | ⟨1, _⟩ => exact e1

/-- Every operand axis is an inserted one: the window coordinate is zero. -/
theorem window_eq (j : S16384.Idx) (a : Fin 2) : scD.window j a = 0 := by
  have e0 : scD.window j (0 : Fin 2) = 0 := by
    unfold ScatterDims.window
    exact dif_neg (by decide)
  have e1 : scD.window j (1 : Fin 2) = 0 := by
    unfold ScatterDims.window
    exact dif_neg (by decide)
  match a with
  | ⟨0, _⟩ => exact e0
  | ⟨1, _⟩ => exact e1

/-- When row `r` of the index array holds `(r, r)`, update `r` lands on the diagonal element `(r, r)`. -/
theorem resultIdx_eq (r : Fin 16384) (idx : IVec S16384x2 32)
    (h0 : (idx (ix2 r 0)).toInt = (r.val : Int)) (h1 : (idx (ix2 r 1)).toInt = (r.val : Int)) :
    scD.resultIdx? (ix1 r) idx = some (ix2 r r) := by
  have hr : r.val < 16384 := r.isLt
  have hs : ∀ a : Fin 2, scD.start (ix1 r) idx a + scD.window (ix1 r) a = (r.val : Int) := by
    intro a
    rw [start_eq, window_eq]
    match a with
    | ⟨0, _⟩ => simpa using h0
    | ⟨1, _⟩ => simpa using h1
  unfold ScatterDims.resultIdx?
  rw [dif_pos (by
    intro a
    rw [hs a]
    match a with
    | ⟨0, _⟩ => exact ⟨by omega, by show (r.val : Int) < 16384; omega⟩
    | ⟨1, _⟩ => exact ⟨by omega, by show (r.val : Int) < 16384; omega⟩)]
  refine congrArg some (funext fun a => Fin.ext ?_)
  show (scD.start (ix1 r) idx a + scD.window (ix1 r) a).toNat = _
  rw [hs a]
  match a with
  | ⟨0, _⟩ => exact Int.toNat_natCast _
  | ⟨1, _⟩ => exact Int.toNat_natCast _

/-- A float scatter-add whose index array holds `(j, j)` in row `j` adds update `j` to the diagonal element
    `(j, j)` and nothing anywhere else. -/
theorem scatterAdd_diag_apply (x : S16384x16384.Idx → EReal) (idx : IVec S16384x2 32) (upd : S16384.Idx → EReal)
    (hidx : ∀ (j : Fin 16384) (c : Fin 2), (idx (ix2 j c)).toInt = (j.val : Int)) (r k : Fin 16384) :
    Ideal.hostScatterAdd scD x idx upd (ix2 r k) = x (ix2 r k) + (if r = k then upd (ix1 r) else 0) := by
  have hf : ∀ j : S16384.Idx, scD.resultIdx? j idx = some (ix2 r k) ↔ (r = k ∧ j = ix1 r) := by
    intro j
    obtain ⟨q, rfl⟩ : ∃ q : Fin 16384, j = ix1 q := ⟨j 0, eq_ix1 j⟩
    rw [resultIdx_eq q idx (hidx q 0) (hidx q 1)]
    constructor
    · intro h
      have h' := Option.some.inj h
      have e0 : q = r := congrFun h' 0
      have e1 : q = k := congrFun h' 1
      exact ⟨e0.symm.trans e1, by rw [e0]⟩
    · rintro ⟨h1, h2⟩
      have e : q = r := congrFun h2 0
      subst e; subst h1; rfl
  unfold Ideal.hostScatterAdd
  refine congrArg (x (ix2 r k) + ·) ?_
  rw [Finset.sum_filter]
  by_cases hrk : r = k
  · rw [if_pos hrk]
    rw [Finset.sum_congr rfl (fun j _ => if_congr ((hf j).trans (and_iff_right hrk)) rfl rfl)]
    exact Finset.sum_ite_eq' Finset.univ (ix1 r) upd |>.trans (if_pos (Finset.mem_univ _))
  · rw [if_neg hrk]
    exact Finset.sum_eq_zero fun j _ => if_neg (fun h => hrk ((hf j).mp h).1)

/-! ## The index array holds the pair (j, j) in row j -/

/-- A coordinate below 16384, as a 32-bit word read signed, is itself. -/
theorem toInt_coord (j : Fin 16384) : (BitVec.ofNat 32 j.val).toInt = (j.val : Int) := by
  have hj : j.val < 16384 := j.isLt
  have hn : (BitVec.ofNat 32 j.val).toNat = j.val := by
    rw [BitVec.toNat_ofNat]; exact Nat.mod_eq_of_lt (by omega)
  rw [BitVec.toInt_eq_toNat_cond, hn]
  split <;> omega

/-- A word that is not negative, read signed, is not below zero: the select on "below zero" takes its second
    branch. -/
theorem select_slt_zero (w a : BitVec 32) (h : 0 ≤ w.toInt) :
    Scalar.select (IntOp.cmpi .slt w 0#32) a w = w := by
  have hlt : w.slt 0#32 = false := by
    simp only [BitVec.slt, BitVec.toInt_zero, decide_eq_false_iff_not, Int.not_lt]
    exact h
  show (if BitVec.ofBool (w.slt 0#32) = 1 then a else w) = w
  rw [hlt]
  rfl

/-- The wrapped iota (a negative entry would count from the end; none is negative) reads `j` at `j`. -/
theorem val_main_v28_toInt (j : Fin 16384) :
    (Read.val_main_v28 (F := Ideal) (ix1 j)).toInt = (j.val : Int) := by
  rw [Read.val_main_v28_apply, Read.val_main_v25_apply, Read.val_main_v23_apply, Read.val_main_v24_apply,
    Read.val_main_c_apply]
  show (Scalar.select (IntOp.cmpi .slt (BitVec.ofNat 32 j.val) 0#32) _ (BitVec.ofNat 32 j.val)).toInt = _
  rw [select_slt_zero _ _ (by rw [toInt_coord]; omega)]
  exact toInt_coord j

/-- The second copy of the wrapped iota likewise. -/
theorem val_main_v33_toInt (j : Fin 16384) :
    (Read.val_main_v33 (F := Ideal) (ix1 j)).toInt = (j.val : Int) := by
  rw [Read.val_main_v33_apply, Read.val_main_v30_apply, Read.val_main_v23_apply, Read.val_main_v29_apply,
    Read.val_main_c_5_apply]
  show (Scalar.select (IntOp.cmpi .slt (BitVec.ofNat 32 j.val) 0#32) _ (BitVec.ofNat 32 j.val)).toInt = _
  rw [select_slt_zero _ _ (by rw [toInt_coord]; omega)]
  exact toInt_coord j

/-- The index array, the two columns side by side, holds `j` at `(j, 0)` and at `(j, 1)`. -/
theorem val_main_v36_toInt (j : Fin 16384) (c : Fin 2) :
    (Read.val_main_v36 (F := Ideal) (ix2 j c)).toInt = (j.val : Int) := by
  have e0 : Read.val_main_v36 (F := Ideal) (ix2 j (0 : Fin 2)) = Read.val_main_v34 (F := Ideal) (ix2 j (0 : Fin 1)) := by
    unfold Read.val_main_v36
    exact concatenate_pair_apply_left (t := S16384x2) (s₁ := S16384x1) (s₂ := S16384x1) (1 : Fin 2)
      (Read.val_main_v34 (F := Ideal)) (Read.val_main_v35 (F := Ideal)) concatenates_S16384x1_S16384x1_S16384x2_d1
      (ix2 j (0 : Fin 2)) rfl (ix2 j (0 : Fin 1)) (fun b => match b with | ⟨0, _⟩ => rfl | ⟨1, _⟩ => rfl)
  have e1 : Read.val_main_v36 (F := Ideal) (ix2 j (1 : Fin 2)) = Read.val_main_v35 (F := Ideal) (ix2 j (0 : Fin 1)) := by
    unfold Read.val_main_v36
    exact concatenate_pair_apply_right (t := S16384x2) (s₁ := S16384x1) (s₂ := S16384x1) (1 : Fin 2)
      (Read.val_main_v34 (F := Ideal)) (Read.val_main_v35 (F := Ideal)) concatenates_S16384x1_S16384x1_S16384x2_d1
      (ix2 j (1 : Fin 2)) rfl rfl (ix2 j (0 : Fin 1))
      (fun b => match b with | ⟨0, _⟩ => fun _ => rfl | ⟨1, _⟩ => fun h => absurd rfl h) rfl
  match c with
  | ⟨0, _⟩ =>
    refine (congrArg BitVec.toInt e0).trans ?_
    rw [Read.val_main_v34_apply]
    exact val_main_v28_toInt j
  | ⟨1, _⟩ =>
    refine (congrArg BitVec.toInt e1).trans ?_
    rw [Read.val_main_v35_apply]
    exact val_main_v33_toInt j

/-- The updates are all the word of 1.0. -/
theorem val_main_v37_one (j : S16384.Idx) : Read.val_main_v37 (F := Ideal) j = 1 := by
  rw [Read.val_main_v37_apply, Read.val_main_cst_7_apply]
  simp [Ideal.ofBits, Ideal.ieee, -EReal.coe_mul]; norm_num

/-- The adjacency with self-loops: the scatter-add of ones at the diagonal index pairs adds the identity matrix. -/
theorem val_main_v38_apply (x0 : (⟨S16384x16384, .f32⟩ : BufTy).Contents (Elt Ideal)) (r k : Fin 16384) :
    Cert.ReferenceIdeal.Read.val_main_v38 (F := Ideal) x0 (ix2 r k) = x0 (ix2 r k) + (if r = k then 1 else 0) := by
  unfold Read.val_main_v38
  simp only [Host.scatterAdd, Ideal.hostScatterAdd_def]
  rw [scatterAdd_diag_apply x0 _ _ val_main_v36_toInt r k, val_main_v37_one]

/-! ## The pieces of the result, as plain functions of the argument arrays -/

/-- The adjacency with self-loops. -/
def ga (x0 : S16384x16384.Idx → EReal) (r k : Fin 16384) : EReal := x0 (ix2 r k) + (if r = k then 1 else 0)

/-- The inverse square root of a row's degree. -/
def refD (x0 : S16384x16384.Idx → EReal) (r : Fin 16384) : EReal := Ideal.rsqrt (∑ k : Fin 16384, ga x0 r k)

/-- A feature's mean over the 16384 rows (the divisor is the word of 16384.0). -/
def refMean (x1 : S16384x64.Idx → EReal) (j : Fin 64) : EReal :=
  Ideal.div (∑ k : Fin 16384, x1 (ix2 k j)) (Ideal.ofBits .f32 0x46800000#32)

/-- A feature's (biased) variance over the rows. -/
def refVar (x1 : S16384x64.Idx → EReal) (j : Fin 64) : EReal :=
  Ideal.div (∑ k : Fin 16384, (x1 (ix2 k j) - refMean x1 j) * (x1 (ix2 k j) - refMean x1 j))
    (Ideal.ofBits .f32 0x46800000#32)

/-- The per-feature scale: the weight over the square root of the variance plus the small constant. -/
def refScale (x1 : S16384x64.Idx → EReal) (x4 : S64.Idx → EReal) (j : Fin 64) : EReal :=
  Ideal.div (x4 (ix1 j)) (Ideal.sqrt (refVar x1 j + Ideal.ofBits .f32 0x3727C5AC#32))

/-- The batch-normalised features. -/
def refHn (x1 : S16384x64.Idx → EReal) (x4 x5 : S64.Idx → EReal) (k : Fin 16384) (j : Fin 64) : EReal :=
  (x1 (ix2 k j) - refMean x1 j) * refScale x1 x4 j + x5 (ix1 j)

/-- The linear layer on the normalised features: times the transposed weights, plus the bias. -/
def refHp (x1 : S16384x64.Idx → EReal) (x2 : S64x64.Idx → EReal) (x3 x4 x5 : S64.Idx → EReal) (k : Fin 16384)
    (c : Fin 64) : EReal :=
  (∑ j : Fin 64, refHn x1 x4 x5 k j * x2 (ix2 c j)) + x3 (ix1 c)

/-- The leaky rectifier with slope the word of 0.01. -/
def leaky (v : EReal) : EReal := Scalar.select (Ideal.cmp .oge v 0) v (Ideal.ofBits .f32 0x3C23D70A#32 * v)

/-! ## The batch-normalised linear layer at an index -/

section Hp
variable (x1 : (⟨S16384x64, .f32⟩ : BufTy).Contents (Elt Ideal)) (x2 : (⟨S64x64, .f32⟩ : BufTy).Contents (Elt Ideal))
  (x3 x4 x5 : (⟨S64, .f32⟩ : BufTy).Contents (Elt Ideal))

theorem mean_at (j : Fin 64) : Read.val_main_v2 (F := Ideal) x1 (ix1 j) = refMean x1 j := by
  rw [Read.val_main_v2_apply, Read.val_main_v0_apply, Read.val_main_v1_apply, Read.val_main_cst_0_apply,
    Read.val_main_cst_apply]
  simp only [Ideal.hostDivf_def, Ideal.ofBits_def, Ideal.ofBits_zero_f32, zero_add]
  unfold refMean
  have hs : ∑ k : Fin 16384, x1 (Read.idx_main_v0 (ix1 j) k) = ∑ k : Fin 16384, x1 (ix2 k j) :=
    Finset.sum_congr rfl fun k _ =>
      congrArg x1 (funext fun a => Fin.ext (by match a with | ⟨0, _⟩ => rfl | ⟨1, _⟩ => rfl))
  rw [hs]

theorem v4_at (k : Fin 16384) (j : Fin 64) : Read.val_main_v4 (F := Ideal) x1 (ix2 k j) = refMean x1 j := by
  rw [Read.val_main_v4_apply, Read.val_main_v3_apply, ← mean_at]
  exact congrArg _ (funext fun a => Fin.ext (by match a with | ⟨0, _⟩ => rfl))

theorem v11_at (k : Fin 16384) (j : Fin 64) : Read.val_main_v11 (F := Ideal) x1 (ix2 k j) = refMean x1 j := by
  rw [Read.val_main_v11_apply, Read.val_main_v10_apply, ← mean_at]
  exact congrArg _ (funext fun a => Fin.ext (by match a with | ⟨0, _⟩ => rfl))

theorem var_at (j : Fin 64) : Read.val_main_v9 (F := Ideal) x1 (ix1 j) = refVar x1 j := by
  rw [Read.val_main_v9_apply, Read.val_main_v7_apply, Read.val_main_v8_apply, Read.val_main_cst_2_apply,
    Read.val_main_cst_1_apply]
  simp only [Ideal.hostDivf_def, Ideal.ofBits_def, Ideal.ofBits_zero_f32, zero_add]
  unfold refVar
  have hs : ∑ k : Fin 16384, Read.val_main_v6 (F := Ideal) x1 (Read.idx_main_v7 (ix1 j) k)
      = ∑ k : Fin 16384, (x1 (ix2 k j) - refMean x1 j) * (x1 (ix2 k j) - refMean x1 j) :=
    Finset.sum_congr rfl fun k _ => by
      rw [show Read.idx_main_v7 (ix1 j) k = ix2 k j from
        funext fun a => Fin.ext (by match a with | ⟨0, _⟩ => rfl | ⟨1, _⟩ => rfl)]
      rw [Read.val_main_v6_apply, Read.val_main_v5_apply, v4_at]
      rfl
  rw [hs]

theorem scale_at (j : Fin 64) : Read.val_main_v16 (F := Ideal) x1 x4 (ix1 j) = refScale x1 x4 j := by
  rw [Read.val_main_v16_apply, Read.val_main_v15_apply, Read.val_main_v14_apply, var_at, Read.val_main_v13_apply,
    Read.val_main_cst_3_apply]
  rfl

theorem v18_at (k : Fin 16384) (j : Fin 64) : Read.val_main_v18 (F := Ideal) x1 x4 (ix2 k j) = refScale x1 x4 j := by
  rw [Read.val_main_v18_apply, Read.val_main_v17_apply, ← scale_at]
  exact congrArg _ (funext fun a => Fin.ext (by match a with | ⟨0, _⟩ => rfl))

theorem v21_at (k : Fin 16384) (j : Fin 64) : Read.val_main_v21 (F := Ideal) x5 (ix2 k j) = x5 (ix1 j) := by
  rw [Read.val_main_v21_apply, Read.val_main_v20_apply]
  exact congrArg x5 (funext fun a => Fin.ext (by match a with | ⟨0, _⟩ => rfl))

theorem hn_at (k : Fin 16384) (j : Fin 64) :
    Read.val_main_v22 (F := Ideal) x1 x4 x5 (ix2 k j) = refHn x1 x4 x5 k j := by
  rw [Read.val_main_v22_apply, Read.val_main_v19_apply, Read.val_main_v12_apply, v11_at, v18_at, v21_at]
  rfl

theorem v50_at (k : Fin 16384) (c : Fin 64) : Read.val_main_v50 (F := Ideal) x3 (ix2 k c) = x3 (ix1 c) := by
  rw [Read.val_main_v50_apply, Read.val_main_v49_apply]
  exact congrArg x3 (funext fun a => Fin.ext (by match a with | ⟨0, _⟩ => rfl))

/-- The linear layer's output at row `k`, column `c`. -/
theorem hp_at (k : Fin 16384) (c : Fin 64) :
    Read.val_main_v51 (F := Ideal) x1 x2 x3 x4 x5 (ix2 k c) = refHp x1 x2 x3 x4 x5 k c := by
  rw [Read.val_main_v51_apply, Read.val_main_v48_apply, v50_at]
  unfold refHp
  refine congrArg (· + _) (Finset.sum_congr rfl fun j _ => ?_)
  rw [show Read.lidx_main_v48 (ix2 k c) j = ix2 k j from
    funext fun a => Fin.ext (by match a with | ⟨0, _⟩ => rfl | ⟨1, _⟩ => rfl), hn_at, Read.val_main_v47_apply]
  exact congrArg (_ * x2 ·) (funext fun a => Fin.ext (by match a with | ⟨0, _⟩ => rfl | ⟨1, _⟩ => rfl))

end Hp

/-! ## The normalised adjacency at an index -/

section Adj
variable (x0 : (⟨S16384x16384, .f32⟩ : BufTy).Contents (Elt Ideal))

/-- The adjacency with self-loops at an index, in the named form. -/
theorem ga_at (r k : Fin 16384) : Read.val_main_v38 (F := Ideal) x0 (ix2 r k) = ga x0 r k :=
  val_main_v38_apply x0 r k

/-- A row's degree: the reduce's zero initial value drops out. -/
theorem rowsum_at (r : Fin 16384) : Read.val_main_v39 (F := Ideal) x0 (ix1 r) = ∑ k : Fin 16384, ga x0 r k := by
  rw [Read.val_main_v39_apply, Read.val_main_cst_8_apply]
  simp only [Ideal.ofBits_def, Ideal.ofBits_zero_f32, zero_add]
  exact Finset.sum_congr rfl fun k _ => by
    rw [show Read.idx_main_v39 (ix1 r) k = ix2 r k from
      funext fun a => Fin.ext (by match a with | ⟨0, _⟩ => rfl | ⟨1, _⟩ => rfl)]
    exact ga_at x0 r k

theorem d_at (r : Fin 16384) : Read.val_main_v40 (F := Ideal) x0 (ix1 r) = refD x0 r := by
  rw [Read.val_main_v40_apply, rowsum_at, Ideal.hostUnary_rsqrt_def]
  unfold refD
  exact rfl

theorem v42_at (r k : Fin 16384) : Read.val_main_v42 (F := Ideal) x0 (ix2 r k) = refD x0 r := by
  rw [Read.val_main_v42_apply, Read.val_main_v41_apply, ← d_at]
  exact congrArg _ (funext fun a => Fin.ext (by match a with | ⟨0, _⟩ => rfl))

theorem v45_at (r k : Fin 16384) : Read.val_main_v45 (F := Ideal) x0 (ix2 r k) = refD x0 k := by
  rw [Read.val_main_v45_apply, Read.val_main_v44_apply, ← d_at]
  exact congrArg _ (funext fun a => Fin.ext (by match a with | ⟨0, _⟩ => rfl))

/-- The symmetrically normalised adjacency: scaled along the rows, then along the columns. -/
theorem gn_at (r k : Fin 16384) :
    Read.val_main_v46 (F := Ideal) x0 (ix2 r k) = (ga x0 r k * refD x0 r) * refD x0 k := by
  rw [Read.val_main_v46_apply, Read.val_main_v43_apply, ga_at, v42_at, v45_at]
  rfl

end Adj

/-! ## The whole result at an index -/

/-- The reference's result at row `r`, column `c`: the leaky rectifier of the normalised adjacency's row `r` against
    column `c` of the batch-normalised linear layer. -/
theorem ref_apply (x0 : (⟨S16384x16384, .f32⟩ : BufTy).Contents (Elt Ideal))
    (x1 : (⟨S16384x64, .f32⟩ : BufTy).Contents (Elt Ideal)) (x2 : (⟨S64x64, .f32⟩ : BufTy).Contents (Elt Ideal))
    (x3 x4 x5 : (⟨S64, .f32⟩ : BufTy).Contents (Elt Ideal)) (r : Fin 16384) (c : Fin 64) :
    Cert.ReferenceIdeal.Read.val_main_v57 (F := Ideal) x0 x1 x2 x3 x4 x5 (ix2 r c) =
      leaky (∑ k : Fin 16384, ((ga x0 r k * refD x0 r) * refD x0 k) * refHp x1 x2 x3 x4 x5 k c) := by
  have hout : Read.val_main_v52 (F := Ideal) x0 x1 x2 x3 x4 x5 (ix2 r c) =
      ∑ k : Fin 16384, ((ga x0 r k * refD x0 r) * refD x0 k) * refHp x1 x2 x3 x4 x5 k c := by
    rw [Read.val_main_v52_apply]
    exact Finset.sum_congr rfl fun k _ => by
      rw [show Read.lidx_main_v52 (ix2 r c) k = ix2 r k from
        funext fun a => Fin.ext (by match a with | ⟨0, _⟩ => rfl | ⟨1, _⟩ => rfl),
        show Read.ridx_main_v52 (ix2 r c) k = ix2 k c from
        funext fun a => Fin.ext (by match a with | ⟨0, _⟩ => rfl | ⟨1, _⟩ => rfl),
        gn_at, hp_at]
  rw [Read.val_main_v57_apply, Read.val_main_v54_apply, Read.val_main_v56_apply, Read.val_main_v55_apply,
    Read.val_main_cst_10_apply, Read.val_main_v53_apply, Read.val_main_cst_9_apply, hout]
  simp only [Ideal.cmpf_def, Ideal.mulf_def, Ideal.ofBits_def, Ideal.ofBits_zero_f32]
  rfl

end Cert.RefForm
-- ==== Proof.KernelIdeal.Feat.lean ====
/- The first call read as values: column means and variances, the normalised features, their projection plus the bias — one block that is the whole array. -/
import proofs.«153148_j8143257993640_2_alg».proof.Proof.KernelIdeal.Pieces
import Idealize.ShloMosaic.Lib.Pipeline.Value
import Idealize.ShloMosaic.Lib.ValueIdx
import Idealize.ShloMosaic.Lib.ValueLayout
import Idealize.ShloMosaic.PureOps.Ideal.Laws
import proofs.«153148_j8143257993640_2_alg».proof.Proof.RefForm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.RefForm (refMean refVar)

/-! ## The first body's arithmetic, stage by stage, read at one element over the extended reals -/

/-- A sum down a column of a 16384 x 64 block. -/
theorem colsum_apply (x : FVec Ideal S16384x64 .f32) (j : Fin 64) :
    multiReduction (F := Ideal) .add [0] S64 x 0x00000000#32 reduces_S16384x64_S64 (.inl rfl) rfl (ix1 j) = ∑ k : Fin 16384, x (ix2 k j) := by
  refine (Ideal.multiReduction_add_single x 0x00000000#32 reduces_S16384x64_S64 (.inl rfl) rfl (ix1 j)).trans ?_
  exact Finset.sum_congr rfl fun k _ => congrArg x (funext fun a => Fin.ext (by match a with | ⟨0, _⟩ => rfl | ⟨1, _⟩ => rfl))

/-- The inverse square root of a block, element by element. -/
theorem rsqrt_apply {s : Shape} {φ : FTy} (a : FVec Ideal s φ) (i : s.Idx) : rsqrt a i = Ideal.rsqrt (a i) := rfl

/-- The column means, as a one-row block. -/
def bnMean (v0 : Vec Ideal S16384x64 .f32) : FVec Ideal S1x64 .f32 :=
  divf (shapeCast S1x64 (multiReduction .add [0] S64 v0 0x00000000#32 reduces_S16384x64_S64 (.inl rfl) rfl) shapeCasts_S64_S1x64)
    (broadcast S1x64 (Scalar.ofBits (F := Ideal) .f32 0x46800000#32))
/-- The centred features. -/
def bnCen (v0 : Vec Ideal S16384x64 .f32) : FVec Ideal S16384x64 .f32 :=
  subf v0 (broadcastTo S16384x64 (bnMean v0) broadcasts_S1x64_S16384x64)
/-- The column variances, as a one-row block. -/
def bnVar (v0 : Vec Ideal S16384x64 .f32) : FVec Ideal S1x64 .f32 :=
  divf (shapeCast S1x64 (multiReduction .add [0] S64 (mulf (bnCen v0) (bnCen v0)) 0x00000000#32 reduces_S16384x64_S64 (.inl rfl) rfl) shapeCasts_S64_S1x64)
    (broadcast S1x64 (Scalar.ofBits (F := Ideal) .f32 0x46800000#32))
/-- The per-column scale: the gain times the inverse standard deviation. -/
def bnScale (v0 : Vec Ideal S16384x64 .f32) (v12 : Vec Ideal S64 .f32) : FVec Ideal S1x64 .f32 :=
  mulf (shapeCast S1x64 v12 shapeCasts_S64_S1x64) (rsqrt (addf (bnVar v0) (broadcast S1x64 (Scalar.ofBits (F := Ideal) .f32 0x3727C5AC#32))))
/-- The normalised features. -/
def bnHn (v0 : Vec Ideal S16384x64 .f32) (v12 v14 : Vec Ideal S64 .f32) : FVec Ideal S16384x64 .f32 :=
  addf (mulf (bnCen v0) (broadcastTo S16384x64 (bnScale v0 v12) broadcasts_S1x64_S16384x64))
    (broadcastTo S16384x64 (shapeCast S1x64 v14 shapeCasts_S64_S1x64) broadcasts_S1x64_S16384x64)

/-- The body's value is the projection of the normalised features plus the bias. -/
theorem k0_pay1_eq (v0 : Vec Ideal S16384x64 .f32) (v12 v14 : Vec Ideal S64 .f32) (v24 : Vec Ideal S64x64 .f32) (v29 : Vec Ideal S64 .f32) :
    k0_pay1 v0 v12 v14 v24 v29
      = addf (matmul dot_S16384x64_S64x64_S16384x64_1_0_0_1_n_n none (truncf .bf16 (bnHn v0 v12 v14) bitsLt_bf16_f32)
            (truncf .bf16 (transpose S64x64 [1, 0] v24 transposes_S64x64_p1_0_S64x64) bitsLt_bf16_f32) (constant S16384x64 .f32 0x00000000#32))
          (broadcastTo S16384x64 (shapeCast S1x64 v29 shapeCasts_S64_S1x64) broadcasts_S1x64_S16384x64) := rfl

theorem lhs_mm0_0 (i : S16384x64.Idx) (q : dot_S16384x64_S64x64_S16384x64_1_0_0_1_n_n.contr.Idx) : (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhs_mm0_1 (i : S16384x64.Idx) (q : dot_S16384x64_S64x64_S16384x64_1_0_0_1_n_n.contr.Idx) : (dot_S16384x64_S64x64_S16384x64_1_0_0_1_n_n.lhsIdx i q 1).val = (q ⟨0, by decide⟩).val :=
  dot_S16384x64_S64x64_S16384x64_1_0_0_1_n_n.lhsIdx_val_of_single rfl i q
theorem rhs_mm0_0 (i : S16384x64.Idx) (q : dot_S16384x64_S64x64_S16384x64_1_0_0_1_n_n.contr.Idx) : (dot_S16384x64_S64x64_S16384x64_1_0_0_1_n_n.rhsIdx i q 0).val = (q ⟨0, by decide⟩).val :=
  dot_S16384x64_S64x64_S16384x64_1_0_0_1_n_n.rhsIdx_val_of_single rfl i q
theorem rhs_mm0_1 (i : S16384x64.Idx) (q : dot_S16384x64_S64x64_S16384x64_1_0_0_1_n_n.contr.Idx) : (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- A matrix product into a zero accumulator, at one element: the sum over the contracted coordinate. -/
theorem mm0_apply (lhs : FVec Ideal S16384x64 .bf16) (rhs : FVec Ideal S64x64 .bf16) (p : Fin 16384) (c : Fin 64) :
    matmul dot_S16384x64_S64x64_S16384x64_1_0_0_1_n_n none lhs rhs (constant S16384x64 .f32 0x00000000#32) (ix2 p c)
      = ∑ k : Fin 64, lhs (ix2 p k) * rhs (ix2 k c) := by
  refine (Ideal.matmul_constant_zero_apply dot_S16384x64_S64x64_S16384x64_1_0_0_1_n_n none lhs rhs (ix2 p c)).trans ?_
  rw [← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 p c) ((contrEquiv1 dot_S16384x64_S64x64_S16384x64_1_0_0_1_n_n 64 rfl rfl).symm k) = ix2 p k := funext fun a => Fin.ext (by
    match a with
    | ⟨0, _⟩ => exact lhs_mm0_0 _ _
    | ⟨1, _⟩ => exact (lhs_mm0_1 _ _).trans hk)
  have er : dot_S16384x64_S64x64_S16384x64_1_0_0_1_n_n.rhsIdx (ix2 p c) ((contrEquiv1 dot_S16384x64_S64x64_S16384x64_1_0_0_1_n_n 64 rfl rfl).symm k) = ix2 k c := funext fun a => Fin.ext (by
    match a with
    | ⟨0, _⟩ => exact (rhs_mm0_0 _ _).trans hk
    | ⟨1, _⟩ => exact rhs_mm0_1 _ _)
  rw [el, er]

theorem row_apply (v : Vec Ideal S64 .f32) (k : Fin 16384) (j : Fin 64) :
    broadcastTo S16384x64 (shapeCast S1x64 v shapeCasts_S64_S1x64) broadcasts_S1x64_S16384x64 (ix2 k j) = v (ix1 j) :=
  (broadcastTo_1b_ab_apply _ broadcasts_S1x64_S16384x64 k j).trans (shapeCast_a_1a_apply v shapeCasts_S64_S1x64 (0 : Fin 1) j)

theorem bnMean_apply (v0 : Vec Ideal S16384x64 .f32) (u : Fin 1) (j : Fin 64) : bnMean v0 (ix2 u j) = refMean v0 j := by
  unfold bnMean refMean
  rw [divf_apply, shapeCast_a_1a_apply, colsum_apply, broadcast_apply]
  rfl

theorem bnCen_apply (v0 : Vec Ideal S16384x64 .f32) (k : Fin 16384) (j : Fin 64) : bnCen v0 (ix2 k j) = v0 (ix2 k j) - refMean v0 j := by
  unfold bnCen
  rw [subf_apply, broadcastTo_1b_ab_apply, bnMean_apply]

theorem bnVar_apply (v0 : Vec Ideal S16384x64 .f32) (u : Fin 1) (j : Fin 64) : bnVar v0 (ix2 u j) = refVar v0 j := by
  unfold bnVar refVar
  rw [divf_apply, shapeCast_a_1a_apply, colsum_apply, broadcast_apply]
  have hs : (∑ k : Fin 16384, mulf (bnCen v0) (bnCen v0) (ix2 k j)) = ∑ k : Fin 16384, (v0 (ix2 k j) - refMean v0 j) * (v0 (ix2 k j) - refMean v0 j) :=
    Finset.sum_congr rfl fun k _ => by rw [mulf_apply, bnCen_apply]
  rw [hs]
  rfl

/-- The scale of column `j`. -/
def kScale (v0 : S16384x64.Idx → EReal) (v12 : S64.Idx → EReal) (j : Fin 64) : EReal :=
  v12 (ix1 j) * Ideal.rsqrt (refVar v0 j + Ideal.ofBits .f32 0x3727C5AC#32)

theorem bnScale_apply (v0 : Vec Ideal S16384x64 .f32) (v12 : Vec Ideal S64 .f32) (u : Fin 1) (j : Fin 64) : bnScale v0 v12 (ix2 u j) = kScale v0 v12 j := by
  unfold bnScale kScale
  rw [mulf_apply, shapeCast_a_1a_apply, rsqrt_apply, addf_apply, bnVar_apply, broadcast_apply]
  rfl

/-- The normalised feature of row `k`, column `j`. -/
def kHn (v0 : S16384x64.Idx → EReal) (v12 v14 : S64.Idx → EReal) (k : Fin 16384) (j : Fin 64) : EReal :=
  (v0 (ix2 k j) - refMean v0 j) * kScale v0 v12 j + v14 (ix1 j)

theorem bnHn_apply (v0 : Vec Ideal S16384x64 .f32) (v12 v14 : Vec Ideal S64 .f32) (k : Fin 16384) (j : Fin 64) : bnHn v0 v12 v14 (ix2 k j) = kHn v0 v12 v14 k j := by
  unfold bnHn kHn
  rw [addf_apply, mulf_apply, bnCen_apply, broadcastTo_1b_ab_apply, bnScale_apply, row_apply]

/-- The projected feature of row `k`, output column `c`. -/
def kHp (v0 : S16384x64.Idx → EReal) (v12 v14 : S64.Idx → EReal) (v24 : S64x64.Idx → EReal) (v29 : S64.Idx → EReal) (k : Fin 16384) (c : Fin 64) : EReal :=
  (∑ j : Fin 64, kHn v0 v12 v14 k j * v24 (ix2 c j)) + v29 (ix1 c)

/-- THE FIRST BODY at one element. -/
theorem k0_apply (v0 : Vec Ideal S16384x64 .f32) (v12 v14 : Vec Ideal S64 .f32) (v24 : Vec Ideal S64x64 .f32) (v29 : Vec Ideal S64 .f32) (k : Fin 16384) (c : Fin 64) :
    k0_pay1 v0 v12 v14 v24 v29 (ix2 k c) = kHp v0 v12 v14 v24 v29 k c := by
  rw [k0_pay1_eq]
  unfold kHp
  rw [addf_apply, mm0_apply, row_apply]
  refine congrArg (· + v29 (ix1 c)) (Finset.sum_congr rfl fun j _ => ?_)
  rw [truncf_apply, truncf_apply, bnHn_apply, transpose_ix2_apply]

/-! ## The first call's array: one block, the whole array -/

section
variable {F : FTy → Type} [FloatOps F]
variable (V : (c : Dev nD) → (b : Ref sig .tc) → Buf (Elt F) ((c : Thread nD τ).loc b))

theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0 :=
  (by decide +kernel : ∀ t : Fin grid0.N, _)

theorem iblk0_0_eq (c : Dev nD) (t : Fin cfg0.N) : (iblk0 V c 0 t : Vec F S16384x64 .f32) = V c main_arg1 := by
  obtain ⟨e0, e1, -⟩ := idx_facts0 t
  have hz' : (fun a => win0_0.index t a * main_arg1.ty.shape.size a) = fun _ => 0 := funext fun a => by
    match a with
    | ⟨0, _⟩ => show win0_0.index t (0 : Fin 2) * 16384 = 0; rw [e0]
    | ⟨1, _⟩ => show win0_0.index t (1 : Fin 2) * 64 = 0; rw [e1]
  exact Memref.read_access_unit_zero (Elt F) main_arg1 hz' (fun a => by rw [congrFun hz' a]; simp) (V c main_arg1)

theorem iblk0_1_eq (c : Dev nD) (t : Fin cfg0.N) : (iblk0 V c 1 t : Vec F S64x64 .f32) = V c main_arg2 := by
  obtain ⟨-, -, e0, e1, -⟩ := idx_facts0 t
  have hz' : (fun a => win0_1.index t a * main_arg2.ty.shape.size a) = fun _ => 0 := funext fun a => by
    match a with
    | ⟨0, _⟩ => show win0_1.index t (0 : Fin 2) * 64 = 0; rw [e0]
    | ⟨1, _⟩ => show win0_1.index t (1 : Fin 2) * 64 = 0; rw [e1]
  exact Memref.read_access_unit_zero (Elt F) main_arg2 hz' (fun a => by rw [congrFun hz' a]; simp) (V c main_arg2)

theorem iblk0_2_eq (c : Dev nD) (t : Fin cfg0.N) : (iblk0 V c 2 t : Vec F S64 .f32) = V c main_arg3 := by
  obtain ⟨-, -, -, -, e0, -⟩ := idx_facts0 t
  have hz' : (fun a => win0_2.index t a * main_arg3.ty.shape.size a) = fun _ => 0 := funext fun a => by
    match a with
    | ⟨0, _⟩ => show win0_2.index t (0 : Fin 1) * 64 = 0; rw [e0]
  exact Memref.read_access_unit_zero (Elt F) main_arg3 hz' (fun a => by rw [congrFun hz' a]; simp) (V c main_arg3)

theorem iblk0_3_eq (c : Dev nD) (t : Fin cfg0.N) : (iblk0 V c 3 t : Vec F S64 .f32) = V c main_arg4 := by
  obtain ⟨-, -, -, -, -, e0, -⟩ := idx_facts0 t
  have hz' : (fun a => win0_3.index t a * main_arg4.ty.shape.size a) = fun _ => 0 := funext fun a => by
    match a with
    | ⟨0, _⟩ => show win0_3.index t (0 : Fin 1) * 64 = 0; rw [e0]
  exact Memref.read_access_unit_zero (Elt F) main_arg4 hz' (fun a => by rw [congrFun hz' a]; simp) (V c main_arg4)

theorem iblk0_4_eq (c : Dev nD) (t : Fin cfg0.N) : (iblk0 V c 4 t : Vec F S64 .f32) = V c main_arg5 := by
  obtain ⟨-, -, -, -, -, -, e0, -⟩ := idx_facts0 t
  have hz' : (fun a => win0_4.index t a * main_arg5.ty.shape.size a) = fun _ => 0 := funext fun a => by
    match a with
    | ⟨0, _⟩ => show win0_4.index t (0 : Fin 1) * 64 = 0; rw [e0]
  exact Memref.read_access_unit_zero (Elt F) main_arg5 hz' (fun a => by rw [congrFun hz' a]; simp) (V c main_arg5)

/-- What the first call's array ends holding: the body's value of the five argument arrays. -/
def hpK (c : Dev nD) : Buf (Elt F) ((c : Thread nD τ).loc main_v0) :=
  k0_pay1 (V c main_arg1) (V c main_arg4) (V c main_arg5) (V c main_arg2) (V c main_arg3)

theorem flushed0_eq (c : Dev nD) (t : Fin cfg0.N) (hf : (cfg0.win 5).flush t = true) :
    (dat0 V c).flushed 5 t = ((cfg0.win 5).blk t).view.read (Elt F) (hpK V c) := by
  obtain ⟨-, -, -, -, -, -, -, e0, e1⟩ := idx_facts0 t
  show (cfg0.win 5).cut (grid0.coords t) ((dat0 V c).after 5 t) = _
  rw [after0_5, out0_A_eq, iblk0_0_eq, iblk0_1_eq, iblk0_2_eq, iblk0_3_eq, iblk0_4_eq]
  have hz' : (fun a => win0_5.index t a * main_v0.ty.shape.size a) = fun _ => 0 := funext fun a => by
    match a with
    | ⟨0, _⟩ => show win0_5.index t (0 : Fin 2) * 16384 = 0; rw [e0]
    | ⟨1, _⟩ => show win0_5.index t (1 : Fin 2) * 64 = 0; rw [e1]
  exact (Memref.read_access_unit_zero (Elt F) main_v0 hz' (fun a => by rw [congrFun hz' a]; simp) (hpK V c)).symm

theorem cover0 (i : S16384x64.Idx) : ∃ t : Fin cfg0.N, (cfg0.win 5).flush t = true ∧ i ∈ ((cfg0.win 5).blk t).view.set := by
  obtain ⟨-, -, -, -, -, -, -, e0, e1⟩ := idx_facts0 t0_0
  refine ⟨t0_0, flush0_5 t0_0, ?_⟩
  show i ∈ ((View.whole main_v0).slice (win0_5.rect t0_0)).set
  rw [View.set_slice_whole, Rect.mem_set_unit]
  intro a
  have h0 : (i 0 : Nat) < 16384 := (i 0).isLt
  have h1 : (i 1 : Nat) < 64 := (i 1).isLt
  match a with
  | ⟨0, _⟩ => show win0_5.index t0_0 (0 : Fin 2) * 16384 ≤ (i 0 : Nat) ∧ (i 0 : Nat) < win0_5.index t0_0 (0 : Fin 2) * 16384 + 16384; rw [e0]; omega
  | ⟨1, _⟩ => show win0_5.index t0_0 (1 : Fin 2) * 64 ≤ (i 1 : Nat) ∧ (i 1 : Nat) < win0_5.index t0_0 (1 : Fin 2) * 64 + 64; rw [e1]; omega

/-- THE FIRST CALL'S ARRAY after the run. -/
theorem final0 (c : Dev nD) : (dat0 V c).arrAt 5 cfg0.N = hpK V c :=
  (dat0 V c).arrAt_eq_of_cover 5 (hpK V c) (flushed0_eq V c) cover0

end

end Cert.KernelIdeal.Hand

end
-- ==== Proof.KernelIdeal.Value.lean ====
/- The kernel's result array as one function of the argument arrays, element by element, and the kernel's run re-posted with it. -/
import proofs.«153148_j8143257993640_2_alg».proof.Proof.KernelIdeal.Frame
import proofs.«153148_j8143257993640_2_alg».proof.Proof.KernelIdeal.Rows
import proofs.«153148_j8143257993640_2_alg».proof.Proof.KernelIdeal.Prod
import proofs.«153148_j8143257993640_2_alg».proof.Proof.KernelIdeal.Feat
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## What the third call finds in the buffers it reads -/

/-- The adjacency matrix reaches the third call as launched. -/
theorem V3_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

/-- The second call found the adjacency matrix as launched too. -/
theorem V1_arg0 (c : Dev nD) : V1 m ρ c main_arg0 = m ((c : Thread nD τ).loc main_arg0) :=
  (W1_of_ne m ρ c main_arg0 (by decide)).trans rfl

/-- After the second call the scale array holds the inverse square roots of the row sums plus one. -/
theorem W2_v1 (c : Dev nD) : W2 m ρ c (Proc.devRef .tc main_v1) = dK (m ((c : Thread nD τ).loc main_arg0)) := by
  refine (W2_arr m ρ c 1).trans ?_
  rw [final1, V1_arg0]

/-- After the first call (and the second, which does not touch it) the feature array holds the projected normalised features. -/
theorem W2_v0 (c : Dev nD) : W2 m ρ c (Proc.devRef .tc main_v0) = hpK (V0 m ρ) c := by
  refine (W2_of_ne m ρ c main_v0 (by decide)).trans ?_
  refine (W1_arr m ρ c 5).trans ?_
  exact final0 (V0 m ρ) c

/-- The host stretch leaves the scale array alone. -/
theorem V3_v1 (c : Dev nD) : V3 m ρ c main_v1 = dK (m ((c : Thread nD τ).loc main_arg0)) := by
  refine Eq.trans (?_ : W3 m ρ c (Proc.devRef .tc main_v1) = W2 m ρ c (Proc.devRef .tc main_v1)) (W2_v1 m ρ c)
  exact StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The arrays as plain functions. -/
abbrev argG (c : Dev nD) : S16384x16384.Idx → EReal := m ((c : Thread nD τ).loc main_arg0)
abbrev argH (c : Dev nD) : S16384x64.Idx → EReal := m ((c : Thread nD τ).loc main_arg1)
abbrev argW (c : Dev nD) : S64x64.Idx → EReal := m ((c : Thread nD τ).loc main_arg2)
abbrev argB (c : Dev nD) : S64.Idx → EReal := m ((c : Thread nD τ).loc main_arg3)
abbrev argGa (c : Dev nD) : S64.Idx → EReal := m ((c : Thread nD τ).loc main_arg4)
abbrev argBe (c : Dev nD) : S64.Idx → EReal := m ((c : Thread nD τ).loc main_arg5)
/-- The scaled features the third call reads. -/
def hsF (c : Dev nD) : S16384x64.Idx → EReal := V3 m ρ c main_v3
/-- The projected normalised features the first call leaves. -/
def hpF (c : Dev nD) : S16384x64.Idx → EReal := hpK (V0 m ρ) c

/-- The projected normalised feature at one element, from the argument arrays. -/
theorem hpF_apply (c : Dev nD) (q : Fin 16384) (cc : Fin 64) :
    hpF m ρ c (ix2 q cc) = kHp (argH m c) (argGa m c) (argBe m c) (argW m c) (argB m c) q cc :=
  k0_apply _ _ _ _ _ q cc

/-- The host stretch writes the scaled features: each row of the features times the row's scale. -/
theorem hsF_apply (c : Dev nD) (q : Fin 16384) (cc : Fin 64) :
    hsF m ρ c (ix2 q cc) = dK (argG m c) (ix2 q (0 : Fin 1)) * hpF m ρ c (ix2 q cc) := by
  have e : ∃ X : S16384x64.Idx → EReal, StableHlo.after hostOps2 (W2 m ρ c) (Proc.devRef .tc main_v3) = X
      ∧ X (ix2 q cc) = dK (argG m c) (ix2 q (0 : Fin 1)) * hpK (V0 m ρ) c (ix2 q cc) := by
    have hA : ∀ (A : FVec Ideal S16384x1 .f32) (B : FVec Ideal S16384x64 .f32), A = W2 m ρ c (Proc.devRef .tc main_v1) → B = W2 m ρ c (Proc.devRef .tc main_v0) →
        StableHlo.after hostOps2 (W2 m ρ c) (Proc.devRef .tc main_v3) = mulf (broadcastInDim S16384x64 ![0, 1] bcast_S16384x1_S16384x64_0_1 A) B := by
      intro A B hA hB
      subst hA; subst hB
      after_results
    refine ⟨_, hA (dK (argG m c)) (hpK (V0 m ρ) c) (W2_v1 m ρ c).symm (W2_v0 m ρ c).symm, ?h2⟩
    case h2 =>
      have hbc : broadcastInDim S16384x64 ![0, 1] bcast_S16384x1_S16384x64_0_1 (dK (argG m c)) (ix2 q cc) = dK (argG m c) (ix2 q (0 : Fin 1)) :=
        broadcastInDim_apply _ bcast_S16384x1_S16384x64_0_1 _ (ix2 q cc) (ix2 q (0 : Fin 1)) fun a => by
          match a with
          | ⟨0, _⟩ => rfl
          | ⟨1, _⟩ => rfl
      rw [mulf_apply, hbc]
  obtain ⟨X, hX, hXa⟩ := e
  unfold hsF hpF
  show StableHlo.after hostOps2 (W2 m ρ c) (Proc.devRef .tc main_v3) (ix2 q cc) = _
  rw [hX]
  exact hXa

/-! ## The kernel's result, element by element -/

/-- The kernel's result as a function of the argument arrays. -/
def KOut (c : Dev nD) : S16384x64.Idx → EReal :=
  outK (argG m c) (hsF m ρ c) (dK (argG m c))

theorem value_eq (c : Dev nD) : (dat2 (V3 m ρ) c).arrAt 3 cfg2.N = KOut m ρ c := by
  rw [final2, V3_arg0, V3_v1]
  rfl

/-- The result at row `r`, column `cc`: the row's scale times (the row of the matrix against the scaled features plus the row's own
    scaled features), through the rectifier; the scaled feature of row `q` is the row's scale times its projected normalised feature. -/
theorem KOut_apply (c : Dev nD) (r : Fin 16384) (cc : Fin 64) :
    KOut m ρ c (ix2 r cc)
      = leakyK (dK (argG m c) (ix2 r (0 : Fin 1))
          * ((∑ q : Fin 16384, argG m c (ix2 r q) * (dK (argG m c) (ix2 q (0 : Fin 1)) * hpF m ρ c (ix2 q cc)))
              + dK (argG m c) (ix2 r (0 : Fin 1)) * hpF m ρ c (ix2 r cc))) := by
  unfold KOut outK
  have hs : (∑ q : Fin 16384, argG m c (ix2 r q) * hsF m ρ c (ix2 q cc))
      = ∑ q : Fin 16384, argG m c (ix2 r q) * (dK (argG m c) (ix2 q (0 : Fin 1)) * hpF m ρ c (ix2 q cc)) :=
    Finset.sum_congr rfl fun q _ => by rw [hsF_apply]
  show leakyK (dK (argG m c) (ix2 r (0 : Fin 1)) * ((∑ q : Fin 16384, argG m c (ix2 r q) * hsF m ρ c (ix2 q cc)) + hsF m ρ c (ix2 r cc))) = _
  rw [hs, hsF_apply]

/-- THE KERNEL'S RUN, read: the result array at `KOut`, the arguments unchanged. -/
theorem run : θ_run defs (onTc (τ := τ) (main (F := Ideal))) ⟨m, fun _ => 0, ρ⟩ (fun r => ∀ c : Dev nD,
      r.2.mem ((c.tc : Thread nD τ).loc main_v4) = KOut m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (value_eq m ρ c), (h c).2⟩) (run_value m ρ)

end Cert.KernelIdeal.Hand

end
-- ==== Proof.PreFacts.lean ====
/-
  The precondition of the certificate, decoded. The printed predicate says: every entry x of the six float
  arrays has |x| < +∞ (the word 0x7F800000), and every row r of the first array has (0 + Σ_k g[r,k]) + 1 > 0.
  Read at the ideal values (extended reals): every entry is a real number, and every row sum plus one is positive.
-/
import proofs.«153148_j8143257993640_2_alg».proof.Pre_finite_inputs
import Idealize.ShloMosaic.Lib.ValueIdx
import Idealize.ShloMosaic.Lib.ReduceAll
import Idealize.ShloMosaic.PureOps.Ideal.Laws

noncomputable section

namespace Cert.PreFacts

open Idealize.ShloMosaic Idealize.ShloMosaic.ValueIdx Cert.Pre_finite_inputs
open scoped BigOperators

/-- The scalar shape has one index. -/
instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- The word 0x3F800000 is 1. -/
theorem ofBits_one : Ideal.ofBits .f32 0x3F800000#32 = (1 : EReal) := by
  simp [Ideal.ofBits, Ideal.ieee, -EReal.coe_mul]; norm_num

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one (c : Bool) : BitVec.ofBool c = 1#1 ↔ c = true := by cases c <;> decide

/-- One entry of an array: if the comparison |x i| < +∞ holds at i, then x i is a real number. -/
theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  apply real_of_abs_lt_top
  have h' : BitVec.ofBool (decide (max (x i) (-(x i)) < Ideal.ofBits .f32 0x7F800000#32)) = 1#1 := h
  rw [ofBits_inf] at h'
  exact of_decide_eq_true ((ofBool_eq_one _).1 h')

variable [Cert.Pre_finite_inputs.Facts]

/-- The host's sum over axis 1 of the first array from 0, read at row r: the sum over k of g[r,k]. -/
theorem rowSum_eq (g : FVec Ideal S16384x16384 .f32) (r : Fin 16384) :
    Ideal.hostReduceAdd Facts.reducesTo_S16384x16384_S16384_d1 g 0 (ix1 r) = ∑ k : Fin 16384, g (ix2 r k) := by
  rw [Ideal.hostReduceAdd_single Facts.reducesTo_S16384x16384_S16384_d1 (by decide), zero_add]
  -- the index the reduction inserts coordinate k into is (r, k)
  refine Finset.sum_congr rfl fun k _ => congrArg g ?_
  exact funext fun a => Fin.ext (by match a with | ⟨0, _⟩ => rfl | ⟨1, _⟩ => rfl)

/-- One row of the first array: if the comparison (0 + Σ_k g[r,k]) + 1 > 0 holds at row r, the row sum plus one is positive. -/
theorem row_pos (g : FVec Ideal S16384x16384 .f32) (r : Fin 16384)
    (h : cmpf .ogt
        (addf (Host.reduceAdd g (constant (F := Ideal) S_ .f32 0x00000000#32) Facts.reducesTo_S16384x16384_S16384_d1 Facts.h_S_)
          (broadcastInDim S16384 ![] Facts.bcast_S_S16384 (constant (F := Ideal) S_ .f32 0x3F800000#32)))
        (broadcastInDim S16384 ![] Facts.bcast_S_S16384 (constant (F := Ideal) S_ .f32 0x00000000#32)) (ix1 r) = 1#1) :
    (0 : EReal) < (∑ k : Fin 16384, g (ix2 r k)) + 1 := by
  -- the two broadcast constants and the host sum, read at row r
  have hb1 : broadcastInDim S16384 ![] Facts.bcast_S_S16384 (constant (F := Ideal) S_ .f32 0x3F800000#32) (ix1 r)
      = Ideal.ofBits .f32 0x3F800000#32 := rfl
  have hb0 : broadcastInDim S16384 ![] Facts.bcast_S_S16384 (constant (F := Ideal) S_ .f32 0x00000000#32) (ix1 r)
      = Ideal.ofBits .f32 0x00000000#32 := rfl
  have hr : Host.reduceAdd g (constant (F := Ideal) S_ .f32 0x00000000#32) Facts.reducesTo_S16384x16384_S16384_d1 Facts.h_S_ (ix1 r)
      = Ideal.hostReduceAdd Facts.reducesTo_S16384x16384_S16384_d1 g (Ideal.ofBits .f32 0x00000000#32) (ix1 r) := rfl
  rw [cmpf_apply, addf_apply, hb1, hb0, hr, Ideal.cmpf_def, Ideal.ofBits_zero_f32, ofBits_one, rowSum_eq] at h
  exact of_decide_eq_true ((ofBool_eq_one _).1 h)

/-- THE PRECONDITION DECODED: every entry of the six arrays is a real number, and every row sum of the first array
    plus one is positive. -/
theorem pre_facts (g : FVec Ideal S16384x16384 .f32) (h : FVec Ideal S16384x64 .f32) (W : FVec Ideal S64x64 .f32)
    (b gamma beta : FVec Ideal S64 .f32)
    (hpre : Cert.Pre_finite_inputs.fn (F := Ideal) g h W b gamma beta = fun _ => 1#1) :
    (∀ i, ∃ r : ℝ, g i = (r : EReal)) ∧ (∀ i, ∃ r : ℝ, h i = (r : EReal)) ∧ (∀ i, ∃ r : ℝ, W i = (r : EReal))
      ∧ (∀ i, ∃ r : ℝ, b i = (r : EReal)) ∧ (∀ i, ∃ r : ℝ, gamma i = (r : EReal)) ∧ (∀ i, ∃ r : ℝ, beta i = (r : EReal))
      ∧ (∀ r : Fin 16384, (0 : EReal) < (∑ k : Fin 16384, g (ix2 r k)) + 1) := by
  have e := congrFun hpre ix0
  dsimp only [Cert.Pre_finite_inputs.fn, Cert.Pre_finite_inputs.fn_part1, Cert.Pre_finite_inputs.fn_part2] at e
  simp only [andi, IntOp.andi_eq_one] at e
  obtain ⟨⟨⟨⟨⟨⟨eg, eh⟩, eW⟩, eb⟩, egamma⟩, ebeta⟩, erow⟩ := e
  refine ⟨fun i => ?_, fun i => ?_, fun i => ?_, fun i => ?_, fun i => ?_, fun i => ?_, fun r => ?_⟩
  · exact real_of_cmp g _ i (Host.reduce_andi_all _ _ _ _ ix0 eg i)
  · exact real_of_cmp h _ i (Host.reduce_andi_all _ _ _ _ ix0 eh i)
  · exact real_of_cmp W _ i (Host.reduce_andi_all _ _ _ _ ix0 eW i)
  · exact real_of_cmp b _ i (Host.reduce_andi_all _ _ _ _ ix0 eb i)
  · exact real_of_cmp gamma _ i (Host.reduce_andi_all _ _ _ _ ix0 egamma i)
  · exact real_of_cmp beta _ i (Host.reduce_andi_all _ _ _ _ ix0 ebeta i)
  · exact row_pos g r (Host.reduce_andi_all _ _ _ _ ix0 erow (ix1 r))

end Cert.PreFacts

end
-- ==== Proof.Bridge.lean ====
/- The bridge between the two programs' results over the extended reals: under the precondition every quantity is a real number, the two
   spellings of the batch-normalisation scale agree, and the tiled, self-loop-split product is the reference's whole product. -/
import proofs.«153148_j8143257993640_2_alg».proof.Proof.KernelIdeal.Prod
import proofs.«153148_j8143257993640_2_alg».proof.Proof.KernelIdeal.Feat
import proofs.«153148_j8143257993640_2_alg».proof.Proof.RefForm
import proofs.«153148_j8143257993640_2_alg».proof.Proof.LibERealAlgebra

noncomputable section

namespace Cert.Bridge

open Idealize.ShloMosaic Idealize.ShloMosaic.ValueIdx
open Cert.KernelIdeal (S16384x16384 S16384x64 S64x64 S64)
open Cert.KernelIdeal.Hand (leakyK kScale kHn kHp)
open Cert.RefForm (ga refD refMean refVar refScale refHn refHp leaky)

/-- The two spellings of the rectifier are one function. -/
theorem leakyK_eq (v : EReal) : leakyK v = leaky v := by
  unfold leakyK leaky
  rw [Ideal.ofBits_zero_f32]
  rfl

section
variable (G : S16384x16384.Idx → EReal) (Hh : S16384x64.Idx → EReal) (W : S64x64.Idx → EReal) (b gamma beta : S64.Idx → EReal)
variable (g' : S16384x16384.Idx → ℝ) (h' : S16384x64.Idx → ℝ) (w' : S64x64.Idx → ℝ) (b' ga' be' : S64.Idx → ℝ)
variable (hG : ∀ i, G i = (g' i : EReal)) (hH : ∀ i, Hh i = (h' i : EReal)) (hW : ∀ i, W i = (w' i : EReal))
variable (hb : ∀ i, b i = (b' i : EReal)) (hga : ∀ i, gamma i = (ga' i : EReal)) (hbe : ∀ i, beta i = (be' i : EReal))

/-- The column mean as a real. -/
def mean' (j : Fin 64) : ℝ := (∑ k : Fin 16384, h' (ix2 k j)) / 16384
/-- The column variance as a real. -/
def var' (j : Fin 64) : ℝ := (∑ k : Fin 16384, (h' (ix2 k j) - mean' h' j) * (h' (ix2 k j) - mean' h' j)) / 16384

include hH in
theorem mean_coe (j : Fin 64) : refMean Hh j = ((mean' h' j : ℝ) : EReal) := by
  unfold refMean mean'
  have hs : (∑ k : Fin 16384, Hh (ix2 k j)) = ∑ k : Fin 16384, ((h' (ix2 k j) : ℝ) : EReal) := Finset.sum_congr rfl fun k _ => hH _
  rw [hs, Cert.LibEReal.coe_sum, Cert.LibEReal.ofBits_16384, Cert.LibEReal.div_coe' _ _ (by norm_num)]

include hH in
theorem var_coe (j : Fin 64) : refVar Hh j = ((var' h' j : ℝ) : EReal) := by
  unfold refVar var'
  have hs : (∑ k : Fin 16384, (Hh (ix2 k j) - refMean Hh j) * (Hh (ix2 k j) - refMean Hh j))
      = ∑ k : Fin 16384, (((h' (ix2 k j) - mean' h' j) * (h' (ix2 k j) - mean' h' j) : ℝ) : EReal) :=
    Finset.sum_congr rfl fun k _ => by rw [hH, mean_coe Hh h' hH, Cert.LibEReal.coe_sub, Cert.LibEReal.coe_mul]
  rw [hs, Cert.LibEReal.coe_sum, Cert.LibEReal.ofBits_16384, Cert.LibEReal.div_coe' _ _ (by norm_num)]

theorem var_nonneg (j : Fin 64) : 0 ≤ var' h' j := Cert.LibEReal.sum_sq_div_nonneg _

include hH hga in
/-- The gain times the inverse standard deviation is the gain over the standard deviation, and a real. -/
theorem scale_eq (j : Fin 64) : kScale Hh gamma j = refScale Hh gamma j
    ∧ ∃ s : ℝ, refScale Hh gamma j = (s : EReal) := by
  obtain ⟨e, he, hE⟩ := Cert.LibEReal.ofBits_eps
  have hpos : 0 < var' h' j + e := add_pos_of_nonneg_of_pos (var_nonneg h' j) he
  unfold kScale refScale
  rw [var_coe Hh h' hH, hE, hga, Cert.LibEReal.coe_add, Cert.LibEReal.mul_rsqrt_eq_div_sqrt _ _ hpos]
  refine ⟨rfl, ga' (ix1 j) / Real.sqrt (var' h' j + e), ?_⟩
  rw [Cert.LibEReal.sqrt_coe _ hpos.le, Cert.LibEReal.div_coe' _ _ (Real.sqrt_pos.mpr hpos).ne']

include hH hga in
theorem hn_eq (k : Fin 16384) (j : Fin 64) : kHn Hh gamma beta k j = refHn Hh gamma beta k j := by
  unfold kHn refHn
  rw [(scale_eq Hh gamma h' ga' hH hga j).1]

include hH hga in
theorem hp_eq (k : Fin 16384) (c : Fin 64) : kHp Hh gamma beta W b k c = refHp Hh W b gamma beta k c := by
  unfold kHp refHp
  have hs : (∑ j : Fin 64, kHn Hh gamma beta k j * W (ix2 c j)) = ∑ j : Fin 64, refHn Hh gamma beta k j * W (ix2 c j) :=
    Finset.sum_congr rfl fun j _ => by rw [hn_eq Hh gamma beta h' ga' hH hga]
  rw [hs]

include hH hW hb hga hbe in
/-- The projected normalised features are reals. -/
theorem hp_coe (k : Fin 16384) (c : Fin 64) : ∃ x : ℝ, refHp Hh W b gamma beta k c = (x : EReal) := by
  have hsc : ∀ j : Fin 64, ∃ s : ℝ, refScale Hh gamma j = (s : EReal) := fun j => (scale_eq Hh gamma h' ga' hH hga j).2
  choose s hs using hsc
  refine ⟨(∑ j : Fin 64, ((h' (ix2 k j) - mean' h' j) * s j + be' (ix1 j)) * w' (ix2 c j)) + b' (ix1 c), ?_⟩
  unfold refHp refHn
  have hsum : (∑ j : Fin 64, ((Hh (ix2 k j) - refMean Hh j) * refScale Hh gamma j + beta (ix1 j)) * W (ix2 c j))
      = ∑ j : Fin 64, ((((h' (ix2 k j) - mean' h' j) * s j + be' (ix1 j)) * w' (ix2 c j) : ℝ) : EReal) :=
    Finset.sum_congr rfl fun j _ => by
      rw [hH, mean_coe Hh h' hH, hs, hbe, hW, Cert.LibEReal.coe_sub, Cert.LibEReal.coe_mul, Cert.LibEReal.coe_add, Cert.LibEReal.coe_mul]
  rw [hsum, Cert.LibEReal.coe_sum, hb, Cert.LibEReal.coe_add]

/-- The row sum as a real. -/
def rowS (q : Fin 16384) : ℝ := ∑ j : Fin 16384, g' (ix2 q j)

include hG in
theorem rowsum_coe (q : Fin 16384) : (∑ j : Fin 16384, G (ix2 q j)) = ((rowS g' q : ℝ) : EReal) := by
  unfold rowS
  have hs : (∑ j : Fin 16384, G (ix2 q j)) = ∑ j : Fin 16384, ((g' (ix2 q j) : ℝ) : EReal) := Finset.sum_congr rfl fun j _ => hG _
  rw [hs, Cert.LibEReal.coe_sum]

/-- The row's scale as a real. -/
def d' (q : Fin 16384) : ℝ := (Real.sqrt (rowS g' q + 1))⁻¹

include hG in
theorem rowpos (hrow : ∀ r : Fin 16384, (0 : EReal) < (∑ k : Fin 16384, G (ix2 r k)) + 1) (q : Fin 16384) : 0 < rowS g' q + 1 := by
  have h := hrow q
  rw [rowsum_coe G g' hG q] at h
  have h1 : ((rowS g' q : ℝ) : EReal) + 1 = ((rowS g' q + 1 : ℝ) : EReal) := by
    rw [← Cert.LibEReal.coe_add]; rfl
  rw [h1] at h
  exact EReal.coe_pos.mp h

include hG in
/-- The kernel's scale of a row: the inverse square root of the row sum plus one. -/
theorem dK_coe (hrow : ∀ r : Fin 16384, (0 : EReal) < (∑ k : Fin 16384, G (ix2 r k)) + 1) (q : Fin 16384) :
    Ideal.rsqrt ((∑ j : Fin 16384, G (ix2 q j)) + 1) = ((d' g' q : ℝ) : EReal) := by
  have h1 : ((rowS g' q : ℝ) : EReal) + 1 = ((rowS g' q + 1 : ℝ) : EReal) := by
    rw [← Cert.LibEReal.coe_add]; rfl
  rw [rowsum_coe G g' hG q, h1, Cert.LibEReal.rsqrt_coe _ (rowpos G g' hG hrow q)]
  rfl

include hG in
theorem ga_coe (r k : Fin 16384) : ga G r k = (((g' (ix2 r k) + if r = k then 1 else 0) : ℝ) : EReal) := by
  unfold ga
  rw [hG, ← Cert.LibEReal.coe_add]
  congr 1
  split <;> simp

include hG in
/-- The reference's scale of a row is the same real: the self-loop adds one to the row sum. -/
theorem refD_coe (hrow : ∀ r : Fin 16384, (0 : EReal) < (∑ k : Fin 16384, G (ix2 r k)) + 1) (q : Fin 16384) :
    refD G q = ((d' g' q : ℝ) : EReal) := by
  unfold refD
  have hs : (∑ k : Fin 16384, ga G q k) = ∑ k : Fin 16384, (((g' (ix2 q k) + if q = k then 1 else 0) : ℝ) : EReal) :=
    Finset.sum_congr rfl fun k _ => ga_coe G g' hG q k
  rw [hs, Cert.LibEReal.coe_sum, Cert.LibEReal.rowsum_selfloop (fun k => g' (ix2 q k)) q]
  exact (Cert.LibEReal.rsqrt_coe (rowS g' q + 1) (rowpos G g' hG hrow q)).trans rfl

end

/-- THE BRIDGE at one element. -/
theorem bridge (G : S16384x16384.Idx → EReal) (Hh : S16384x64.Idx → EReal) (W : S64x64.Idx → EReal) (b gamma beta : S64.Idx → EReal)
    (hG : ∀ i, ∃ r : ℝ, G i = (r : EReal)) (hH : ∀ i, ∃ r : ℝ, Hh i = (r : EReal)) (hW : ∀ i, ∃ r : ℝ, W i = (r : EReal))
    (hb : ∀ i, ∃ r : ℝ, b i = (r : EReal)) (hga : ∀ i, ∃ r : ℝ, gamma i = (r : EReal)) (hbe : ∀ i, ∃ r : ℝ, beta i = (r : EReal))
    (hrow : ∀ r : Fin 16384, (0 : EReal) < (∑ k : Fin 16384, G (ix2 r k)) + 1) (r : Fin 16384) (cc : Fin 64) :
    leakyK (Ideal.rsqrt ((∑ j : Fin 16384, G (ix2 r j)) + 1)
        * ((∑ q : Fin 16384, G (ix2 r q) * (Ideal.rsqrt ((∑ j : Fin 16384, G (ix2 q j)) + 1) * kHp Hh gamma beta W b q cc))
            + Ideal.rsqrt ((∑ j : Fin 16384, G (ix2 r j)) + 1) * kHp Hh gamma beta W b r cc))
      = leaky (∑ k : Fin 16384, ((ga G r k * refD G r) * refD G k) * refHp Hh W b gamma beta k cc) := by
  choose g' hg' using hG
  choose h' hh' using hH
  choose w' hw' using hW
  choose b' hb' using hb
  choose ga' hga' using hga
  choose be' hbe' using hbe
  have hpx : ∀ k : Fin 16384, ∃ x : ℝ, refHp Hh W b gamma beta k cc = (x : EReal) :=
    fun k => hp_coe Hh W b gamma beta h' w' b' ga' be' hh' hw' hb' hga' hbe' k cc
  choose hp' hhp' using hpx
  rw [leakyK_eq]
  refine congrArg leaky ?_
  have hl : (∑ q : Fin 16384, G (ix2 r q) * (Ideal.rsqrt ((∑ j : Fin 16384, G (ix2 q j)) + 1) * kHp Hh gamma beta W b q cc))
      = ∑ q : Fin 16384, ((g' (ix2 r q) * (d' g' q * hp' q) : ℝ) : EReal) :=
    Finset.sum_congr rfl fun q _ => by
      rw [hg', dK_coe G g' hg' hrow q, hp_eq Hh W b gamma beta h' ga' hh' hga', hhp', Cert.LibEReal.coe_mul, Cert.LibEReal.coe_mul]
  have hr : (∑ k : Fin 16384, ((ga G r k * refD G r) * refD G k) * refHp Hh W b gamma beta k cc)
      = ∑ k : Fin 16384, (((((g' (ix2 r k) + if r = k then 1 else 0) * d' g' r) * d' g' k) * hp' k : ℝ) : EReal) :=
    Finset.sum_congr rfl fun k _ => by
      rw [ga_coe G g' hg', refD_coe G g' hg' hrow r, refD_coe G g' hg' hrow k, hhp', Cert.LibEReal.coe_mul, Cert.LibEReal.coe_mul, Cert.LibEReal.coe_mul]
  rw [hl, hr, Cert.LibEReal.coe_sum, Cert.LibEReal.coe_sum, dK_coe G g' hg' hrow r, hp_eq Hh W b gamma beta h' ga' hh' hga', hhp',
    Cert.LibEReal.coe_mul, Cert.LibEReal.coe_add, Cert.LibEReal.coe_mul]
  refine congrArg (fun x : ℝ => (x : EReal)) ?_
  exact (Cert.LibEReal.normalized_product (fun k => g' (ix2 r k)) (d' g') hp' r).symm

end Cert.Bridge

end
-- ==== Proof.lean ====
/- The claims of this certificate. The kernel is three calls — a batch-normalisation and linear projection of the node features,
   the inverse square roots of the row sums of the adjacency matrix with self-loops, and the normalised product accumulated tile by
   tile with the self-loop's term added at the diagonal tile — against one host program computing the same layer with the matrices
   written out whole. Over the extended reals, with finite inputs and positive row sums (so that every inverse square root is a real),
   the two results are one function of the arguments: the tiles' sums are the whole sums, the gain times the inverse standard deviation
   is the gain over the standard deviation, and the row scale distributes over the product. -/
import proofs.«153148_j8143257993640_2_alg».proof.Defs
import proofs.«153148_j8143257993640_2_alg».proof.Proof.Gen.Kernel
import proofs.«153148_j8143257993640_2_alg».proof.Proof.Gen.KernelIdeal
import proofs.«153148_j8143257993640_2_alg».proof.Proof.Gen.ReferenceIdeal
import proofs.«153148_j8143257993640_2_alg».proof.Proof.Gen.ReferenceIdeal.Run
import proofs.«153148_j8143257993640_2_alg».proof.Proof.Gen.ReferenceIdeal.Read
import proofs.«153148_j8143257993640_2_alg».proof.Proof.Gen.Pre_finite_inputs
import proofs.«153148_j8143257993640_2_alg».proof.Proof.Kernel.Frame
import proofs.«153148_j8143257993640_2_alg».proof.Proof.KernelIdeal.Value
import proofs.«153148_j8143257993640_2_alg».proof.Proof.RefForm
import proofs.«153148_j8143257993640_2_alg».proof.Proof.PreFacts
import proofs.«153148_j8143257993640_2_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel runs to the end and leaves its arguments as launched. -/
theorem frame_k : Cert.frame_Kernel := fun m ρ _ => Cert.Kernel.Hand.frame m ρ
/-- So does its reading over the extended reals. -/
theorem frame_ki : Cert.frame_KernelIdeal := fun m ρ _ => Cert.KernelIdeal.Hand.frame m ρ
/-- The host program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run, and end with equal results. -/
theorem algebraic : Cert.algebraic_KernelIdeal_ReferenceIdeal := by
  intro m ρ m' ρ' hpre hagree
  refine ⟨fun c => Cert.KernelIdeal.Hand.KOut m ρ c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v57_eq, a0, a1, a2, a3, a4, a5]
  obtain ⟨hg, hh, hW, hb, hgamma, hbeta, hrow⟩ := Cert.PreFacts.pre_facts _ _ _ _ _ _ (hpre c)
  funext i
  obtain ⟨r, cc, rfl⟩ : ∃ (r : Fin 16384) (cc : Fin 64), i = ix2 r cc := ⟨i 0, i 1, eq_ix2 i⟩
  refine (Cert.RefForm.ref_apply _ _ _ _ _ _ r cc).trans ?_
  refine Eq.trans ?_ (Cert.KernelIdeal.Hand.KOut_apply m ρ c r cc).symm
  have hp : ∀ q : Fin 16384, Cert.KernelIdeal.Hand.hpF m ρ c (ix2 q cc)
      = Cert.KernelIdeal.Hand.kHp (Cert.KernelIdeal.Hand.argH m c) (Cert.KernelIdeal.Hand.argGa m c) (Cert.KernelIdeal.Hand.argBe m c)
          (Cert.KernelIdeal.Hand.argW m c) (Cert.KernelIdeal.Hand.argB m c) q cc := fun q => Cert.KernelIdeal.Hand.hpF_apply m ρ c q cc
  have hs : (∑ q : Fin 16384, Cert.KernelIdeal.Hand.argG m c (ix2 r q) * (Cert.KernelIdeal.Hand.dK (Cert.KernelIdeal.Hand.argG m c) (ix2 q (0 : Fin 1)) * Cert.KernelIdeal.Hand.hpF m ρ c (ix2 q cc)))
      = ∑ q : Fin 16384, Cert.KernelIdeal.Hand.argG m c (ix2 r q) * (Ideal.rsqrt ((∑ j : Fin 16384, Cert.KernelIdeal.Hand.argG m c (ix2 q j)) + 1)
          * Cert.KernelIdeal.Hand.kHp (Cert.KernelIdeal.Hand.argH m c) (Cert.KernelIdeal.Hand.argGa m c) (Cert.KernelIdeal.Hand.argBe m c)
              (Cert.KernelIdeal.Hand.argW m c) (Cert.KernelIdeal.Hand.argB m c) q cc) :=
    Finset.sum_congr rfl fun q _ => by rw [hp q]; rfl
  rw [hs, hp r]
  exact (Cert.Bridge.bridge (Cert.KernelIdeal.Hand.argG m c) (Cert.KernelIdeal.Hand.argH m c) (Cert.KernelIdeal.Hand.argW m c)
    (Cert.KernelIdeal.Hand.argB m c) (Cert.KernelIdeal.Hand.argGa m c) (Cert.KernelIdeal.Hand.argBe m c) hg hh hW hb hgamma hbeta hrow r cc).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
